-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_arg5 : FVec F S1024x1024 .f32) (main_arg6 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  main_v33

def fn {F : FTy → Type} [FloatOps F] (main_arg0 : FVec F S4x2048x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Kernel.lean ====
abbrev S4x2048x1024 : Shape := ⟨3, ![4, 2048, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x1024x1024 : Shape := ⟨3, ![1, 1024, 1024]⟩
abbrev S1x512x1024 : Shape := ⟨3, ![1, 512, 1024]⟩
abbrev S1024x1 : Shape := ⟨2, ![1024, 1]⟩
abbrev S1024x512 : Shape := ⟨2, ![1024, 512]⟩

abbrev nBuf : Space → Nat
  | .hbm => 18
  | .vmem => 25
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S8192x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S8192x1024, .bf16⟩
  | .hbm, ⟨12, _⟩ => ⟨S8192x1024, .bf16⟩
  | .hbm, ⟨13, _⟩ => ⟨S8192x1024, .bf16⟩
  | .hbm, ⟨14, _⟩ => ⟨S4x2048x1024, .bf16⟩
  | .hbm, ⟨15, _⟩ => ⟨S4x2048x1024, .bf16⟩
  | .hbm, ⟨16, _⟩ => ⟨S4x2048x1024, .bf16⟩
  | .hbm, ⟨17, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x1024x1024, .bf16⟩
  | .local _ .vmem, ⟨15, _⟩ => ⟨S1x1024x1024, .bf16⟩
  | .local _ .vmem, ⟨16, _⟩ => ⟨S1x512x1024, .bf16⟩
  | .local _ .vmem, ⟨17, _⟩ => ⟨S1x512x1024, .bf16⟩
  | .local _ .vmem, ⟨18, _⟩ => ⟨S1x512x1024, .bf16⟩
  | .local _ .vmem, ⟨19, _⟩ => ⟨S1x512x1024, .bf16⟩
  | .local _ .vmem, ⟨20, _⟩ => ⟨S1x1024x1024, .f32⟩
  | .local _ .vmem, ⟨21, _⟩ => ⟨S1x1024x1024, .f32⟩
  | .local _ .vmem, ⟨22, _⟩ => ⟨S1024x1, .f32⟩
  | .local _ .vmem, ⟨23, _⟩ => ⟨S1024x1, .f32⟩
  | .local _ .vmem, ⟨24, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![4, 2, 4], ![false, false, false]⟩

def k1_cond3 (i : grid1.Coords) : BitVec 1 :=
  let arg2 : BitVec 32 := BitVec.ofNat 32 (i 2).val
  let arg1 : BitVec 32 := BitVec.ofNat 32 (i 1).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v9 : BitVec 1 := Scalar.cmpi .eq arg2 v2
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c2_i32 : BitVec 32 := 2#32
  let v1 : BitVec 32 := Scalar.muli v0 c2_i32
  let c1_i32_0 : BitVec 32 := 1#32
  let v2 : BitVec 32 := Scalar.subi v1 c1_i32_0
  let v3 : BitVec 32 := Scalar.minsi arg2 v2
  let c0_i32 : BitVec 32 := 0#32
  let c0_i32_1 : BitVec 32 := 0#32
  ![arg0.toNat, v3.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S4x2048x1024_S8192x1024 : S4x2048x1024.ShapeCasts S8192x1024
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S4x2048x1024 : S8192x1024.ShapeCasts S4x2048x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  shapeCasts_S1024x1024_S1x1024x1024 : S1024x1024.ShapeCasts S1x1024x1024
  dot_S512x1024_S1024x1024_S512x1024_1_1_0_0_n_n_wf : DotDims.WF S512x1024 S1024x1024 S512x1024 [1] [1] [0] [0] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .f32 = 32 ∨ (Rect.block (s := S1024x1024) S1024x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x2048x1024.size a
  hwx1_0 : ∀ i : grid1.Coords, EltTy.bits .bf16 = 32 ∨ (Rect.block (s := S4x2048x1024) S1x1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S4x2048x1024.size a
  hwx1_1 : ∀ i : grid1.Coords, EltTy.bits .bf16 = 32 ∨ (Rect.block (s := S4x2048x1024) S1x512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1024.size a ≤ S4x2048x1024.size a
  hwx1_2 : ∀ i : grid1.Coords, EltTy.bits .bf16 = 32 ∨ (Rect.block (s := S4x2048x1024) S1x512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x2048x1024.size a
  hwx1_3 : ∀ i : grid1.Coords, EltTy.bits .f32 = 32 ∨ (Rect.block (s := S4x2048x1024) S1x1024x1024.size (cc1_transform_3 i) (hinb1_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v4_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S1024 : Shape := ⟨1, ![1024]⟩
abbrev S1x1x1024 : Shape := ⟨3, ![1, 1, 1024]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 55
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S4x2048x1024, .f32⟩
  | .hbm, ⟨8, _⟩ => ⟨S1x1x1024, .f32⟩
  | .hbm, ⟨9, _⟩ => ⟨S4x2048x1024, .f32⟩
  | .hbm, ⟨10, _⟩ => ⟨S4x2048x1024, .f32⟩
  | .hbm, ⟨11, _⟩ => ⟨S4x2048x1024, .f32⟩
  | .hbm, ⟨12, _⟩ => ⟨S1x1x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S1x1x1024, .f32⟩
  | .hbm, ⟨17, _⟩ => ⟨S4x2048x1024, .f32⟩
  | .hbm, ⟨18, _⟩ => ⟨S4x2048x1024, .f32⟩
  | .hbm, ⟨19, _⟩ => ⟨S4x2048x2048, .f32⟩
  | .hbm, ⟨20, _⟩ => ⟨S_, .f32⟩
  | .hbm, ⟨21, _⟩ => ⟨S_, .f32⟩
  | .hbm, ⟨22, _⟩ => ⟨S4x2048x2048, .f32⟩
  | .hbm, ⟨23, _⟩ => ⟨S4x2048x2048, .f32⟩
  | .hbm, ⟨24, _⟩ => ⟨S_, .i1⟩
  | .hbm, ⟨25, _⟩ => ⟨S2048x2048, .i1⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i32⟩
  | .hbm, ⟨30, _⟩ => ⟨S2048x2048, .i32⟩
  | .hbm, ⟨31, _⟩ => ⟨S2048x2048, .i1⟩
  | .hbm, ⟨32, _⟩ => ⟨S_, .i1⟩
  | .hbm, ⟨33, _⟩ => ⟨S2048x2048, .i1⟩
  | .hbm, ⟨34, _⟩ => ⟨S2048x2048, .i1⟩
  | .hbm, ⟨35, _⟩ => ⟨S_, .f32⟩
  | .hbm, ⟨36, _⟩ => ⟨S_, .f32⟩
  | .hbm, ⟨37, _⟩ => ⟨S4x2048x2048, .i1⟩
  | .hbm, ⟨38, _⟩ => ⟨S4x2048x2048, .f32⟩
  | .hbm, ⟨39, _⟩ => ⟨S4x2048x2048, .f32⟩
  | .hbm, ⟨40, _⟩ => ⟨S_, .f32⟩
  | .hbm, ⟨41, _⟩ => ⟨S4x2048, .f32⟩
  | .hbm, ⟨42, _⟩ => ⟨S_, .f32⟩
  | .hbm, ⟨43, _⟩ => ⟨S4x2048, .f32⟩
  | .hbm, ⟨44, _⟩ => ⟨S4x2048, .f32⟩
  | .hbm, ⟨45, _⟩ => ⟨S4x2048x1, .f32⟩
  | .hbm, ⟨46, _⟩ => ⟨S4x2048x2048, .f32⟩
  | .hbm, ⟨47, _⟩ => ⟨S4x2048x2048, .f32⟩
  | .hbm, ⟨48, _⟩ => ⟨S4x2048x2048, .f32⟩
  | .hbm, ⟨49, _⟩ => ⟨S_, .f32⟩
  | .hbm, ⟨50, _⟩ => ⟨S4x2048, .f32⟩
  | .hbm, ⟨51, _⟩ => ⟨S4x2048x1, .f32⟩
  | .hbm, ⟨52, _⟩ => ⟨S4x2048x2048, .f32⟩
  | .hbm, ⟨53, _⟩ => ⟨S4x2048x2048, .f32⟩
  | .hbm, ⟨54, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_v16 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v17 : Ref sig .tc := ⟨.hbm, 34, rfl⟩
abbrev main_cst_0 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_cst_1 : Ref sig .tc := ⟨.hbm, 40, rfl⟩
abbrev main_v19 : Ref sig .tc := ⟨.hbm, 41, rfl⟩
abbrev main_cst_2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_cst_3 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_1_01_0_n_n_wf : DotDims.WF S4x2048x1024 S1024x1024 S4x2048x1024 [2] [1] [0, 1] [0] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.K.Region0.lean ====
import proofs.«150816_j58841051955817_2_alg».proof.Proof.Gen.Kernel.Launch
import proofs.«150816_j58841051955817_2_alg».proof.Proof.Gen.Kernel.Skeleton
import proofs.«150816_j58841051955817_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: the body half of its frame, at any entry contents

The first region of the program computes the three projections `q = (x·Wqᵀ + bq)·(1/32)`, `k = x·Wkᵀ + bk`,
`v = x·Wvᵀ + bv` on a grid of 16 row blocks. Its pipeline has ten windows: the row block of `x` (window 0), the
three weight matrices and the three bias rows (windows 1 to 6, whole arrays, the same block at every point), and
the row blocks of the three results (windows 7 to 9).

This module states, at an arbitrary assignment `V` of contents to the buffers when the region is entered:

* the block every window shows at every grid point (`iblk0`), read off its array in `V`;
* what the body leaves in each result's staging buffer as a function of the input blocks (`out0_7`, `out0_8`,
  `out0_9`): the one store into it, whose rectangle is the whole buffer;
* the body's triple on whole staging buffers (`sound_kernel0`): it loads the seven inputs, reads each result
  buffer once before overwriting it, stores the three payloads, and leaves the inputs as they were;
* the proof data of the pipeline (`dat0`) and the body obligation at every point (`body_obligation0`).

An input window's staging buffer holds that window's block at every point whether or not the pipeline fetched
it there: a window that is not fetched at a point has the block index of the point before, and the body leaves
the block in place.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
    proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is through the whole buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each result window's buffer -/

/-- The buffer of `q`'s block after the body: its one store, of `(x·Wqᵀ + bq)·(1/32)` on the loaded blocks. -/
def out0_7 (x0 : Vec F S512x1024 .f32) (x1 : Vec F S1024x1024 .f32) (x2 : Vec F S1x1024 .f32) : Vec F S512x1024 .bf16 :=
  View.canon [⟨r0_0, k0_pay2 (View.ld x0 r0_0) (View.ld x1 r0_1) (View.ld x2 r0_2)⟩]

/-- The buffer of `k`'s block after the body: its one store, of `x·Wkᵀ + bk` on the loaded blocks. -/
def out0_8 (x0 : Vec F S512x1024 .f32) (x3 : Vec F S1024x1024 .f32) (x4 : Vec F S1x1024 .f32) : Vec F S512x1024 .bf16 :=
  View.canon [⟨r0_0, k0_pay3 (View.ld x0 r0_0) (View.ld x3 r0_1) (View.ld x4 r0_2)⟩]

/-- The buffer of `v`'s block after the body: its one store, of `x·Wvᵀ + bv` on the loaded blocks. -/
def out0_9 (x0 : Vec F S512x1024 .f32) (x5 : Vec F S1024x1024 .f32) (x6 : Vec F S1x1024 .f32) : Vec F S512x1024 .bf16 :=
  View.canon [⟨r0_0, k0_pay4 (View.ld x0 r0_0) (View.ld x5 r0_1) (View.ld x6 r0_2)⟩]

/-- A store through the whole-buffer rectangle covers the buffer. -/
theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The body on whole staging buffers, the inputs' at read contents `x0 … x6` and the results' at anything, runs to
    the continuation holding the inputs' as they were and each result's at `out0_W` of the inputs'. The loads read the
    whole buffers; each result buffer is read once (the value is not used) and then overwritten by one store
    through the whole-buffer rectangle, so what it holds afterwards is the store's payload. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them (`V`); after the body at
    point `t` each input's buffer at its block and each result's at `out0_W` of the input blocks; the invariant keeps
    the core's other scoped buffers and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's owed waits, and every window's current
    staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so `sound_kernel0` applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.R1Runs.lean ====
import proofs.«150816_j58841051955817_2_alg».proof.Proof.Gen.Kernel.Launch
import proofs.«150816_j58841051955817_2_alg».proof.Proof.Gen.Kernel.Skeleton
import proofs.«150816_j58841051955817_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: what its cases share

The grid is (batch, query tile, key tile) = (4, 2, 4), a point's position `t = 8·b + 4·qi + ki`. With
`last = 2·(qi + 1) − 1` the last key tile that meets query tile `qi`'s causal triangle, the body has three
conditionals: `ki = 0` (reset the running maximum, denominator and numerator), `ki ≤ last` (fold key tile
`ki` into them) and `ki = last` (write numerator / denominator to the output tile). -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (unfetched, the block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window, whose block index is clamped to the causal range. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, decided over the grid -/

/-- `ki = 0`: the first key tile of a query tile. -/
abbrev cond1_0 (i : grid1.Coords) : Prop := (Scalar.cmpi .ne (Scalar.extui (Scalar.cmpi .eq (BitVec.ofNat 32 (i 2).val) 0#32)) 0#32) = 1#1
/-- `ki ≤ 2·(qi + 1) − 1`: the key tile meets the query tile's causal triangle. -/
abbrev cond1_1 (i : grid1.Coords) : Prop := (Scalar.cmpi .ne (Scalar.extui (Scalar.cmpi .sle (BitVec.ofNat 32 (i 2).val) (Scalar.subi (Scalar.muli (Scalar.addi (BitVec.ofNat 32 (i 1).val) 1#32) 2#32) 1#32))) 0#32) = 1#1
/-- `ki = 2·(qi + 1) − 1`: the last key tile that does. -/
abbrev cond1_2 (i : grid1.Coords) : Prop := k1_cond3 i = 1#1

/-- The first key tile is every fourth position. -/
theorem hcond1_0 : ∀ t : Fin cfg1.N, cond1_0 (grid1.coords t) ↔ t.val % 4 = 0 :=
  (by decide +kernel : ∀ t : Fin grid1.N, cond1_0 (grid1.coords t) ↔ t.val % 4 = 0)
/-- Within a batch's eight positions the key tile misses the triangle at positions 2 and 3 only (query tile 0,
    key tiles 2 and 3). -/
theorem hcond1_1 : ∀ t : Fin cfg1.N, cond1_1 (grid1.coords t) ↔ ¬(t.val % 8 = 2 ∨ t.val % 8 = 3) :=
  (by decide +kernel : ∀ t : Fin grid1.N, cond1_1 (grid1.coords t) ↔ ¬(t.val % 8 = 2 ∨ t.val % 8 = 3))
/-- The last key tile of the triangle is position 1 (query tile 0) or 7 (query tile 1) of the eight. -/
theorem hcond1_2 : ∀ t : Fin cfg1.N, cond1_2 (grid1.coords t) ↔ (t.val % 8 = 1 ∨ t.val % 8 = 7) :=
  (by decide +kernel : ∀ t : Fin grid1.N, cond1_2 (grid1.coords t) ↔ (t.val % 8 = 1 ∨ t.val % 8 = 7))

/-! ## Where the output window is idle, and where it is written back -/

theorem live1_0 : ∀ i, cfg1.idle 0 i = false := fun _ => rfl
theorem live1_1 : ∀ i, cfg1.idle 1 i = false := fun _ => rfl
theorem live1_2 : ∀ i, cfg1.idle 2 i = false := fun _ => rfl
/-- Where the body does not store the output tile the window is idle, -/
theorem idle1_3 : ∀ t : Fin cfg1.N, ¬cond1_2 (grid1.coords t) → cfg1.idle 3 (grid1.coords t) = true := by decide +kernel
/-- and where it does, live. -/
theorem live1_3 : ∀ t : Fin cfg1.N, cond1_2 (grid1.coords t) → cfg1.idle 3 (grid1.coords t) = false := by decide +kernel
/-- The output tile is written back at the last key tile of each query tile (positions 3 and 7 of the eight). -/
theorem flush1_3' : ∀ t : Fin cfg1.N, (cfg1.win 3).flush t = true ↔ (t.val % 8 = 3 ∨ t.val % 8 = 7) :=
  (by decide +kernel : ∀ t : Fin grid1.N, win1_3.flush t = true ↔ (t.val % 8 = 3 ∨ t.val % 8 = 7))
/-- The output window is never fetched. -/
theorem nofetch1_3 : ∀ t : Fin cfg1.N, (cfg1.win 3).fetch t = false :=
  (by decide +kernel : ∀ t : Fin grid1.N, win1_3.fetch t = false)

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, -/
abbrev scM1_0 : Memref sig .tc .vmem S1024x1 .f32 := Memref.whole cc1_scratch0
/-- the running denominator -/
abbrev scM1_1 : Memref sig .tc .vmem S1024x1 .f32 := Memref.whole cc1_scratch1
/-- and the running numerator: whole scoped buffers of the kernel's own, carried from point to point. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1x1024x1024 .f32 := (Memref.whole cc1_stg3_0 : Memref sig .tc .vmem S1x1024x1024 .f32).view

/-! ## The class invariant with the three carried buffers split off -/

/-- The scoped buffers that are neither a staging buffer of this region nor one of the three carried buffers
    (the other region's staging buffers), each whole at some contents. -/
def R14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

theorem PhiA1_split (c : Dev nD) : (Pipeline.ΦA spec1 c : sProp 𝕄) ⊢ iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA R14; rw [scopedRest1_eq]; simp only [scM1_0, scM1_1, scM1_2, owns_whole]
  iintro ⟨⟨H1, H2, H3, H4, H5, H6, H7, H8, H9, H10, H11, H12, H13, H14, S0, S1, S2⟩, Hg⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [S0]; · iexact S0
  isplitl [S1]; · iexact S1
  isplitl [S2]; · iexact S2
  iexact Hg

theorem PhiA1_join (c : Dev nD) : iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA R14; rw [scopedRest1_eq]; simp only [scM1_0, scM1_1, scM1_2, owns_whole]
  iintro ⟨⟨H1, H2, H3, H4, H5, H6, H7, H8, H9, H10, H11, H12, H13, H14⟩, S0, S1, S2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    iexact S2
  iexact Hg

end Cert.Kernel.Hand

end
-- ==== Proof.K.R1RunA.lean ====
import proofs.«150816_j58841051955817_2_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE FIRST KEY TILE of a query tile (`ki = 0`, inside the triangle, not its last tile): the three carried buffers are
    reset — maximum to -inf, denominator and numerator to zero — and key tile 0 is folded in. On whole memrefs, the
    inputs' at their contents, the output's at contents handed back untouched, the carried buffers at anything, the body
    runs to the continuation holding each carried buffer with its stores written: the pieces are found by the run. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunD.lean ====
import proofs.«150816_j58841051955817_2_alg».proof.Proof.K.R1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A LATER KEY TILE inside the triangle that is not its last (`ki ≠ 0`, `ki < last`): key tile `ki` is folded into the
    carried maximum, denominator and numerator, which the body finds at what the point before left (`xs·`). The
    output's buffer is handed back untouched. -/
noncomputable def kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Hand

end
-- ==== Proof.K.R1RunB.lean ====
import proofs.«150816_j58841051955817_2_alg».proof.Proof.K.R1RunD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- THE LAST KEY TILE of a query tile's triangle (`ki = last`, which is never 0): key tile `ki` is folded into the carried
    buffers, found at what the point before left (`xs·`), and numerator / denominator is stored over the whole output
    tile, whose buffer is taken at anything. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Hand

end
-- ==== Proof.K.R1RunC.lean ====
import proofs.«150816_j58841051955817_2_alg».proof.Proof.K.R1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A KEY TILE OUTSIDE the triangle (query tile 0, key tiles 2 and 3): none of the three conditionals is taken, the body
    touches no memory, and whatever is held passes through. -/
theorem kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (P : sProp 𝕄) (E : Set ℕ) (K : PUnit → sProp 𝕄) (h : P ⊢ K ⟨⟩) :
    P ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  iintro HP
  sl_exec (disch := first | exact hc0 | exact hc1 | exact hc2)
  sl_step
  iapply h
  iexact HP

end Cert.Kernel.Hand

end
-- ==== Proof.K.R1Frame.lean ====
import proofs.«150816_j58841051955817_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The attention region: what each case leaves, the state after each point, the proof data, the body obligation -/

/-! ## What each case leaves in the carried buffers and in the output tile -/

/-- What this case leaves there: its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)
/-- Its stores tile the buffer, so they cover it. -/
theorem cover_sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL ((kernelRun1_A c i arg3 harg3 arg4 harg4 arg5 harg5 arg6 harg6 arg7 harg7 arg8 harg8 arg9 harg9 hc0 hc1 hc2 x0 x1 x2).1) S1024x1.size (by sl_kernel_rfl) y

/-- What this case leaves there: its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)
/-- Its stores tile the buffer, so they cover it. -/
theorem cover_sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL ((kernelRun1_A c i arg3 harg3 arg4 harg4 arg5 harg5 arg6 harg6 arg7 harg7 arg8 harg8 arg9 harg9 hc0 hc1 hc2 x0 x1 x2).2.1) S1024x1.size (by sl_kernel_rfl) y

/-- What this case leaves there: its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)
/-- Its stores tile the buffer, so they cover it. -/
theorem cover_sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL ((kernelRun1_A c i arg3 harg3 arg4 harg4 arg5 harg5 arg6 harg6 arg7 harg7 arg8 harg8 arg9 harg9 hc0 hc1 hc2 x0 x1 x2).2.2.1) S1024x1024.size (by sl_kernel_rfl) y

/-- What this case leaves there: its pieces read back. -/
def sout1_D_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).1)
/-- Its stores tile the buffer, so they cover it. -/
theorem cover_sout1_D_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).1) S1024x1.size (by sl_kernel_rfl) y

/-- What this case leaves there: its pieces read back. -/
def sout1_D_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.1)
/-- Its stores tile the buffer, so they cover it. -/
theorem cover_sout1_D_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).2.1) S1024x1.size (by sl_kernel_rfl) y

/-- What this case leaves there: its pieces read back. -/
def sout1_D_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.1)
/-- Its stores tile the buffer, so they cover it. -/
theorem cover_sout1_D_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).2.2.1) S1024x1024.size (by sl_kernel_rfl) y

/-- What this case leaves there: its pieces read back. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 hc2 x0 x1 x2 xs0 xs1 xs2).1)
/-- Its stores tile the buffer, so they cover it. -/
theorem cover_out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).1) S1x1024x1024.size (by sl_kernel_rfl) y

/-- What this case leaves there: its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)
/-- Its stores tile the buffer, so they cover it. -/
theorem cover_sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.1) S1024x1.size (by sl_kernel_rfl) y

/-- What this case leaves there: its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)
/-- Its stores tile the buffer, so they cover it. -/
theorem cover_sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.2.1) S1024x1.size (by sl_kernel_rfl) y

/-- What this case leaves there: its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)
/-- Its stores tile the buffer, so they cover it. -/
theorem cover_sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.2.2.1) S1024x1024.size (by sl_kernel_rfl) y

/-! ## The four kinds of point, by position -/

theorem cA0 (t : Fin cfg1.N) (h : t.val % 4 = 0) : cond1_0 (grid1.coords t) := (hcond1_0 t).mpr h
theorem cA1 (t : Fin cfg1.N) (h : t.val % 4 = 0) : cond1_1 (grid1.coords t) := (hcond1_1 t).mpr (by omega)
theorem cA2 (t : Fin cfg1.N) (h : t.val % 4 = 0) : ¬cond1_2 (grid1.coords t) := fun hc => by have := (hcond1_2 t).mp hc; omega
theorem cB0 (t : Fin cfg1.N) (h : t.val % 8 = 1 ∨ t.val % 8 = 7) : ¬cond1_0 (grid1.coords t) := fun hc => by have := (hcond1_0 t).mp hc; omega
theorem cB1 (t : Fin cfg1.N) (h : t.val % 8 = 1 ∨ t.val % 8 = 7) : cond1_1 (grid1.coords t) := (hcond1_1 t).mpr (by omega)
theorem cB2 (t : Fin cfg1.N) (h : t.val % 8 = 1 ∨ t.val % 8 = 7) : cond1_2 (grid1.coords t) := (hcond1_2 t).mpr h
theorem cC0 (t : Fin cfg1.N) (h : t.val % 8 = 2 ∨ t.val % 8 = 3) : ¬cond1_0 (grid1.coords t) := fun hc => by have := (hcond1_0 t).mp hc; omega
theorem cC1 (t : Fin cfg1.N) (h : t.val % 8 = 2 ∨ t.val % 8 = 3) : ¬cond1_1 (grid1.coords t) := fun hc => (hcond1_1 t).mp hc h
theorem cC2 (t : Fin cfg1.N) (h : t.val % 8 = 2 ∨ t.val % 8 = 3) : ¬cond1_2 (grid1.coords t) := fun hc => by have := (hcond1_2 t).mp hc; omega
theorem cD0 (t : Fin cfg1.N) (h : t.val % 8 = 5 ∨ t.val % 8 = 6) : ¬cond1_0 (grid1.coords t) := fun hc => by have := (hcond1_0 t).mp hc; omega
theorem cD1 (t : Fin cfg1.N) (h : t.val % 8 = 5 ∨ t.val % 8 = 6) : cond1_1 (grid1.coords t) := (hcond1_1 t).mpr (by omega)
theorem cD2 (t : Fin cfg1.N) (h : t.val % 8 = 5 ∨ t.val % 8 = 6) : ¬cond1_2 (grid1.coords t) := fun hc => by have := (hcond1_2 t).mp hc; omega

/-! ## The state after each point -/

/-- The output tile's buffer, the running maximum, the running denominator and the running numerator. -/
abbrev St (F : FTy → Type) [FloatOps F] : Type := Vec F S1x1024x1024 .f32 × Vec F S1024x1 .f32 × Vec F S1024x1 .f32 × Vec F S1024x1024 .f32

/-- Contents nothing consults: the output tile's buffer where the window is idle and not written back. -/
def junk3 : Vec F S1x1024x1024 .f32 := VO1_3.read (Elt F) VO1_3.junk

/-- After the first key tile of a query tile: reset, then key tile 0 folded in. -/
def stA (c : Dev nD) (t : Fin cfg1.N) (h : t.val % 4 = 0) : St F :=
  (junk3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t),
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t),
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t))
/-- After a later key tile that is not the triangle's last: folded into what the point before left. -/
def stD (c : Dev nD) (t : Fin cfg1.N) (h : t.val % 8 = 5 ∨ t.val % 8 = 6) (p : St F) : St F :=
  (junk3, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2,
    sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2,
    sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2)
/-- After the triangle's last key tile: folded in, and the output tile stored. -/
def stB (c : Dev nD) (t : Fin cfg1.N) (h : t.val % 8 = 1 ∨ t.val % 8 = 7) (p : St F) : St F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2)

/-- THE RECURRENCE over the positions: at a first key tile the reset and fold; at a key tile outside the triangle
    nothing changes (the stored output tile stays in its buffer until it is written back); at the triangle's last key
    tile the fold and the output store; otherwise the fold. -/
def outsAt1 (c : Dev nD) : (n : ℕ) → n < cfg1.N → St F
  | 0, hn => stA V c ⟨0, hn⟩ (Nat.zero_mod _)
  | n + 1, hn =>
    if h0 : (n + 1) % 4 = 0 then stA V c ⟨n + 1, hn⟩ h0
    else if hC : (n + 1) % 8 = 2 ∨ (n + 1) % 8 = 3 then outsAt1 c n (Nat.lt_of_succ_lt hn)
    else if hB : (n + 1) % 8 = 1 ∨ (n + 1) % 8 = 7 then stB V c ⟨n + 1, hn⟩ hB (outsAt1 c n (Nat.lt_of_succ_lt hn))
    else stD V c ⟨n + 1, hn⟩ (show (n + 1) % 8 = 5 ∨ (n + 1) % 8 = 6 by omega) (outsAt1 c n (Nat.lt_of_succ_lt hn))

theorem outsAt1_A (c : Dev nD) (t : Fin cfg1.N) (h : t.val % 4 = 0) : outsAt1 V c t.val t.isLt = stA V c t h := by
  obtain ⟨n, hn⟩ := t
  cases n with
  | zero => rfl
  | succ n => exact dif_pos h
theorem outsAt1_C (c : Dev nD) (t : Fin cfg1.N) (h : t.val % 8 = 2 ∨ t.val % 8 = 3) :
    outsAt1 V c t.val t.isLt = outsAt1 V c (t.val - 1) (Nat.lt_of_le_of_lt (Nat.sub_le _ _) t.isLt) := by
  obtain ⟨n, hn⟩ := t
  cases n with
  | zero => exfalso; dsimp only at h; omega
  | succ n => exact (dif_neg (by dsimp only at h; omega)).trans ((dif_pos h).trans rfl)
theorem outsAt1_B (c : Dev nD) (t : Fin cfg1.N) (h : t.val % 8 = 1 ∨ t.val % 8 = 7) :
    outsAt1 V c t.val t.isLt = stB V c t h (outsAt1 V c (t.val - 1) (Nat.lt_of_le_of_lt (Nat.sub_le _ _) t.isLt)) := by
  obtain ⟨n, hn⟩ := t
  cases n with
  | zero => exfalso; dsimp only at h; omega
  | succ n => exact (dif_neg (by dsimp only at h; omega)).trans ((dif_neg (by dsimp only at h; omega)).trans ((dif_pos h).trans rfl))
theorem outsAt1_D (c : Dev nD) (t : Fin cfg1.N) (h : t.val % 8 = 5 ∨ t.val % 8 = 6) :
    outsAt1 V c t.val t.isLt = stD V c t h (outsAt1 V c (t.val - 1) (Nat.lt_of_le_of_lt (Nat.sub_le _ _) t.isLt)) := by
  obtain ⟨n, hn⟩ := t
  cases n with
  | zero => exfalso; dsimp only at h; omega
  | succ n => exact (dif_neg (by dsimp only at h; omega)).trans ((dif_neg (by dsimp only at h; omega)).trans ((dif_neg (by dsimp only at h; omega)).trans rfl))

/-! ## The region invariant: the three carried buffers at the recurrence's values -/

def PhiS1 (c : Dev nD) : (n : ℕ) → n ≤ cfg1.N → sProp 𝕄
  | 0, _ => Pipeline.ΦA spec1 c
  | n + 1, hn => iprop(R14 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_succ (c : Dev nD) (n : ℕ) (hn : n < cfg1.N) :
    PhiS1 V c (n + 1) hn = iprop(R14 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl
theorem PhiS1_pos (c : Dev nD) (n : ℕ) (h : n ≤ cfg1.N) (hz : n ≠ 0) :
    PhiS1 V c n h = iprop(R14 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl
/-- At any position the invariant holds the three carried buffers at SOME contents. -/
theorem PhiS1_weak (c : Dev nD) (n : ℕ) (h : n ≤ cfg1.N) :
    PhiS1 V c n h ⊢ iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiS1_succ]
    iintro ⟨HR, S0, S1, S2, Hg⟩
    isplitl [HR]; · iexact HR
    isplitl [S0]; · iexists _; iexact S0
    isplitl [S1]; · iexists _; iexact S1
    isplitl [S2]; · iexists _; iexact S2
    iexact Hg

/-! ## The pipeline's proof data -/

/-- The proof data of the attention pipeline on core `c`: the arrays as the region finds them; after the body each
    input's buffer at its block and the output's at the recurrence's first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The output tile's buffer through the key tiles outside the triangle

For query tile 0 the output tile is stored at key tile 1 and written back only at key tile 3: at key tiles 2 and 3 the
body stores nothing, and the buffer still holds the stored tile. -/

/-- The output window's blocks tile its array: nothing is cut. -/
theorem noclip1_3 : ∀ (i : grid1.Coords) a, (cfg1.win 3).clip i a = none := fun _ _ => rfl

/-- At position 2 of the eight the buffer holds what position 1 stored. -/
theorem before1_3_at2 (c : Dev nD) (t : Fin cfg1.N) (h : t.val % 8 = 2) (d) :
    (dat1 V c).before 3 t d = (dat1 V c).after 3 ⟨t.val - 1, Nat.lt_of_le_of_lt (Nat.sub_le _ _) t.isLt⟩ := by
  rw [(dat1 V c).before_of_pos 3 t (by omega) (nofetch1_3 t) d,
    if_neg (by rw [Bool.not_eq_true]; exact Bool.eq_false_iff.mpr fun hf => by have := (flush1_3' _).mp hf; dsimp only at this; omega)]
  unfold Dat.left
  rw [live1_3 _ ((hcond1_2 _).mpr (by dsimp only; omega))]
  dsimp only
  unfold Dat.kept
  rw [Pipeline.fill_of_clip_none 3 _ (noclip1_3 _) d ((dat1 V c).after 3 _), Window.fill_cut]

/-- At position 3 it still does. -/
theorem before1_3_at3 (c : Dev nD) (t : Fin cfg1.N) (h : t.val % 8 = 3) (d) :
    (dat1 V c).before 3 t d = (dat1 V c).after 3 ⟨t.val - 2, Nat.lt_of_le_of_lt (Nat.sub_le _ _) t.isLt⟩ := by
  rw [(dat1 V c).before_of_pos 3 t (by omega) (nofetch1_3 t) d,
    if_neg (by rw [Bool.not_eq_true]; exact Bool.eq_false_iff.mpr fun hf => by have := (flush1_3' _).mp hf; dsimp only at this; omega)]
  unfold Dat.left
  rw [idle1_3 _ (fun hc => by have := (hcond1_2 _).mp hc; dsimp only at this; omega)]
  dsimp only
  rw [before1_3_at2 V c ⟨t.val - 1, Nat.lt_of_le_of_lt (Nat.sub_le _ _) t.isLt⟩ (by dsimp only; omega) d]
  congr 1

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point, by the kind of point its position says it is: the inputs' buffers hold their blocks; the
    invariant hands the body the three carried buffers at what the point before left (at anything where the body
    resets them) and takes them back at this point's values; the output's buffer is handed back untouched where the
    body does not store it, which at the write-back of query tile 0 is the tile stored two points earlier. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [live1_0 (grid1.coords t)], after1_0]
  rw [show (dat1 V c).leavesExact 1 t = owns (c : Thread nD τ) (ms1_1 t) fullShare ((dat1 V c).after 1 t) from by
      unfold Dat.leavesExact; rw [live1_1 (grid1.coords t)], after1_1]
  rw [show (dat1 V c).leavesExact 2 t = owns (c : Thread nD τ) (ms1_2 t) fullShare ((dat1 V c).after 2 t) from by
      unfold Dat.leavesExact; rw [live1_2 (grid1.coords t)], after1_2]
  rw [PhiS1_castSucc V c t]
  have hN : t.val < 32 := lt_of_lt_of_eq t.isLt (show cfg1.N = 32 from N_1)
  by_cases h0 : t.val % 4 = 0
  · -- the first key tile of a query tile
    rw [Dat.leavesExact_idle (dat1 V c) 3 t (idle1_3 t (cA2 t h0))
      (Bool.eq_false_iff.mpr fun hf => by have := (flush1_3' t).mp hf; omega)]
    rw [outsAt1_A V c t h0]
    unfold stA sout1_A_0 sout1_A_1 sout1_A_2; (try dsimp only)
    iintro ⟨HΦ, Ho, ⟨%d0, H0⟩, ⟨%d1, H1⟩, ⟨%d2, H2⟩, ⟨%d3, H3⟩⟩
    ihave HΦ' := (PhiS1_weak V c t.val (Nat.le_of_lt t.isLt)) $$ HΦ
    icases HΦ' with ⟨HR, HS0, HS1, HS2, Hg⟩
    iapply ((kernelRun1_A c (grid1.coords t) _ _ _ _ _ _ _ _ _ _ _ _ _ _ (cA0 t h0) (cA1 t h0) (cA2 t h0) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (cover_sout1_A_0 c _ _ _ _ _ _ _ _ _ _ _ _ _ _ _ _ _ _ _ _ _)
      isplitl [HS1]
      · unfold owns; iexists _; isplitr
        swap; · iexact HS1
        ipureintro; exact View.read_writes_of_cover _ _ _ _ _ (cover_sout1_A_1 c _ _ _ _ _ _ _ _ _ _ _ _ _ _ _ _ _ _ _ _ _)
      isplitl [HS2]
      · unfold owns; iexists _; isplitr
        swap; · iexact HS2
        ipureintro; exact View.read_writes_of_cover _ _ _ _ _ (cover_sout1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz]
    by_cases hC : t.val % 8 = 2 ∨ t.val % 8 = 3
    · -- a key tile outside the triangle: nothing happens
      rw [outsAt1_C V c t hC]
      rcases hC with h2 | h3
      · rw [Dat.leavesExact_idle (dat1 V c) 3 t (idle1_3 t (cC2 t (.inl h2)))
          (Bool.eq_false_iff.mpr fun hf => by have := (flush1_3' t).mp hf; omega)]
        refine kernelRun1_C c (grid1.coords t) _ _ _ _ _ _ _ _ _ _ _ _ _ _ (cC0 t (.inl h2)) (cC1 t (.inl h2)) (cC2 t (.inl h2)) _ Set.univ _ ?_
        iintro ⟨HΦ, Ho, ⟨%d0, H0⟩, ⟨%d1, H1⟩, ⟨%d2, H2⟩, H3⟩
        isplitl [HΦ]; · iexact HΦ
        isplitl [Ho]; · iexact Ho
        isplitl [H0]; · iexact H0
        isplitl [H1]; · iexact H1
        isplitl [H2]; · iexact H2
        iexact H3
      · rw [show (dat1 V c).leavesExact 3 t = owns (c : Thread nD τ) (ms1_3 t) fullShare ((dat1 V c).after 3 t) from by
          unfold Dat.leavesExact
          rw [idle1_3 t (cC2 t (.inr h3)), (flush1_3' t).mpr (.inl h3)]]
        simp only [before1_3_at3 V c t h3]
        rw [after1_3 V c t, outsAt1_C V c t (.inr h3),
          outsAt1_C V c ⟨t.val - 1, Nat.lt_of_le_of_lt (Nat.sub_le _ _) t.isLt⟩ (.inl (by dsimp only; omega)), after1_3]
        refine kernelRun1_C c (grid1.coords t) _ _ _ _ _ _ _ _ _ _ _ _ _ _ (cC0 t (.inr h3)) (cC1 t (.inr h3)) (cC2 t (.inr h3)) _ Set.univ _ ?_
        iintro ⟨HΦ, Ho, ⟨%d0, H0⟩, ⟨%d1, H1⟩, ⟨%d2, H2⟩, ⟨%d3, H3⟩⟩
        isplitl [HΦ]; · iexact HΦ
        isplitl [Ho]; · iexact Ho
        isplitl [H0]; · iexact H0
        isplitl [H1]; · iexact H1
        isplitl [H2]; · iexact H2
        iexact H3
    · by_cases hB : t.val % 8 = 1 ∨ t.val % 8 = 7
      · -- the triangle's last key tile
        rw [show (dat1 V c).leavesExact 3 t = owns (c : Thread nD τ) (ms1_3 t) fullShare ((dat1 V c).after 3 t) from by
          unfold Dat.leavesExact; rw [live1_3 t (cB2 t hB)], after1_3]
        rw [outsAt1_B V c t hB]
        unfold stB out1_B_3 sout1_B_0 sout1_B_1 sout1_B_2; (try dsimp only)
        iintro ⟨⟨HR, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (cB0 t hB) (cB1 t hB) (cB2 t hB) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (cover_sout1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (cover_sout1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (cover_sout1_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_out1_B_3 c _ _ _ _ _ _ _ _ _ _ _ _ _ _ _ _ _ _ _ _ _ _ _ _)
      · -- a later key tile inside the triangle
        have hD : t.val % 8 = 5 ∨ t.val % 8 = 6 := by omega
        rw [Dat.leavesExact_idle (dat1 V c) 3 t (idle1_3 t (cD2 t hD))
          (Bool.eq_false_iff.mpr fun hf => by have := (flush1_3' t).mp hf; omega)]
        rw [outsAt1_D V c t hD]
        unfold stD sout1_D_0 sout1_D_1 sout1_D_2; (try dsimp only)
        iintro ⟨⟨HR, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ (cD0 t hD) (cD1 t hD) (cD2 t hD) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (cover_sout1_D_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (cover_sout1_D_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (cover_sout1_D_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the class's back: the carried buffers' values are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_weak V c _ _).trans (PhiA1_join c)

end Cert.Kernel.Hand

end
-- ==== Proof.K.Run.lean ====
import proofs.«150816_j58841051955817_2_alg».proof.Proof.K.Region0
import proofs.«150816_j58841051955817_2_alg».proof.Proof.K.R1Frame

/-!
# The run: the program's segments from the launch to the return

The program is four segments: the reshapes of the arguments, the projection region, the reshapes of the three
projections, the attention region. This module names the contents of every unscoped buffer at each segment boundary
(`W0` … `W4`, a fold from the launch memory: a stretch of host operations by its operations, a region by what its
write-backs leave in its arrays), gives each region as a segment over the thread state "every unscoped buffer at the
boundary's contents, the generator register at some state, nothing owed", and launches the chain. The argument
arrays are written by no segment, so they end as launched.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the four reshapes before the projection region (its entry). -/
abbrev W1 : Dev nD → Valuation τ sig (Elt F) := fun c => StableHlo.after hostOps0 (W0 m ρ c)
/-- The same read at the core's references (what the projection region's proof data take). -/
abbrev V1 : (c : Dev nD) → (b : Ref sig .tc) → Buf (Elt F) ((c : Thread nD τ).loc b) := fun c b => W1 m ρ c b
/-- At the projection region's exit: its arrays at what the pipeline leaves (the inputs as entered, each result's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the projection region's exit contents). -/
abbrev V2 : (c : Dev nD) → (b : Ref sig .tc) → Buf (Elt F) ((c : Thread nD τ).loc b) := fun c b => W2 m ρ c b
/-- At the exit each array of the region holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes between the regions (the attention region's entry). -/
abbrev W3 : Dev nD → Valuation τ sig (Elt F) := fun c => StableHlo.after hostOps1 (W2 m ρ c)
/-- The same read at the core's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The results of the two regions, by name -/

/-- The attention region's result array at the end of the run is what its pipeline leaves in it. -/
theorem W4_main_v8 (c : Dev nD) : W4 m ρ c (Proc.devRef .tc main_v8) = (dat1 (V3 m ρ) c).arrAt 3 cfg1.N :=
  W4_arr m ρ c 3
/-- The three projections at the projection region's exit are what its pipeline leaves in them. -/
theorem W2_main_v4_0 (c : Dev nD) : W2 m ρ c (Proc.devRef .tc main_v4_0) = (dat0 (V1 m ρ) c).arrAt 7 cfg0.N :=
  W2_arr m ρ c 7
theorem W2_main_v4_1 (c : Dev nD) : W2 m ρ c (Proc.devRef .tc main_v4_1) = (dat0 (V1 m ρ) c).arrAt 8 cfg0.N :=
  W2_arr m ρ c 8
theorem W2_main_v4_2 (c : Dev nD) : W2 m ρ c (Proc.devRef .tc main_v4_2) = (dat0 (V1 m ρ) c).arrAt 9 cfg0.N :=
  W2_arr m ρ c 9

/-! ### The arguments end as launched: no reshape and no region writes one (the projection region reads the three
    weight matrices through input windows and bypasses the other arguments; the attention region bypasses all),
    so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    waits, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed waits: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's plain invariant gives back the generator register and the scoped buffers no window of
    it stages; it has no semaphore of its own. -/
theorem PhiA_out1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region over the thread state: entered from every unscoped buffer at `W3`, left at `W4` (what the
    launch reads at the end). Its invariant carries the three scratch buffers at the running values; it starts as the
    plain invariant and gives the plain invariant back after the last point, the values forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V3 m ρ) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: the reshapes, the projection region, the reshapes, the attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates, nothing
    faulting, and every final state has each unscoped buffer of each core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.Kernel.Hand

end
-- ==== Proof.KI.Region0.lean ====
import proofs.«150816_j58841051955817_2_alg».proof.Proof.Gen.KernelIdeal.Launch
import proofs.«150816_j58841051955817_2_alg».proof.Proof.Gen.KernelIdeal.Skeleton
import proofs.«150816_j58841051955817_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The projection region: the body half of its frame, at any entry contents

The first region of the program computes the three projections `q = (x·Wqᵀ + bq)·(1/32)`, `k = x·Wkᵀ + bk`,
`v = x·Wvᵀ + bv` on a grid of 16 row blocks. Its pipeline has ten windows: the row block of `x` (window 0), the
three weight matrices and the three bias rows (windows 1 to 6, whole arrays, the same block at every point), and
the row blocks of the three results (windows 7 to 9).

This module states, at an arbitrary assignment `V` of contents to the buffers when the region is entered:

* the block every window shows at every grid point (`iblk0`), read off its array in `V`;
* what the body leaves in each result's staging buffer as a function of the input blocks (`out0_7`, `out0_8`,
  `out0_9`): the one store into it, whose rectangle is the whole buffer;
* the body's triple on whole staging buffers (`sound_kernel0`): it loads the seven inputs, reads each result
  buffer once before overwriting it, stores the three payloads, and leaves the inputs as they were;
* the proof data of the pipeline (`dat0`) and the body obligation at every point (`body_obligation0`).

An input window's staging buffer holds that window's block at every point whether or not the pipeline fetched
it there: a window that is not fetched at a point has the block index of the point before, and the body leaves
the block in place.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the contents of the core's buffers when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! Each input window's current staging buffer holds its block at every point, fetched there or not, for any
    proof data whose array is `V`'s and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each load and each store is through the whole buffer -/

abbrev r0_0 : Rect S512x1024 := Rect.unit (s := S512x1024) ![0, 0] S512x1024.size inb_S512x1024_S512x1024_0_0
abbrev r0_1 : Rect S1024x1024 := Rect.unit (s := S1024x1024) ![0, 0] S1024x1024.size inb_S1024x1024_S1024x1024_0_0
abbrev r0_2 : Rect S1x1024 := Rect.unit (s := S1x1024) ![0, 0] S1x1024.size inb_S1x1024_S1x1024_0_0

/-! ## What the body leaves in each result window's buffer -/

/-- The buffer of `q`'s block after the body: its one store, of `(x·Wqᵀ + bq)·(1/32)` on the loaded blocks. -/
def out0_7 (x0 : Vec F S512x1024 .f32) (x1 : Vec F S1024x1024 .f32) (x2 : Vec F S1x1024 .f32) : Vec F S512x1024 .bf16 :=
  View.canon [⟨r0_0, k0_pay2 (View.ld x0 r0_0) (View.ld x1 r0_1) (View.ld x2 r0_2)⟩]

/-- The buffer of `k`'s block after the body: its one store, of `x·Wkᵀ + bk` on the loaded blocks. -/
def out0_8 (x0 : Vec F S512x1024 .f32) (x3 : Vec F S1024x1024 .f32) (x4 : Vec F S1x1024 .f32) : Vec F S512x1024 .bf16 :=
  View.canon [⟨r0_0, k0_pay3 (View.ld x0 r0_0) (View.ld x3 r0_1) (View.ld x4 r0_2)⟩]

/-- The buffer of `v`'s block after the body: its one store, of `x·Wvᵀ + bv` on the loaded blocks. -/
def out0_9 (x0 : Vec F S512x1024 .f32) (x5 : Vec F S1024x1024 .f32) (x6 : Vec F S1x1024 .f32) : Vec F S512x1024 .bf16 :=
  View.canon [⟨r0_0, k0_pay4 (View.ld x0 r0_0) (View.ld x5 r0_1) (View.ld x6 r0_2)⟩]

/-- A store through the whole-buffer rectangle covers the buffer. -/
theorem cover0_out (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

/-! ## The body's triple -/

set_option maxHeartbeats 4000000 in
/-- The body on whole staging buffers, the inputs' at read contents `x0 … x6` and the results' at anything, runs to
    the continuation holding the inputs' as they were and each result's at `out0_W` of the inputs'. The loads read the
    whole buffers; each result buffer is read once (the value is not used) and then overwritten by one store
    through the whole-buffer rectangle, so what it holds afterwards is the store's payload. -/
theorem sound_kernel0 (c : Dev nD) (E : Set ℕ) (i : grid0.Coords) (arg1 : Memref sig .tc .vmem S512x1024 .f32) (harg1 : arg1.IsWhole) (arg2 : Memref sig .tc .vmem S1024x1024 .f32) (harg2 : arg2.IsWhole) (arg3 : Memref sig .tc .vmem S1x1024 .f32) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .f32) (x2 : Vec F S1x1024 .f32) (x3 : Vec F S1024x1024 .f32) (x4 : Vec F S1x1024 .f32) (x5 : Vec F S1024x1024 .f32) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6
            ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10) K := by
  simp only [cc0__proj_kernel_eq_skeleton]; unfold cc0__proj_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0_out _)
  isplitl [H8]
  · iexists _; isplitr
    swap; · iexact H8
    ipureintro
    exact View.read_writes_eq_canon _ _ _ (cover0_out _)
  iexists _; isplitr
  swap; · iexact H9
  ipureintro
  exact View.read_writes_eq_canon _ _ _ (cover0_out _)

/-! ## The pipeline's proof data -/

/-- The proof data of the projection pipeline on core `c`: the arrays as the region finds them (`V`); after the body at
    point `t` each input's buffer at its block and each result's at `out0_W` of the input blocks; the invariant keeps
    the core's other scoped buffers and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-! What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-! Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`: the invariant, the core's owed waits, and every window's current
    staging buffer at what the pipeline left in it. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so `sound_kernel0` applies; the invariant and
    the core's owed waits pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.R1Runs.lean ====
import proofs.«150816_j58841051955817_2_alg».proof.Proof.Gen.KernelIdeal.Launch
import proofs.«150816_j58841051955817_2_alg».proof.Proof.Gen.KernelIdeal.Skeleton
import proofs.«150816_j58841051955817_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention region: what its cases share

The grid is (batch, query tile, key tile) = (4, 2, 4), a point's position `t = 8·b + 4·qi + ki`. With
`last = 2·(qi + 1) − 1` the last key tile that meets query tile `qi`'s causal triangle, the body has three
conditionals: `ki = 0` (reset the running maximum, denominator and numerator), `ki ≤ last` (fold key tile
`ki` into them) and `ki = last` (write numerator / denominator to the output tile). -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The query window's staging buffer holds its block at every point, fetched there or not (unfetched, the block
    index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for the key window, whose block index is clamped to the causal range. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for the value window. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's three conditions, decided over the grid -/

/-- `ki = 0`: the first key tile of a query tile. -/
abbrev cond1_0 (i : grid1.Coords) : Prop := (Scalar.cmpi .ne (Scalar.extui (Scalar.cmpi .eq (BitVec.ofNat 32 (i 2).val) 0#32)) 0#32) = 1#1
/-- `ki ≤ 2·(qi + 1) − 1`: the key tile meets the query tile's causal triangle. -/
abbrev cond1_1 (i : grid1.Coords) : Prop := (Scalar.cmpi .ne (Scalar.extui (Scalar.cmpi .sle (BitVec.ofNat 32 (i 2).val) (Scalar.subi (Scalar.muli (Scalar.addi (BitVec.ofNat 32 (i 1).val) 1#32) 2#32) 1#32))) 0#32) = 1#1
/-- `ki = 2·(qi + 1) − 1`: the last key tile that does. -/
abbrev cond1_2 (i : grid1.Coords) : Prop := k1_cond3 i = 1#1

/-- The first key tile is every fourth position. -/
theorem hcond1_0 : ∀ t : Fin cfg1.N, cond1_0 (grid1.coords t) ↔ t.val % 4 = 0 :=
  (by decide +kernel : ∀ t : Fin grid1.N, cond1_0 (grid1.coords t) ↔ t.val % 4 = 0)
/-- Within a batch's eight positions the key tile misses the triangle at positions 2 and 3 only (query tile 0,
    key tiles 2 and 3). -/
theorem hcond1_1 : ∀ t : Fin cfg1.N, cond1_1 (grid1.coords t) ↔ ¬(t.val % 8 = 2 ∨ t.val % 8 = 3) :=
  (by decide +kernel : ∀ t : Fin grid1.N, cond1_1 (grid1.coords t) ↔ ¬(t.val % 8 = 2 ∨ t.val % 8 = 3))
/-- The last key tile of the triangle is position 1 (query tile 0) or 7 (query tile 1) of the eight. -/
theorem hcond1_2 : ∀ t : Fin cfg1.N, cond1_2 (grid1.coords t) ↔ (t.val % 8 = 1 ∨ t.val % 8 = 7) :=
  (by decide +kernel : ∀ t : Fin grid1.N, cond1_2 (grid1.coords t) ↔ (t.val % 8 = 1 ∨ t.val % 8 = 7))

/-! ## Where the output window is idle, and where it is written back -/

theorem live1_0 : ∀ i, cfg1.idle 0 i = false := fun _ => rfl
theorem live1_1 : ∀ i, cfg1.idle 1 i = false := fun _ => rfl
theorem live1_2 : ∀ i, cfg1.idle 2 i = false := fun _ => rfl
/-- Where the body does not store the output tile the window is idle, -/
theorem idle1_3 : ∀ t : Fin cfg1.N, ¬cond1_2 (grid1.coords t) → cfg1.idle 3 (grid1.coords t) = true := by decide +kernel
/-- and where it does, live. -/
theorem live1_3 : ∀ t : Fin cfg1.N, cond1_2 (grid1.coords t) → cfg1.idle 3 (grid1.coords t) = false := by decide +kernel
/-- The output tile is written back at the last key tile of each query tile (positions 3 and 7 of the eight). -/
theorem flush1_3' : ∀ t : Fin cfg1.N, (cfg1.win 3).flush t = true ↔ (t.val % 8 = 3 ∨ t.val % 8 = 7) :=
  (by decide +kernel : ∀ t : Fin grid1.N, win1_3.flush t = true ↔ (t.val % 8 = 3 ∨ t.val % 8 = 7))
/-- The output window is never fetched. -/
theorem nofetch1_3 : ∀ t : Fin cfg1.N, (cfg1.win 3).fetch t = false :=
  (by decide +kernel : ∀ t : Fin grid1.N, win1_3.fetch t = false)

/-! ## The memrefs the body is called with -/

abbrev ms1_0 (t : Fin cfg1.N) : Memref sig .tc .vmem S1x1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x512x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The running maximum, -/
abbrev scM1_0 : Memref sig .tc .vmem S1024x1 .f32 := Memref.whole cc1_scratch0
/-- the running denominator -/
abbrev scM1_1 : Memref sig .tc .vmem S1024x1 .f32 := Memref.whole cc1_scratch1
/-- and the running numerator: whole scoped buffers of the kernel's own, carried from point to point. -/
abbrev scM1_2 : Memref sig .tc .vmem S1024x1024 .f32 := Memref.whole cc1_scratch2
abbrev VS1_0 : View sig .tc .vmem S1024x1 .f32 := scM1_0.view
abbrev VS1_1 : View sig .tc .vmem S1024x1 .f32 := scM1_1.view
abbrev VS1_2 : View sig .tc .vmem S1024x1024 .f32 := scM1_2.view
/-- One staging buffer of the output window, through which its contents are stated. -/
abbrev VO1_3 : View sig .tc .vmem S1x1024x1024 .f32 := (Memref.whole cc1_stg3_0 : Memref sig .tc .vmem S1x1024x1024 .f32).view

/-! ## The class invariant with the three carried buffers split off -/

/-- The scoped buffers that are neither a staging buffer of this region nor one of the three carried buffers
    (the other region's staging buffers), each whole at some contents. -/
def R14 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f) ∗ (∃ f : Buf (Elt F) ((c : Thread nD τ).loc cc0_stg9_0), ((c : Thread nD τ).loc cc0_stg9_0) ↦{fullShare} f) ∗ (∃ f : Buf (Elt F) ((c : Thread nD τ).loc cc0_stg9_1), ((c : Thread nD τ).loc cc0_stg9_1) ↦{fullShare} f))

theorem PhiA1_split (c : Dev nD) : (Pipeline.ΦA spec1 c : sProp 𝕄) ⊢ iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  unfold Pipeline.ΦA R14; rw [scopedRest1_eq]; simp only [scM1_0, scM1_1, scM1_2, owns_whole]
  iintro ⟨⟨H1, H2, H3, H4, H5, H6, H7, H8, H9, H10, H11, H12, H13, H14, S0, S1, S2⟩, Hg⟩
  isplitl [H1 H2 H3 H4 H5 H6 H7 H8 H9 H10 H11 H12 H13 H14]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [S0]; · iexact S0
  isplitl [S1]; · iexact S1
  isplitl [S2]; · iexact S2
  iexact Hg

theorem PhiA1_join (c : Dev nD) : iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) ⊢ (Pipeline.ΦA spec1 c : sProp 𝕄) := by
  unfold Pipeline.ΦA R14; rw [scopedRest1_eq]; simp only [scM1_0, scM1_1, scM1_2, owns_whole]
  iintro ⟨⟨H1, H2, H3, H4, H5, H6, H7, H8, H9, H10, H11, H12, H13, H14⟩, S0, S1, S2, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    iexact S2
  iexact Hg

end Cert.KernelIdeal.Hand

end
-- ==== Proof.KI.R1RunA.lean ====
import proofs.«150816_j58841051955817_2_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- THE FIRST KEY TILE of a query tile (`ki = 0`, inside the triangle, not its last tile): the three carried buffers are
    reset — maximum to -inf, denominator and numerator to zero — and key tile 0 is folded in. On whole memrefs, the
    inputs' at their contents, the output's at contents handed back untouched, the carried buffers at anything, the body
    runs to the continuation holding each carried buffer with its stores written: the pieces are found by the run. -/
noncomputable def kernelRun1_A (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunD.lean ====
import proofs.«150816_j58841051955817_2_alg».proof.Proof.KI.R1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A LATER KEY TILE inside the triangle that is not its last (`ki ≠ 0`, `ki < last`): key tile `ki` is folded into the
    carried maximum, denominator and numerator, which the body finds at what the point before left (`xs·`). The
    output's buffer is handed back untouched. -/
noncomputable def kernelRun1_D (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2; obtain rfl := harg6.eq_unread hf3
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Hand

end
-- ==== Proof.KI.R1RunB.lean ====
import proofs.«150816_j58841051955817_2_alg».proof.Proof.KI.R1RunD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- THE LAST KEY TILE of a query tile's triangle (`ki = last`, which is never 0): key tile `ki` is folded into the carried
    buffers, found at what the point before left (`xs·`), and numerator / denominator is stored over the whole output
    tile, whose buffer is taken at anything. -/
noncomputable def kernelRun1_B (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.KI.R1RunC.lean ====
import proofs.«150816_j58841051955817_2_alg».proof.Proof.KI.R1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- A KEY TILE OUTSIDE the triangle (query tile 0, key tiles 2 and 3): none of the three conditionals is taken, the body
    touches no memory, and whatever is held passes through. -/
theorem kernelRun1_C (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : ¬cond1_1 i) (hc2 : ¬cond1_2 i)
    (P : sProp 𝕄) (E : Set ℕ) (K : PUnit → sProp 𝕄) (h : P ⊢ K ⟨⟩) :
    P ⊢ wp frame (wpE (defs₀ (F := F)) Variants.none c none) E (cc1__attn_kernel i arg3 harg3 arg4 harg4 arg5 harg5 arg6 harg6 arg7 harg7 arg8 harg8 arg9 harg9) K := by
  simp only [cc1__attn_kernel_eq_skeleton]; unfold cc1__attn_kernel_skel
  iintro HP
  sl_exec (disch := first | exact hc0 | exact hc1 | exact hc2)
  sl_step
  iapply h
  iexact HP

end Cert.KernelIdeal.Hand

end
-- ==== Proof.KI.R1Frame.lean ====
import proofs.«150816_j58841051955817_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # The attention region: what each case leaves, the state after each point, the proof data, the body obligation -/

/-! ## What each case leaves in the carried buffers and in the output tile -/

/-- What this case leaves there: its pieces read back. -/
def sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1 .f32 :=
  VS1_0.read (Elt F) (VS1_0.writes (Elt F) VS1_0.junk (kernelRun1_A c i arg3 harg3 arg4 harg4 arg5 harg5 arg6 harg6 arg7 harg7 arg8 harg8 arg9 harg9 hc0 hc1 hc2 x0 x1 x2).1)
/-- Its stores tile the buffer, so they cover it. -/
theorem cover_sout1_A_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).1, y ∈ pc.1.set :=
  View.cover_of_tiledL ((kernelRun1_A c i arg3 harg3 arg4 harg4 arg5 harg5 arg6 harg6 arg7 harg7 arg8 harg8 arg9 harg9 hc0 hc1 hc2 x0 x1 x2).1) S1024x1.size (by sl_kernel_rfl) y

/-- What this case leaves there: its pieces read back. -/
def sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1 .f32 :=
  VS1_1.read (Elt F) (VS1_1.writes (Elt F) VS1_1.junk (kernelRun1_A c i arg3 harg3 arg4 harg4 arg5 harg5 arg6 harg6 arg7 harg7 arg8 harg8 arg9 harg9 hc0 hc1 hc2 x0 x1 x2).2.1)
/-- Its stores tile the buffer, so they cover it. -/
theorem cover_sout1_A_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1.Idx) :
    ∃ pc ∈ (kernelRun1_A c i arg3 harg3 arg4 harg4 arg5 harg5 arg6 harg6 arg7 harg7 arg8 harg8 arg9 harg9 hc0 hc1 hc2 x0 x1 x2).2.1, y ∈ pc.1.set :=
  View.cover_of_tiledL ((kernelRun1_A c i arg3 harg3 arg4 harg4 arg5 harg5 arg6 harg6 arg7 harg7 arg8 harg8 arg9 harg9 hc0 hc1 hc2 x0 x1 x2).2.1) S1024x1.size (by sl_kernel_rfl) y

/-- What this case leaves there: its pieces read back. -/
def sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) : Vec F S1024x1024 .f32 :=
  VS1_2.read (Elt F) (VS1_2.writes (Elt F) VS1_2.junk (kernelRun1_A c i arg3 harg3 arg4 harg4 arg5 harg5 arg6 harg6 arg7 harg7 arg8 harg8 arg9 harg9 hc0 hc1 hc2 x0 x1 x2).2.2.1)
/-- Its stores tile the buffer, so they cover it. -/
theorem cover_sout1_A_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i)
    (x0 : Vec F S1x1024x1024 .bf16) (x1 : Vec F S1x512x1024 .bf16) (x2 : Vec F S1x512x1024 .bf16) (y : S1024x1024.Idx) :
    ∃ pc ∈ (kernelRun1_A c i arg3 harg3 arg4 harg4 arg5 harg5 arg6 harg6 arg7 harg7 arg8 harg8 arg9 harg9 hc0 hc1 hc2 x0 x1 x2).2.2.1, y ∈ pc.1.set :=
  View.cover_of_tiledL ((kernelRun1_A c i arg3 harg3 arg4 harg4 arg5 harg5 arg6 harg6 arg7 harg7 arg8 harg8 arg9 harg9 hc0 hc1 hc2 x0 x1 x2).2.2.1) S1024x1024.size (by sl_kernel_rfl) y

/-- What this case leaves there: its pieces read back. -/
def sout1_D_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_D c i arg3 harg3 arg4 harg4 arg5 harg5 arg6 harg6 arg7 harg7 arg8 harg8 arg9 harg9 hc0 hc1 hc2 x0 x1 x2 xs0 xs1 xs2).1)
/-- Its stores tile the buffer, so they cover it. -/
theorem cover_sout1_D_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).1) S1024x1.size (by sl_kernel_rfl) y

/-- What this case leaves there: its pieces read back. -/
def sout1_D_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_D c i arg3 harg3 arg4 harg4 arg5 harg5 arg6 harg6 arg7 harg7 arg8 harg8 arg9 harg9 hc0 hc1 hc2 x0 x1 x2 xs0 xs1 xs2).2.1)
/-- Its stores tile the buffer, so they cover it. -/
theorem cover_sout1_D_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_D c i arg3 harg3 arg4 harg4 arg5 harg5 arg6 harg6 arg7 harg7 arg8 harg8 arg9 harg9 hc0 hc1 hc2 x0 x1 x2 xs0 xs1 xs2).2.1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).2.1) S1024x1.size (by sl_kernel_rfl) y

/-- What this case leaves there: its pieces read back. -/
def sout1_D_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_D c i arg3 harg3 arg4 harg4 arg5 harg5 arg6 harg6 arg7 harg7 arg8 harg8 arg9 harg9 hc0 hc1 hc2 x0 x1 x2 xs0 xs1 xs2).2.2.1)
/-- Its stores tile the buffer, so they cover it. -/
theorem cover_sout1_D_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_D c i arg3 harg3 arg4 harg4 arg5 harg5 arg6 harg6 arg7 harg7 arg8 harg8 arg9 harg9 hc0 hc1 hc2 x0 x1 x2 xs0 xs1 xs2).2.2.1, y ∈ pc.1.set :=
  View.cover_of_tiledL ((kernelRun1_D c i arg3 harg3 arg4 harg4 arg5 harg5 arg6 harg6 arg7 harg7 arg8 harg8 arg9 harg9 hc0 hc1 hc2 x0 x1 x2 xs0 xs1 xs2).2.2.1) S1024x1024.size (by sl_kernel_rfl) y

/-- What this case leaves there: its pieces read back. -/
def out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1x1024x1024 .f32 :=
  VO1_3.read (Elt F) (VO1_3.writes (Elt F) VO1_3.junk (kernelRun1_B c i arg3 harg3 arg4 harg4 arg5 harg5 arg6 harg6 arg7 harg7 arg8 harg8 arg9 harg9 hc0 hc1 hc2 x0 x1 x2 xs0 xs1 xs2).1)
/-- Its stores tile the buffer, so they cover it. -/
theorem cover_out1_B_3 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1x1024x1024.Idx) :
    ∃ pc ∈ (kernelRun1_B c i arg3 harg3 arg4 harg4 arg5 harg5 arg6 harg6 arg7 harg7 arg8 harg8 arg9 harg9 hc0 hc1 hc2 x0 x1 x2 xs0 xs1 xs2).1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).1) S1x1024x1024.size (by sl_kernel_rfl) y

/-- What this case leaves there: its pieces read back. -/
def sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_0.read (Elt F) (VS1_0.writes (Elt F) VS1_0.junk (kernelRun1_B c i arg3 harg3 arg4 harg4 arg5 harg5 arg6 harg6 arg7 harg7 arg8 harg8 arg9 harg9 hc0 hc1 hc2 x0 x1 x2 xs0 xs1 xs2).2.1)
/-- Its stores tile the buffer, so they cover it. -/
theorem cover_sout1_B_0 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.1) S1024x1.size (by sl_kernel_rfl) y

/-- What this case leaves there: its pieces read back. -/
def sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1 .f32 :=
  VS1_1.read (Elt F) (VS1_1.writes (Elt F) VS1_1.junk (kernelRun1_B c i arg3 harg3 arg4 harg4 arg5 harg5 arg6 harg6 arg7 harg7 arg8 harg8 arg9 harg9 hc0 hc1 hc2 x0 x1 x2 xs0 xs1 xs2).2.2.1)
/-- Its stores tile the buffer, so they cover it. -/
theorem cover_sout1_B_1 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1.Idx) :
    ∃ pc ∈ (kernelRun1_B c i arg3 harg3 arg4 harg4 arg5 harg5 arg6 harg6 arg7 harg7 arg8 harg8 arg9 harg9 hc0 hc1 hc2 x0 x1 x2 xs0 xs1 xs2).2.2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.2.1) S1024x1.size (by sl_kernel_rfl) y

/-- What this case leaves there: its pieces read back. -/
def sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) : Vec F S1024x1024 .f32 :=
  VS1_2.read (Elt F) (VS1_2.writes (Elt F) VS1_2.junk (kernelRun1_B c i arg3 harg3 arg4 harg4 arg5 harg5 arg6 harg6 arg7 harg7 arg8 harg8 arg9 harg9 hc0 hc1 hc2 x0 x1 x2 xs0 xs1 xs2).2.2.2.1)
/-- Its stores tile the buffer, so they cover it. -/
theorem cover_sout1_B_2 (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i)
    (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) (y : S1024x1024.Idx) :
    ∃ pc ∈ (kernelRun1_B c i arg3 harg3 arg4 harg4 arg5 harg5 arg6 harg6 arg7 harg7 arg8 harg8 arg9 harg9 hc0 hc1 hc2 x0 x1 x2 xs0 xs1 xs2).2.2.2.1, y ∈ pc.1.set :=
  View.cover_of_tiledL ((kernelRun1_B c i arg3 harg3 arg4 harg4 arg5 harg5 arg6 harg6 arg7 harg7 arg8 harg8 arg9 harg9 hc0 hc1 hc2 x0 x1 x2 xs0 xs1 xs2).2.2.2.1) S1024x1024.size (by sl_kernel_rfl) y

/-! ## The four kinds of point, by position -/

theorem cA0 (t : Fin cfg1.N) (h : t.val % 4 = 0) : cond1_0 (grid1.coords t) := (hcond1_0 t).mpr h
theorem cA1 (t : Fin cfg1.N) (h : t.val % 4 = 0) : cond1_1 (grid1.coords t) := (hcond1_1 t).mpr (by omega)
theorem cA2 (t : Fin cfg1.N) (h : t.val % 4 = 0) : ¬cond1_2 (grid1.coords t) := fun hc => by have := (hcond1_2 t).mp hc; omega
theorem cB0 (t : Fin cfg1.N) (h : t.val % 8 = 1 ∨ t.val % 8 = 7) : ¬cond1_0 (grid1.coords t) := fun hc => by have := (hcond1_0 t).mp hc; omega
theorem cB1 (t : Fin cfg1.N) (h : t.val % 8 = 1 ∨ t.val % 8 = 7) : cond1_1 (grid1.coords t) := (hcond1_1 t).mpr (by omega)
theorem cB2 (t : Fin cfg1.N) (h : t.val % 8 = 1 ∨ t.val % 8 = 7) : cond1_2 (grid1.coords t) := (hcond1_2 t).mpr h
theorem cC0 (t : Fin cfg1.N) (h : t.val % 8 = 2 ∨ t.val % 8 = 3) : ¬cond1_0 (grid1.coords t) := fun hc => by have := (hcond1_0 t).mp hc; omega
theorem cC1 (t : Fin cfg1.N) (h : t.val % 8 = 2 ∨ t.val % 8 = 3) : ¬cond1_1 (grid1.coords t) := fun hc => (hcond1_1 t).mp hc h
theorem cC2 (t : Fin cfg1.N) (h : t.val % 8 = 2 ∨ t.val % 8 = 3) : ¬cond1_2 (grid1.coords t) := fun hc => by have := (hcond1_2 t).mp hc; omega
theorem cD0 (t : Fin cfg1.N) (h : t.val % 8 = 5 ∨ t.val % 8 = 6) : ¬cond1_0 (grid1.coords t) := fun hc => by have := (hcond1_0 t).mp hc; omega
theorem cD1 (t : Fin cfg1.N) (h : t.val % 8 = 5 ∨ t.val % 8 = 6) : cond1_1 (grid1.coords t) := (hcond1_1 t).mpr (by omega)
theorem cD2 (t : Fin cfg1.N) (h : t.val % 8 = 5 ∨ t.val % 8 = 6) : ¬cond1_2 (grid1.coords t) := fun hc => by have := (hcond1_2 t).mp hc; omega

/-! ## The state after each point -/

/-- The output tile's buffer, the running maximum, the running denominator and the running numerator. -/
abbrev St (F : FTy → Type) [FloatOps F] : Type := Vec F S1x1024x1024 .f32 × Vec F S1024x1 .f32 × Vec F S1024x1 .f32 × Vec F S1024x1024 .f32

/-- Contents nothing consults: the output tile's buffer where the window is idle and not written back. -/
def junk3 : Vec F S1x1024x1024 .f32 := VO1_3.read (Elt F) VO1_3.junk

/-- After the first key tile of a query tile: reset, then key tile 0 folded in. -/
def stA (c : Dev nD) (t : Fin cfg1.N) (h : t.val % 4 = 0) : St F :=
  (junk3, sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t),
    sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t),
    sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cA0 t h) (cA1 t h) (cA2 t h) (iblk1 V c 0 t) (iblk1 V c 1 t) (iblk1 V c 2 t))
/-- After a later key tile that is not the triangle's last: folded into what the point before left. -/
def stD (c : Dev nD) (t : Fin cfg1.N) (h : t.val % 8 = 5 ∨ t.val % 8 = 6) (p : St F) : St F :=
  (junk3, sout1_D_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2,
    sout1_D_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2,
    sout1_D_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cD0 t h) (cD1 t h) (cD2 t h) (iblk1 V c 0 t) (iblk1 V c 1 t) (iblk1 V c 2 t) p.2.1 p.2.2.1 p.2.2.2)
/-- After the triangle's last key tile: folded in, and the output tile stored. -/
def stB (c : Dev nD) (t : Fin cfg1.N) (h : t.val % 8 = 1 ∨ t.val % 8 = 7) (p : St F) : St F :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2,
    sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (cB0 t h) (cB1 t h) (cB2 t h) (iblk1 V c 0 t) (iblk1 V c 1 t) (iblk1 V c 2 t) p.2.1 p.2.2.1 p.2.2.2)

/-- THE RECURRENCE over the positions: at a first key tile the reset and fold; at a key tile outside the triangle
    nothing changes (the stored output tile stays in its buffer until it is written back); at the triangle's last key
    tile the fold and the output store; otherwise the fold. -/
def outsAt1 (c : Dev nD) : (n : ℕ) → n < cfg1.N → St F
  | 0, hn => stA V c ⟨0, hn⟩ (Nat.zero_mod _)
  | n + 1, hn =>
    if h0 : (n + 1) % 4 = 0 then stA V c ⟨n + 1, hn⟩ h0
    else if hC : (n + 1) % 8 = 2 ∨ (n + 1) % 8 = 3 then outsAt1 c n (Nat.lt_of_succ_lt hn)
    else if hB : (n + 1) % 8 = 1 ∨ (n + 1) % 8 = 7 then stB V c ⟨n + 1, hn⟩ hB (outsAt1 c n (Nat.lt_of_succ_lt hn))
    else stD V c ⟨n + 1, hn⟩ (show (n + 1) % 8 = 5 ∨ (n + 1) % 8 = 6 by omega) (outsAt1 c n (Nat.lt_of_succ_lt hn))

theorem outsAt1_A (c : Dev nD) (t : Fin cfg1.N) (h : t.val % 4 = 0) : outsAt1 V c t.val t.isLt = stA V c t h := by
  obtain ⟨n, hn⟩ := t
  cases n with
  | zero => rfl
  | succ n => exact dif_pos h
theorem outsAt1_C (c : Dev nD) (t : Fin cfg1.N) (h : t.val % 8 = 2 ∨ t.val % 8 = 3) :
    outsAt1 V c t.val t.isLt = outsAt1 V c (t.val - 1) (Nat.lt_of_le_of_lt (Nat.sub_le _ _) t.isLt) := by
  obtain ⟨n, hn⟩ := t
  cases n with
  | zero => exfalso; dsimp only at h; omega
  | succ n => exact (dif_neg (by dsimp only at h; omega)).trans ((dif_pos h).trans rfl)
theorem outsAt1_B (c : Dev nD) (t : Fin cfg1.N) (h : t.val % 8 = 1 ∨ t.val % 8 = 7) :
    outsAt1 V c t.val t.isLt = stB V c t h (outsAt1 V c (t.val - 1) (Nat.lt_of_le_of_lt (Nat.sub_le _ _) t.isLt)) := by
  obtain ⟨n, hn⟩ := t
  cases n with
  | zero => exfalso; dsimp only at h; omega
  | succ n => exact (dif_neg (by dsimp only at h; omega)).trans ((dif_neg (by dsimp only at h; omega)).trans ((dif_pos h).trans rfl))
theorem outsAt1_D (c : Dev nD) (t : Fin cfg1.N) (h : t.val % 8 = 5 ∨ t.val % 8 = 6) :
    outsAt1 V c t.val t.isLt = stD V c t h (outsAt1 V c (t.val - 1) (Nat.lt_of_le_of_lt (Nat.sub_le _ _) t.isLt)) := by
  obtain ⟨n, hn⟩ := t
  cases n with
  | zero => exfalso; dsimp only at h; omega
  | succ n => exact (dif_neg (by dsimp only at h; omega)).trans ((dif_neg (by dsimp only at h; omega)).trans ((dif_neg (by dsimp only at h; omega)).trans rfl))

/-! ## The region invariant: the three carried buffers at the recurrence's values -/

def PhiS1 (c : Dev nD) : (n : ℕ) → n ≤ cfg1.N → sProp 𝕄
  | 0, _ => Pipeline.ΦA spec1 c
  | n + 1, hn => iprop(R14 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r))

theorem PhiS1_succ (c : Dev nD) (n : ℕ) (hn : n < cfg1.N) :
    PhiS1 V c (n + 1) hn = iprop(R14 c ∗ owns (c : Thread nD τ) scM1_0 fullShare (outsAt1 V c n hn).2.1 ∗ owns (c : Thread nD τ) scM1_1 fullShare (outsAt1 V c n hn).2.2.1 ∗ owns (c : Thread nD τ) scM1_2 fullShare (outsAt1 V c n hn).2.2.2 ∗ (∃ r, prngReg c r)) := rfl
theorem PhiS1_pos (c : Dev nD) (n : ℕ) (h : n ≤ cfg1.N) (hz : n ≠ 0) :
    PhiS1 V c n h = iprop(R14 c ∗ owns (c : Thread nD τ) scM1_0 fullShare (outsAt1 V c (n - 1) (by omega)).2.1 ∗ owns (c : Thread nD τ) scM1_1 fullShare (outsAt1 V c (n - 1) (by omega)).2.2.1 ∗ owns (c : Thread nD τ) scM1_2 fullShare (outsAt1 V c (n - 1) (by omega)).2.2.2 ∗ (∃ r, prngReg c r)) := by
  cases n with
  | zero => exact absurd rfl hz
  | succ n => rfl
/-- At any position the invariant holds the three carried buffers at SOME contents. -/
theorem PhiS1_weak (c : Dev nD) (n : ℕ) (h : n ≤ cfg1.N) :
    PhiS1 V c n h ⊢ iprop(R14 c ∗ (∃ d, owns (c : Thread nD τ) scM1_0 fullShare d) ∗ (∃ d, owns (c : Thread nD τ) scM1_1 fullShare d) ∗ (∃ d, owns (c : Thread nD τ) scM1_2 fullShare d) ∗ (∃ r, prngReg c r)) := by
  cases n with
  | zero => exact PhiA1_split c
  | succ n =>
    rw [PhiS1_succ]
    iintro ⟨HR, S0, S1, S2, Hg⟩
    isplitl [HR]; · iexact HR
    isplitl [S0]; · iexists _; iexact S0
    isplitl [S1]; · iexists _; iexact S1
    isplitl [S2]; · iexists _; iexact S2
    iexact Hg

/-! ## The pipeline's proof data -/

/-- The proof data of the attention pipeline on core `c`: the arrays as the region finds them; after the body each
    input's buffer at its block and the output's at the recurrence's first component; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The output tile's buffer through the key tiles outside the triangle

For query tile 0 the output tile is stored at key tile 1 and written back only at key tile 3: at key tiles 2 and 3 the
body stores nothing, and the buffer still holds the stored tile. -/

/-- The output window's blocks tile its array: nothing is cut. -/
theorem noclip1_3 : ∀ (i : grid1.Coords) a, (cfg1.win 3).clip i a = none := fun _ _ => rfl

/-- At position 2 of the eight the buffer holds what position 1 stored. -/
theorem before1_3_at2 (c : Dev nD) (t : Fin cfg1.N) (h : t.val % 8 = 2) (d) :
    (dat1 V c).before 3 t d = (dat1 V c).after 3 ⟨t.val - 1, Nat.lt_of_le_of_lt (Nat.sub_le _ _) t.isLt⟩ := by
  rw [(dat1 V c).before_of_pos 3 t (by omega) (nofetch1_3 t) d,
    if_neg (by rw [Bool.not_eq_true]; exact Bool.eq_false_iff.mpr fun hf => by have := (flush1_3' _).mp hf; dsimp only at this; omega)]
  unfold Dat.left
  rw [live1_3 _ ((hcond1_2 _).mpr (by dsimp only; omega))]
  dsimp only
  unfold Dat.kept
  rw [Pipeline.fill_of_clip_none 3 _ (noclip1_3 _) d ((dat1 V c).after 3 _), Window.fill_cut]

/-- At position 3 it still does. -/
theorem before1_3_at3 (c : Dev nD) (t : Fin cfg1.N) (h : t.val % 8 = 3) (d) :
    (dat1 V c).before 3 t d = (dat1 V c).after 3 ⟨t.val - 2, Nat.lt_of_le_of_lt (Nat.sub_le _ _) t.isLt⟩ := by
  rw [(dat1 V c).before_of_pos 3 t (by omega) (nofetch1_3 t) d,
    if_neg (by rw [Bool.not_eq_true]; exact Bool.eq_false_iff.mpr fun hf => by have := (flush1_3' _).mp hf; dsimp only at this; omega)]
  unfold Dat.left
  rw [idle1_3 _ (fun hc => by have := (hcond1_2 _).mp hc; dsimp only at this; omega)]
  dsimp only
  rw [before1_3_at2 V c ⟨t.val - 1, Nat.lt_of_le_of_lt (Nat.sub_le _ _) t.isLt⟩ (by dsimp only; omega) d]
  congr 1

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point, by the kind of point its position says it is: the inputs' buffers hold their blocks; the
    invariant hands the body the three carried buffers at what the point before left (at anything where the body
    resets them) and takes them back at this point's values; the output's buffer is handed back untouched where the
    body does not store it, which at the write-back of query tile 0 is the tile stored two points earlier. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
      unfold Dat.leavesExact; rw [live1_0 (grid1.coords t)], after1_0]
  rw [show (dat1 V c).leavesExact 1 t = owns (c : Thread nD τ) (ms1_1 t) fullShare ((dat1 V c).after 1 t) from by
      unfold Dat.leavesExact; rw [live1_1 (grid1.coords t)], after1_1]
  rw [show (dat1 V c).leavesExact 2 t = owns (c : Thread nD τ) (ms1_2 t) fullShare ((dat1 V c).after 2 t) from by
      unfold Dat.leavesExact; rw [live1_2 (grid1.coords t)], after1_2]
  rw [PhiS1_castSucc V c t]
  have hN : t.val < 32 := lt_of_lt_of_eq t.isLt (show cfg1.N = 32 from N_1)
  by_cases h0 : t.val % 4 = 0
  · -- the first key tile of a query tile
    rw [Dat.leavesExact_idle (dat1 V c) 3 t (idle1_3 t (cA2 t h0))
      (Bool.eq_false_iff.mpr fun hf => by have := (flush1_3' t).mp hf; omega)]
    rw [outsAt1_A V c t h0]
    unfold stA sout1_A_0 sout1_A_1 sout1_A_2; (try dsimp only)
    iintro ⟨HΦ, Ho, ⟨%d0, H0⟩, ⟨%d1, H1⟩, ⟨%d2, H2⟩, ⟨%d3, H3⟩⟩
    ihave HΦ' := (PhiS1_weak V c t.val (Nat.le_of_lt t.isLt)) $$ HΦ
    icases HΦ' with ⟨HR, HS0, HS1, HS2, Hg⟩
    iapply ((kernelRun1_A c (grid1.coords t) _ _ _ _ _ _ _ _ _ _ _ _ _ _ (cA0 t h0) (cA1 t h0) (cA2 t h0) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HR HS0 HS1 HS2 Hg]
    · isplitl [HR]; · iexact HR
      isplitl [HS0]
      · unfold owns; iexists _; isplitr
        swap; · iexact HS0
        ipureintro; exact View.read_writes_of_cover _ _ _ _ _ (cover_sout1_A_0 c _ _ _ _ _ _ _ _ _ _ _ _ _ _ _ _ _ _ _ _ _)
      isplitl [HS1]
      · unfold owns; iexists _; isplitr
        swap; · iexact HS1
        ipureintro; exact View.read_writes_of_cover _ _ _ _ _ (cover_sout1_A_1 c _ _ _ _ _ _ _ _ _ _ _ _ _ _ _ _ _ _ _ _ _)
      isplitl [HS2]
      · unfold owns; iexists _; isplitr
        swap; · iexact HS2
        ipureintro; exact View.read_writes_of_cover _ _ _ _ _ (cover_sout1_A_2 c _ _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hz : t.val ≠ 0 := fun h => h0 (by rw [h])
    rw [PhiS1_pos V c _ _ hz]
    by_cases hC : t.val % 8 = 2 ∨ t.val % 8 = 3
    · -- a key tile outside the triangle: nothing happens
      rw [outsAt1_C V c t hC]
      rcases hC with h2 | h3
      · rw [Dat.leavesExact_idle (dat1 V c) 3 t (idle1_3 t (cC2 t (.inl h2)))
          (Bool.eq_false_iff.mpr fun hf => by have := (flush1_3' t).mp hf; omega)]
        refine kernelRun1_C c (grid1.coords t) _ _ _ _ _ _ _ _ _ _ _ _ _ _ (cC0 t (.inl h2)) (cC1 t (.inl h2)) (cC2 t (.inl h2)) _ Set.univ _ ?_
        iintro ⟨HΦ, Ho, ⟨%d0, H0⟩, ⟨%d1, H1⟩, ⟨%d2, H2⟩, H3⟩
        isplitl [HΦ]; · iexact HΦ
        isplitl [Ho]; · iexact Ho
        isplitl [H0]; · iexact H0
        isplitl [H1]; · iexact H1
        isplitl [H2]; · iexact H2
        iexact H3
      · rw [show (dat1 V c).leavesExact 3 t = owns (c : Thread nD τ) (ms1_3 t) fullShare ((dat1 V c).after 3 t) from by
          unfold Dat.leavesExact
          rw [idle1_3 t (cC2 t (.inr h3)), (flush1_3' t).mpr (.inl h3)]]
        simp only [before1_3_at3 V c t h3]
        rw [after1_3 V c t, outsAt1_C V c t (.inr h3),
          outsAt1_C V c ⟨t.val - 1, Nat.lt_of_le_of_lt (Nat.sub_le _ _) t.isLt⟩ (.inl (by dsimp only; omega)), after1_3]
        refine kernelRun1_C c (grid1.coords t) _ _ _ _ _ _ _ _ _ _ _ _ _ _ (cC0 t (.inr h3)) (cC1 t (.inr h3)) (cC2 t (.inr h3)) _ Set.univ _ ?_
        iintro ⟨HΦ, Ho, ⟨%d0, H0⟩, ⟨%d1, H1⟩, ⟨%d2, H2⟩, ⟨%d3, H3⟩⟩
        isplitl [HΦ]; · iexact HΦ
        isplitl [Ho]; · iexact Ho
        isplitl [H0]; · iexact H0
        isplitl [H1]; · iexact H1
        isplitl [H2]; · iexact H2
        iexact H3
    · by_cases hB : t.val % 8 = 1 ∨ t.val % 8 = 7
      · -- the triangle's last key tile
        rw [show (dat1 V c).leavesExact 3 t = owns (c : Thread nD τ) (ms1_3 t) fullShare ((dat1 V c).after 3 t) from by
          unfold Dat.leavesExact; rw [live1_3 t (cB2 t hB)], after1_3]
        rw [outsAt1_B V c t hB]
        unfold stB out1_B_3 sout1_B_0 sout1_B_1 sout1_B_2; (try dsimp only)
        iintro ⟨⟨HR, HS0, HS1, HS2, Hg⟩, Ho, ⟨%d0, H0⟩, ⟨%d1, H1⟩, ⟨%d2, H2⟩, ⟨%d3, H3⟩⟩
        iapply ((kernelRun1_B c (grid1.coords t) _ _ _ _ _ _ _ _ _ _ _ _ _ _ (cB0 t hB) (cB1 t hB) (cB2 t hB) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (cover_sout1_B_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (cover_sout1_B_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (cover_sout1_B_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover_out1_B_3 c _ _ _ _ _ _ _ _ _ _ _ _ _ _ _ _ _ _ _ _ _ _ _ _)
      · -- a later key tile inside the triangle
        have hD : t.val % 8 = 5 ∨ t.val % 8 = 6 := by omega
        rw [Dat.leavesExact_idle (dat1 V c) 3 t (idle1_3 t (cD2 t hD))
          (Bool.eq_false_iff.mpr fun hf => by have := (flush1_3' t).mp hf; omega)]
        rw [outsAt1_D V c t hD]
        unfold stD sout1_D_0 sout1_D_1 sout1_D_2; (try dsimp only)
        iintro ⟨⟨HR, HS0, HS1, HS2, Hg⟩, Ho, ⟨%d0, H0⟩, ⟨%d1, H1⟩, ⟨%d2, H2⟩, ⟨%d3, H3⟩⟩
        iapply ((kernelRun1_D c (grid1.coords t) _ _ _ _ _ _ _ _ _ _ _ _ _ _ (cD0 t hD) (cD1 t hD) (cD2 t hD) (iblk1 V c 0 t) (iblk1 V c 1 t) (iblk1 V c 2 t) _ _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR HS0 HS1 HS2 Hg]
        · isplitl [HR]; · iexact HR
          isplitl [HS0]
          · unfold owns; iexists _; isplitr
            swap; · iexact HS0
            ipureintro; exact View.read_writes_of_cover _ _ _ _ _ (cover_sout1_D_0 c _ _ _ _ _ _ _ _ _ _ _ _ _ _ _ _ _ _ _ _ _ _ _ _)
          isplitl [HS1]
          · unfold owns; iexists _; isplitr
            swap; · iexact HS1
            ipureintro; exact View.read_writes_of_cover _ _ _ _ _ (cover_sout1_D_1 c _ _ _ _ _ _ _ _ _ _ _ _ _ _ _ _ _ _ _ _ _ _ _ _)
          isplitl [HS2]
          · unfold owns; iexists _; isplitr
            swap; · iexact HS2
            ipureintro; exact View.read_writes_of_cover _ _ _ _ _ (cover_sout1_D_2 c _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl]
  exact Idealize.SL.BI.Entails.refl _

/-- After the last point the invariant gives the class's back: the carried buffers' values are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl]
  exact (PhiS1_weak V c _ _).trans (PhiA1_join c)

end Cert.KernelIdeal.Hand

end
-- ==== Proof.KI.Run.lean ====
import proofs.«150816_j58841051955817_2_alg».proof.Proof.KI.Region0
import proofs.«150816_j58841051955817_2_alg».proof.Proof.KI.R1Frame

/-!
# The run: the program's segments from the launch to the return

The program is four segments: the reshapes of the arguments, the projection region, the reshapes of the three
projections, the attention region. This module names the contents of every unscoped buffer at each segment boundary
(`W0` … `W4`, a fold from the launch memory: a stretch of host operations by its operations, a region by what its
write-backs leave in its arrays), gives each region as a segment over the thread state "every unscoped buffer at the
boundary's contents, the generator register at some state, nothing owed", and launches the chain. The argument
arrays are written by no segment, so they end as launched.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through the program -/

/-- Core `c`'s buffers at launch. -/
abbrev W0 : Dev nD → Valuation τ sig (Elt F) := fun c b => (s₀ m ρ).mem ((c : Dev nD), b)
/-- After the four reshapes before the projection region (its entry). -/
abbrev W1 : Dev nD → Valuation τ sig (Elt F) := fun c => StableHlo.after hostOps0 (W0 m ρ c)
/-- The same read at the core's references (what the projection region's proof data take). -/
abbrev V1 : (c : Dev nD) → (b : Ref sig .tc) → Buf (Elt F) ((c : Thread nD τ).loc b) := fun c b => W1 m ρ c b
/-- At the projection region's exit: its arrays at what the pipeline leaves (the inputs as entered, each result's
    write-backs folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references (the projection region's exit contents). -/
abbrev V2 : (c : Dev nD) → (b : Ref sig .tc) → Buf (Elt F) ((c : Thread nD τ).loc b) := fun c b => W2 m ρ c b
/-- At the exit each array of the region holds what the pipeline leaves, and every other buffer what it held at
    entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the three reshapes between the regions (the attention region's entry). -/
abbrev W3 : Dev nD → Valuation τ sig (Elt F) := fun c => StableHlo.after hostOps1 (W2 m ρ c)
/-- The same read at the core's references (what the attention region's proof data take). -/
abbrev V3 : (c : Dev nD) → (b : Ref sig .tc) → Buf (Elt F) ((c : Thread nD τ).loc b) := fun c b => W3 m ρ c b
/-- At the attention region's exit: its arrays at what the pipeline leaves, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's references (the attention region's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### The results of the two regions, by name -/

/-- The attention region's result array at the end of the run is what its pipeline leaves in it. -/
theorem W4_main_v8 (c : Dev nD) : W4 m ρ c (Proc.devRef .tc main_v8) = (dat1 (V3 m ρ) c).arrAt 3 cfg1.N :=
  W4_arr m ρ c 3
/-- The three projections at the projection region's exit are what its pipeline leaves in them. -/
theorem W2_main_v4_0 (c : Dev nD) : W2 m ρ c (Proc.devRef .tc main_v4_0) = (dat0 (V1 m ρ) c).arrAt 7 cfg0.N :=
  W2_arr m ρ c 7
theorem W2_main_v4_1 (c : Dev nD) : W2 m ρ c (Proc.devRef .tc main_v4_1) = (dat0 (V1 m ρ) c).arrAt 8 cfg0.N :=
  W2_arr m ρ c 8
theorem W2_main_v4_2 (c : Dev nD) : W2 m ρ c (Proc.devRef .tc main_v4_2) = (dat0 (V1 m ρ) c).arrAt 9 cfg0.N :=
  W2_arr m ρ c 9

/-! ### The arguments end as launched: no reshape and no region writes one (the projection region reads the three
    weight matrices through input windows and bypasses the other arguments; the attention region bypasses all),
    so the fold at an argument's buffer walks back to the launch memory -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its owed
    waits, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No reshape allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owed waits: every unscoped buffer at the last boundary's contents `W4`, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- The projection region over the thread state: entered from every unscoped buffer at `W1`, left at `W2`. Its arrays
    split out of the unscoped buffers and put back at the exit contents; the generator register into the invariant
    and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The attention region's plain invariant gives back the generator register and the scoped buffers no window of
    it stages; it has no semaphore of its own. -/
theorem PhiA_out1 (c : Dev nD) :
    (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- The attention region over the thread state: entered from every unscoped buffer at `W3`, left at `W4` (what the
    launch reads at the end). Its invariant carries the three scratch buffers at the running values; it starts as the
    plain invariant and gives the plain invariant back after the last point, the values forgotten. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    exact (hout1 (V3 m ρ) c).trans (PhiA_out1 c)
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's four segments in order: the reshapes, the projection region, the reshapes, the attention region. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
/-- The program is the run of the segments. -/
theorem main_run (c : Dev nD) : main (F := F) c = Pipeline.Seg.run (segs m ρ) := (main_chain c).trans (by chain_rfl)

set_option backward.isDefEq.respectTransparency.types false in
/-- From any memory with zero counters, every weakly fair execution of the program on the cores terminates, nothing
    faulting, and every final state has each unscoped buffer of each core at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h => h)

/-- The frame: the program runs to the end, faults nowhere, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun s h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Cert.KernelIdeal.Hand

end
-- ==== Proof.Spec.lean ====
/-
  Causal attention with learned projections, as one function of its seven arrays.

  The arrays: x holds 4 sequences of 2048 rows of 1024 features; Wq, Wk, Wv are 1024 × 1024 weight
  matrices stored [output feature, input feature]; bq, bk, bv are bias rows of 1024 entries.

  * A projection of row s of sequence b is x[b, s, :] · W[e, :] + bias[e] for each output feature e.
  * The score of query row s against key row t is the dot product of the two projected rows, divided
    by 32 (the square root of the 1024 features), written as the product with the real 1/32.
  * Causality: a query row sees the key rows t ≤ s; the other scores are replaced by ⊥ (minus
    infinity), which the exponential sends to 0.
  * Softmax along the key rows: subtract the row's maximum, exponentiate, divide by the row's sum.
  * The result row is the weighted sum of the projected value rows.

  Everything is index by index on the extended reals, with EReal's own +, -, *, max and the exact
  exponential and quotient (Ideal.exp, Ideal.div). No program is mentioned here.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- An array of 4 sequences of 2048 rows of 1024 features. -/
abbrev Rows : Type := (⟨3, ![4, 2048, 1024]⟩ : Shape).Idx → EReal
/-- A 1024 × 1024 weight matrix, stored [output feature, input feature]. -/
abbrev Weights : Type := (⟨2, ![1024, 1024]⟩ : Shape).Idx → EReal
/-- A bias row of 1024 entries. -/
abbrev Bias : Type := (⟨1, ![1024]⟩ : Shape).Idx → EReal

/-- The linear projection of row s of sequence b, at output feature e:
    ∑ over the input features j of x[b, s, j] · W[e, j], plus bias[e]. -/
def proj (x : Rows) (W : Weights) (bias : Bias) (b : Fin 4) (s : Fin 2048) (e : Fin 1024) : EReal :=
  (∑ j : Fin 1024, x (ix3 b s j) * W (ix2 e j)) + bias (ix1 e)

/-- The scaled score of query row s against key row t of sequence b: the dot product of the query
    projection of row s and the key projection of row t over the 1024 features, times 1/32. -/
def score (x : Rows) (Wq : Weights) (bq : Bias) (Wk : Weights) (bk : Bias)
    (b : Fin 4) (s t : Fin 2048) : EReal :=
  (∑ d : Fin 1024, proj x Wq bq b s d * proj x Wk bk b t d) * ((1 / 32 : ℝ) : EReal)

/-- The causal score: the score where the key row is not after the query row (t ≤ s), and ⊥
    elsewhere. -/
def masked (x : Rows) (Wq : Weights) (bq : Bias) (Wk : Weights) (bk : Bias)
    (b : Fin 4) (s t : Fin 2048) : EReal :=
  if t.val ≤ s.val then score x Wq bq Wk bk b s t else ⊥

/-- The maximum of query row s's causal scores over all key rows (the maximum of the empty family
    being ⊥). -/
def rowMax (x : Rows) (Wq : Weights) (bq : Bias) (Wk : Weights) (bk : Bias)
    (b : Fin 4) (s : Fin 2048) : EReal :=
  Finset.univ.fold max ⊥ fun t : Fin 2048 => masked x Wq bq Wk bk b s t

/-- The unnormalised softmax weight of key row t for query row s: exp (causal score − row maximum).
    A masked score weighs exp ⊥ = 0. -/
def weight (x : Rows) (Wq : Weights) (bq : Bias) (Wk : Weights) (bk : Bias)
    (b : Fin 4) (s t : Fin 2048) : EReal :=
  Ideal.exp (masked x Wq bq Wk bk b s t - rowMax x Wq bq Wk bk b s)

/-- The softmax denominator of query row s: the sum of its weights over all key rows. -/
def denom (x : Rows) (Wq : Weights) (bq : Bias) (Wk : Weights) (bk : Bias)
    (b : Fin 4) (s : Fin 2048) : EReal :=
  ∑ t : Fin 2048, weight x Wq bq Wk bk b s t

/-- The attention output at sequence b, query row s, feature e: the sum over the key rows t of the
    normalised weight (weight / denominator) times the value projection of row t at feature e. -/
def attnAt (x : Rows) (Wq : Weights) (bq : Bias) (Wk : Weights) (bk : Bias) (Wv : Weights) (bv : Bias)
    (b : Fin 4) (s : Fin 2048) (e : Fin 1024) : EReal :=
  ∑ t : Fin 2048, Ideal.div (weight x Wq bq Wk bk b s t) (denom x Wq bq Wk bk b s) * proj x Wv bv b t e

/-- The whole result array: causal attention of the seven arrays. -/
def attn (x : Rows) (Wq : Weights) (bq : Bias) (Wk : Weights) (bk : Bias) (Wv : Weights) (bv : Bias) : Rows :=
  fun i => attnAt x Wq bq Wk bk Wv bv (i 0) (i 1) (i 2)

/-- The result array at the index (b, s, e). -/
theorem attn_apply (x : Rows) (Wq : Weights) (bq : Bias) (Wk : Weights) (bk : Bias) (Wv : Weights) (bv : Bias)
    (b : Fin 4) (s : Fin 2048) (e : Fin 1024) :
    attn x Wq bq Wk bk Wv bv (ix3 b s e) = attnAt x Wq bq Wk bk Wv bv b s e := rfl

end Cert.Spec

end
-- ==== Proof.Consts.lean ====
/-
  The float literals of the reference, as the extended reals their bit patterns denote:
  the word 0x44800000 is 1024 and its square root is 32; the word 0xFF800000 is minus infinity;
  the zero word is 0.
-/
import Idealize.ShloMosaic.PureOps.Ideal
import Idealize.ShloMosaic.PureOps.Ideal.Laws

noncomputable section

namespace Cert.Consts

open Idealize.ShloMosaic

/-- The f32 word 0x44800000 denotes the real 1024 = 2^10. -/
theorem ofBits_1024 : Ideal.ofBits .f32 0x44800000#32 = ((1024 : ℝ) : EReal) := by
  simp [Ideal.ofBits, Ideal.ieee, -EReal.coe_mul]; norm_num

/-- The square root of 1024 is 32. -/
theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num]
  exact Real.sqrt_sq (by norm_num)

/-- The f32 word 0xFF800000 denotes minus infinity. -/
theorem ofBits_neg_inf : Ideal.ofBits .f32 0xFF800000#32 = ⊥ := by
  simp [Ideal.ofBits, Ideal.ieee]

/-- The f32 zero word denotes 0. -/
theorem ofBits_zero : Ideal.ofBits .f32 0x00000000#32 = 0 := Ideal.ofBits_zero_f32

end Cert.Consts

end
-- ==== Proof.RefProj.lean ====
/-
  The three projections of the reference, read at an index.

  Each is a contraction of x with a weight matrix over the input features followed by the addition
  of a bias row broadcast over the batch and the rows. At the index (b, s, e) this is
  ∑ j, x[b, s, j] · W[e, j] + bias[e]: the specification's projection.
-/
import proofs.«150816_j58841051955817_2_alg».proof.Proof.Spec
import proofs.«150816_j58841051955817_2_alg».proof.Proof.Gen.ReferenceIdeal.Read

noncomputable section

namespace Cert.RefValue

open Cert.ReferenceIdeal Cert.ReferenceIdeal.Gen Cert.ReferenceIdeal.Read
open Idealize.ShloMosaic Idealize.ShloMosaic.ValueIdx Cert.Spec
open scoped BigOperators

/-- Row (b, s) of x is read along its features, whatever the output feature. -/
theorem lidx_v0 (b : Fin 4) (s : Fin 2048) (e k : Fin 1024) : lidx_main_v0 (ix3 b s e) k = ix3 b s k :=
  funext fun a => Fin.ext (by match a with | ⟨0, _⟩ => rfl | ⟨1, _⟩ => rfl | ⟨2, _⟩ => rfl)

/-- Row e of the weight matrix is read along the input features. -/
theorem ridx_v0 (b : Fin 4) (s : Fin 2048) (e k : Fin 1024) : ridx_main_v0 (ix3 b s e) k = ix2 e k :=
  funext fun a => Fin.ext (by match a with | ⟨0, _⟩ => rfl | ⟨1, _⟩ => rfl)

/-- The bias is broadcast along the batch and the rows: entry e at every (b, s, e). -/
theorem idx_v2 (b : Fin 4) (s : Fin 2048) (e : Fin 1024) : idx_main_v1 (idx_main_v2 (ix3 b s e)) = ix1 e :=
  funext fun a => Fin.ext (by match a with | ⟨0, _⟩ => rfl)

/-- The reference's query projection at (b, s, e) is the specification's. -/
theorem query_at (x : Rows) (W : Weights) (bias : Bias) (b : Fin 4) (s : Fin 2048) (e : Fin 1024) :
    val_main_v3 (F := Ideal) x W bias (ix3 b s e) = proj x W bias b s e := by
  rw [val_main_v3_apply, val_main_v0_apply, val_main_v2_apply, val_main_v1_apply, idx_v2]
  simp only [lidx_v0, ridx_v0, Ideal.addf_def]
  rfl

/-- Row (b, s) of x is read along its features, whatever the output feature. -/
theorem lidx_v4 (b : Fin 4) (s : Fin 2048) (e k : Fin 1024) : lidx_main_v4 (ix3 b s e) k = ix3 b s k :=
  funext fun a => Fin.ext (by match a with | ⟨0, _⟩ => rfl | ⟨1, _⟩ => rfl | ⟨2, _⟩ => rfl)

/-- Row e of the weight matrix is read along the input features. -/
theorem ridx_v4 (b : Fin 4) (s : Fin 2048) (e k : Fin 1024) : ridx_main_v4 (ix3 b s e) k = ix2 e k :=
  funext fun a => Fin.ext (by match a with | ⟨0, _⟩ => rfl | ⟨1, _⟩ => rfl)

/-- The bias is broadcast along the batch and the rows: entry e at every (b, s, e). -/
theorem idx_v6 (b : Fin 4) (s : Fin 2048) (e : Fin 1024) : idx_main_v5 (idx_main_v6 (ix3 b s e)) = ix1 e :=
  funext fun a => Fin.ext (by match a with | ⟨0, _⟩ => rfl)

/-- The reference's key projection at (b, s, e) is the specification's. -/
theorem key_at (x : Rows) (W : Weights) (bias : Bias) (b : Fin 4) (s : Fin 2048) (e : Fin 1024) :
    val_main_v7 (F := Ideal) x W bias (ix3 b s e) = proj x W bias b s e := by
  rw [val_main_v7_apply, val_main_v4_apply, val_main_v6_apply, val_main_v5_apply, idx_v6]
  simp only [lidx_v4, ridx_v4, Ideal.addf_def]
  rfl

/-- Row (b, s) of x is read along its features, whatever the output feature. -/
theorem lidx_v8 (b : Fin 4) (s : Fin 2048) (e k : Fin 1024) : lidx_main_v8 (ix3 b s e) k = ix3 b s k :=
  funext fun a => Fin.ext (by match a with | ⟨0, _⟩ => rfl | ⟨1, _⟩ => rfl | ⟨2, _⟩ => rfl)

/-- Row e of the weight matrix is read along the input features. -/
theorem ridx_v8 (b : Fin 4) (s : Fin 2048) (e k : Fin 1024) : ridx_main_v8 (ix3 b s e) k = ix2 e k :=
  funext fun a => Fin.ext (by match a with | ⟨0, _⟩ => rfl | ⟨1, _⟩ => rfl)

/-- The bias is broadcast along the batch and the rows: entry e at every (b, s, e). -/
theorem idx_v10 (b : Fin 4) (s : Fin 2048) (e : Fin 1024) : idx_main_v9 (idx_main_v10 (ix3 b s e)) = ix1 e :=
  funext fun a => Fin.ext (by match a with | ⟨0, _⟩ => rfl)

/-- The reference's value projection at (b, s, e) is the specification's. -/
theorem value_at (x : Rows) (W : Weights) (bias : Bias) (b : Fin 4) (s : Fin 2048) (e : Fin 1024) :
    val_main_v11 (F := Ideal) x W bias (ix3 b s e) = proj x W bias b s e := by
  rw [val_main_v11_apply, val_main_v8_apply, val_main_v10_apply, val_main_v9_apply, idx_v10]
  simp only [lidx_v8, ridx_v8, Ideal.addf_def]
  rfl

end Cert.RefValue

end
-- ==== Proof.RefScore.lean ====
/-
  The reference's scaled and causally masked scores, read at an index.

  The score array is the contraction of the query and key projections over the 1024 features,
  divided by the square root of 1024, which is 32: at (b, s, t) it is the dot product of query row s
  and key row t times 1/32. The mask compares a row counter with a column counter: entry (s, t) of
  the lower triangle is set exactly when t ≤ s. Where it is set the score is kept, elsewhere the
  entry is minus infinity.
-/
import proofs.«150816_j58841051955817_2_alg».proof.Proof.Spec
import proofs.«150816_j58841051955817_2_alg».proof.Proof.Consts
import proofs.«150816_j58841051955817_2_alg».proof.Proof.RefProj

noncomputable section

namespace Cert.RefValue

open Cert.ReferenceIdeal Cert.ReferenceIdeal.Gen Cert.ReferenceIdeal.Read
open Idealize.ShloMosaic Idealize.ShloMosaic.ValueIdx Cert.Spec
open scoped BigOperators

/-- The query row of entry (b, s, t) of the score array is row (b, s). -/
theorem lidx_v12 (b : Fin 4) (s t : Fin 2048) (k : Fin 1024) : lidx_main_v12 (ix3 b s t) k = ix3 b s k :=
  funext fun a => Fin.ext (by match a with | ⟨0, _⟩ => rfl | ⟨1, _⟩ => rfl | ⟨2, _⟩ => rfl)

/-- The key row of entry (b, s, t) of the score array is row (b, t). -/
theorem ridx_v12 (b : Fin 4) (s t : Fin 2048) (k : Fin 1024) : ridx_main_v12 (ix3 b s t) k = ix3 b t k :=
  funext fun a => Fin.ext (by match a with | ⟨0, _⟩ => rfl | ⟨1, _⟩ => rfl | ⟨2, _⟩ => rfl)

/-- The unscaled score at (b, s, t): the dot product of query row s and key row t. -/
theorem dot_at (x : Rows) (Wq : Weights) (bq : Bias) (Wk : Weights) (bk : Bias) (b : Fin 4) (s t : Fin 2048) :
    val_main_v12 (F := Ideal) x Wq bq Wk bk (ix3 b s t)
      = ∑ d : Fin 1024, proj x Wq bq b s d * proj x Wk bk b t d := by
  rw [val_main_v12_apply]
  simp only [lidx_v12, ridx_v12, query_at, key_at]

/-- The divisor, broadcast to every entry: the square root of 1024, the real 32. -/
theorem scale_at (i : S4x2048x2048.Idx) : val_main_v14 (F := Ideal) i = ((32 : ℝ) : EReal) := by
  rw [val_main_v14_apply, val_main_v13_apply, val_main_cst_apply, Ideal.hostUnary_sqrt_def, Ideal.ofBits_def,
    Cert.Consts.sqrt_1024]

/-- The scaled score at (b, s, t) is the specification's: dividing by 32 is multiplying by 1/32. -/
theorem score_at (x : Rows) (Wq : Weights) (bq : Bias) (Wk : Weights) (bk : Bias) (b : Fin 4) (s t : Fin 2048) :
    val_main_v15 (F := Ideal) x Wq bq Wk bk (ix3 b s t) = score x Wq bq Wk bk b s t := by
  rw [val_main_v15_apply, dot_at, scale_at, Ideal.hostDivf_def, Ideal.div_coe (by norm_num : (32 : ℝ) ≠ 0)]
  rfl

/-- A counter below 2048, written as a 32-bit word, reads back as itself when the word is read signed. -/
theorem toInt_ofNat_of_lt (n : Nat) (h : n < 2048) : (BitVec.ofNat 32 n).toInt = (n : Int) := by
  have e : (BitVec.ofNat 32 n).toNat = n := by
    rw [BitVec.toNat_ofNat]; exact Nat.mod_eq_of_lt (by omega)
  rw [BitVec.toInt_eq_toNat_of_lt (by rw [e]; omega), e]

/-- The lower-triangular mask at (s, t): set exactly when t ≤ s. -/
theorem tril_at (s t : Fin 2048) :
    val_main_v17 (F := Ideal) (ix2 s t) = if t.val ≤ s.val then 1#1 else 0#1 := by
  rw [val_main_v17_apply, val_main_call0_v4_apply, val_main_call0_v2_apply, val_main_call0_v0_apply,
    val_main_call0_v1_apply, val_main_call0_c_apply, val_main_call0_v3_apply, val_main_v16_apply, val_main_c_apply,
    val_main_call0_v5_apply, val_main_call0_c_0_apply]
  show Scalar.select (IntOp.cmpi .sge (IntOp.addi (BitVec.ofNat 32 s.val) 0#32) (BitVec.ofNat 32 t.val)) 1#1 0#1 = _
  have hadd : IntOp.addi (BitVec.ofNat 32 s.val) 0#32 = BitVec.ofNat 32 s.val := by
    show BitVec.ofNat 32 s.val + 0#32 = _
    exact BitVec.add_zero _
  rw [hadd]
  by_cases h : t.val ≤ s.val
  · rw [if_pos h, IntOp.cmpi_sge.2 (by rw [toInt_ofNat_of_lt _ t.isLt, toInt_ofNat_of_lt _ s.isLt]; exact_mod_cast h)]
    exact select_one _ _
  · have hz : IntOp.cmpi .sge (BitVec.ofNat 32 s.val) (BitVec.ofNat 32 t.val) = 0#1 :=
      eq_zero_of_ne_one (fun hc => h (by
        have := IntOp.cmpi_sge.1 hc
        rw [toInt_ofNat_of_lt _ t.isLt, toInt_ofNat_of_lt _ s.isLt] at this
        exact_mod_cast this))
    rw [if_neg h, hz]
    exact select_zero _ _

/-- The mask is broadcast over the batch: entry (b, s, t) reads the triangle at (s, t). -/
theorem idx_mask (b : Fin 4) (s t : Fin 2048) : idx_main_call1_v1 (ix3 b s t) = ix2 s t :=
  funext fun a => Fin.ext (by match a with | ⟨0, _⟩ => rfl | ⟨1, _⟩ => rfl)

/-- The masked score at (b, s, t) is the specification's: the score where t ≤ s, minus infinity elsewhere. -/
theorem masked_at (x : Rows) (Wq : Weights) (bq : Bias) (Wk : Weights) (bk : Bias) (b : Fin 4) (s t : Fin 2048) :
    val_main_v18 (F := Ideal) x Wq bq Wk bk (ix3 b s t) = masked x Wq bq Wk bk b s t := by
  rw [val_main_v18_apply, val_main_call1_v1_apply, idx_mask, tril_at, score_at, val_main_call1_v2_apply,
    val_main_call1_v0_apply, val_main_cst_0_apply, Ideal.ofBits_def, Cert.Consts.ofBits_neg_inf]
  unfold masked
  by_cases h : t.val ≤ s.val
  · rw [if_pos h, if_pos h]; exact select_one _ _
  · rw [if_neg h, if_neg h]; exact select_zero _ _

end Cert.RefValue

end
-- ==== Proof.RefSoftmax.lean ====
/-
  The reference's softmax along the key rows, read at an index.

  The row maximum is a reduction by max, from minus infinity, along the last axis: a fold of max over
  the 2048 key rows, in any order. The further maximum with a broadcast minus infinity changes
  nothing. The weights are the exponentials of the masked scores less the row maximum; the
  denominator is 0 plus their sum along the last axis; the normalised weights are the quotients.
-/
import proofs.«150816_j58841051955817_2_alg».proof.Proof.Spec
import proofs.«150816_j58841051955817_2_alg».proof.Proof.Consts
import proofs.«150816_j58841051955817_2_alg».proof.Proof.RefScore

noncomputable section

namespace Cert.RefValue

open Cert.ReferenceIdeal Cert.ReferenceIdeal.Gen Cert.ReferenceIdeal.Read
open Idealize.ShloMosaic Idealize.ShloMosaic.ValueIdx Cert.Spec
open scoped BigOperators

/-- The reduction drops the last axis of a 4 × 2048 × 2048 array. -/
theorem reduces_last : S4x2048x2048.Reduces [2] S4x2048 := by decide

/-- Entry (b, s) of the reduced array collects the entries (b, s, t) of the source. -/
theorem lift_at (b : Fin 4) (s t : Fin 2048) : reduces_last.lift (ix2 b s) t = ix3 b s t :=
  funext fun a => Fin.ext (by match a with | ⟨0, _⟩ => rfl | ⟨1, _⟩ => rfl | ⟨2, _⟩ => rfl)

/-- The reference's row maximum at (b, s) is the specification's: the fold of max from ⊥ over the
    masked scores of the row. -/
theorem rowMax_at (x : Rows) (Wq : Weights) (bq : Bias) (Wk : Weights) (bk : Bias) (b : Fin 4) (s : Fin 2048) :
    val_main_v19 (F := Ideal) x Wq bq Wk bk (ix2 b s) = rowMax x Wq bq Wk bk b s := by
  unfold val_main_v19
  rw [Host.reduce_eq_fold_single FloatOps.maximumf _ _ _ reduces_last h_S_ (ix2 b s), val_main_cst_1_apply,
    Ideal.ofBits_def, Cert.Consts.ofBits_neg_inf]
  unfold rowMax
  show (Finset.univ : Finset (Fin 2048)).fold max ⊥
      (fun t => val_main_v18 (F := Ideal) x Wq bq Wk bk (reduces_last.lift (ix2 b s) t)) = _
  refine Finset.fold_congr fun (t : Fin 2048) _ => ?_
  exact (congrArg (val_main_v18 (F := Ideal) x Wq bq Wk bk) (lift_at b s t)).trans (masked_at x Wq bq Wk bk b s t)

/-- The row maximum is broadcast back along the key rows: entry (b, s, t) reads it at (b, s). -/
theorem idx_rowMax (b : Fin 4) (s t : Fin 2048) : idx_main_v22 (idx_main_v23 (ix3 b s t)) = ix2 b s :=
  funext fun a => Fin.ext (by match a with | ⟨0, _⟩ => rfl | ⟨1, _⟩ => rfl)

/-- The reference's softmax weight at (b, s, t) is the specification's:
    exp (masked score − row maximum); max ⊥ m = m. -/
theorem weight_at (x : Rows) (Wq : Weights) (bq : Bias) (Wk : Weights) (bk : Bias) (b : Fin 4) (s t : Fin 2048) :
    val_main_v25 (F := Ideal) x Wq bq Wk bk (ix3 b s t) = weight x Wq bq Wk bk b s t := by
  rw [val_main_v25_apply, val_main_v24_apply, masked_at, val_main_v23_apply, val_main_v22_apply, idx_rowMax,
    val_main_v21_apply, val_main_v20_apply, val_main_cst_2_apply, rowMax_at, Ideal.hostUnary_exp_def,
    Ideal.subf_def, Ideal.maximumf_def, Ideal.ofBits_def, Cert.Consts.ofBits_neg_inf, max_bot_left]
  rfl

/-- The sum along the key rows at (b, s) runs over the entries (b, s, t). -/
theorem idx_sum (b : Fin 4) (s t : Fin 2048) : idx_main_v26 (ix2 b s) t = ix3 b s t :=
  funext fun a => Fin.ext (by match a with | ⟨0, _⟩ => rfl | ⟨1, _⟩ => rfl | ⟨2, _⟩ => rfl)

/-- The reference's softmax denominator at (b, s) is the specification's: 0 + the sum of the weights. -/
theorem denom_at (x : Rows) (Wq : Weights) (bq : Bias) (Wk : Weights) (bk : Bias) (b : Fin 4) (s : Fin 2048) :
    val_main_v26 (F := Ideal) x Wq bq Wk bk (ix2 b s) = denom x Wq bq Wk bk b s := by
  rw [val_main_v26_apply, val_main_cst_3_apply, Ideal.ofBits_def, Cert.Consts.ofBits_zero, zero_add]
  unfold denom
  refine Finset.sum_congr rfl fun t _ => ?_
  rw [idx_sum, weight_at]

/-- The denominator is broadcast back along the key rows: entry (b, s, t) reads it at (b, s). -/
theorem idx_denom (b : Fin 4) (s t : Fin 2048) : idx_main_v27 (idx_main_v28 (ix3 b s t)) = ix2 b s :=
  funext fun a => Fin.ext (by match a with | ⟨0, _⟩ => rfl | ⟨1, _⟩ => rfl)

/-- The reference's normalised weight at (b, s, t): the weight over the row's denominator. -/
theorem normalised_at (x : Rows) (Wq : Weights) (bq : Bias) (Wk : Weights) (bk : Bias) (b : Fin 4) (s t : Fin 2048) :
    val_main_v29 (F := Ideal) x Wq bq Wk bk (ix3 b s t)
      = Ideal.div (weight x Wq bq Wk bk b s t) (denom x Wq bq Wk bk b s) := by
  rw [val_main_v29_apply, weight_at, val_main_v28_apply, val_main_v27_apply, idx_denom, denom_at, Ideal.hostDivf_def]

end Cert.RefValue

end
-- ==== Proof.RefValue.lean ====
/-
  The reference computes the specification.

  The last stage is the contraction of the normalised weights with the value projections over the key
  rows: at (b, s, e) it is ∑ t, (weight / denominator)[b, s, t] · v[b, t, e]. With the earlier stages
  read at an index this is the specification's attention, entry by entry, so the whole result array
  is the specification's function of the seven argument arrays. Every execution of the reference
  ends with that array in its result and with its arguments unchanged.
-/
import proofs.«150816_j58841051955817_2_alg».proof.Defs
import proofs.«150816_j58841051955817_2_alg».proof.Proof.Spec
import proofs.«150816_j58841051955817_2_alg».proof.Proof.RefSoftmax
import proofs.«150816_j58841051955817_2_alg».proof.Proof.Gen.ReferenceIdeal
import proofs.«150816_j58841051955817_2_alg».proof.Proof.Gen.Pre_finite_inputs
import proofs.«150816_j58841051955817_2_alg».proof.Proof.Gen.ReferenceIdeal.Run
import proofs.«150816_j58841051955817_2_alg».proof.Proof.Gen.ReferenceIdeal.Read

noncomputable section

namespace Cert.RefValue

open Cert.ReferenceIdeal Cert.ReferenceIdeal.Gen Cert.ReferenceIdeal.Read
open Idealize.ShloMosaic Idealize.ShloMosaic.TcCoe Idealize.SL.Sem Idealize.ShloMosaic.ValueIdx Cert.Spec
open scoped BigOperators

/-- The weights of entry (b, s, e) of the result are row (b, s) of the normalised weights. -/
theorem lidx_v30 (b : Fin 4) (s : Fin 2048) (e : Fin 1024) (k : Fin 2048) : lidx_main_v30 (ix3 b s e) k = ix3 b s k :=
  funext fun a => Fin.ext (by match a with | ⟨0, _⟩ => rfl | ⟨1, _⟩ => rfl | ⟨2, _⟩ => rfl)

/-- The values of entry (b, s, e) of the result are column e of the value projections of sequence b. -/
theorem ridx_v30 (b : Fin 4) (s : Fin 2048) (e : Fin 1024) (k : Fin 2048) : ridx_main_v30 (ix3 b s e) k = ix3 b k e :=
  funext fun a => Fin.ext (by match a with | ⟨0, _⟩ => rfl | ⟨1, _⟩ => rfl | ⟨2, _⟩ => rfl)

/-- The reference's result at (b, s, e) is the specification's attention there. -/
theorem attn_at (x : Rows) (Wq : Weights) (bq : Bias) (Wk : Weights) (bk : Bias) (Wv : Weights) (bv : Bias)
    (b : Fin 4) (s : Fin 2048) (e : Fin 1024) :
    val_main_v30 (F := Ideal) x Wq bq Wk bk Wv bv (ix3 b s e) = attnAt x Wq bq Wk bk Wv bv b s e := by
  rw [val_main_v30_apply]
  unfold attnAt
  refine Finset.sum_congr rfl fun t _ => ?_
  rw [lidx_v30, ridx_v30, normalised_at, value_at]

/-- The reference's result array is the specification's function of the seven argument arrays. -/
theorem result_eq (x : Rows) (Wq : Weights) (bq : Bias) (Wk : Weights) (bk : Bias) (Wv : Weights) (bv : Bias) :
    val_main_v30 (F := Ideal) x Wq bq Wk bk Wv bv = attn x Wq bq Wk bk Wv bv := by
  funext i
  obtain ⟨b, s, e, rfl⟩ : ∃ (b : Fin 4) (s : Fin 2048) (e : Fin 1024), i = ix3 b s e := ⟨i 0, i 1, i 2, eq_ix3 i⟩
  rw [attn_apply, attn_at]

/-- Every weakly fair execution of the reference terminates, without a fault, with the specification's
    attention of its argument arrays in its result and the argument arrays unchanged. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ fun r => ∀ c : Dev nD,
      r.2.mem ((c.tc : Thread nD τ).loc main_v30)
        = attn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono
    (fun _ h c => ⟨(h c).1.trans ((val_main_v30_eq (F := Ideal) m c).trans (result_eq _ _ _ _ _ _ _)), (h c).2⟩)
    (Cert.ReferenceIdeal.Value.run (F := Ideal) m ρ)

/-- The reference runs to the end, faults nowhere and leaves its arguments unchanged. -/
theorem frame : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.Claims.lean ====
/-
  Four of the five claims: the three programs run to the end, fault nowhere and leave their argument
  arrays unchanged, and the idealized kernel differs from the kernel only in reading the score
  mask's finite fill value as minus infinity.
-/
import proofs.«150816_j58841051955817_2_alg».proof.Defs
import proofs.«150816_j58841051955817_2_alg».proof.Proof.Gen.Kernel
import proofs.«150816_j58841051955817_2_alg».proof.Proof.Gen.KernelIdeal
import proofs.«150816_j58841051955817_2_alg».proof.Proof.Gen.ReferenceIdeal
import proofs.«150816_j58841051955817_2_alg».proof.Proof.Gen.Pre_finite_inputs
import proofs.«150816_j58841051955817_2_alg».proof.Proof.K.Run
import proofs.«150816_j58841051955817_2_alg».proof.Proof.KI.Run
import proofs.«150816_j58841051955817_2_alg».proof.Proof.RefValue

noncomputable section

namespace Cert.Proof.Claims

open Idealize.ShloMosaic Idealize.SL.Sem

/-- The kernel, read word by word, runs to the end and leaves its arguments unchanged. -/
theorem frame_k : Cert.frame_Kernel := fun m ρ _ => Cert.Kernel.Hand.frame (F := Bits) m ρ

/-- The idealized kernel runs to the end and leaves its arguments unchanged. -/
theorem frame_ki : Cert.frame_KernelIdeal := fun m ρ _ => Cert.KernelIdeal.Hand.frame (F := Ideal) m ρ

/-- The idealized reference runs to the end and leaves its arguments unchanged. -/
theorem frame_ri : Cert.frame_ReferenceIdeal := Cert.RefValue.frame

/-- The one rewrite of the idealization: the mask's fill value, the f32 word of −1.0000000150474662e30,
    is named minus infinity. -/
theorem preserves : Cert.preserves_Kernel_KernelIdeal :=
  IdealRules.named_const.statement Cert.KernelIdeal.κ "neg_big" .f32 0xF149F2CA#32 ⊥ rfl

end Cert.Proof.Claims

end
-- ==== Proof.KI.Entry.lean ====
import proofs.«150816_j58841051955817_2_alg».proof.Proof.KI.Run
import Idealize.ShloMosaic.Lib.Pipeline.Value
import Idealize.ShloMosaic.Lib.ValueIdx
import Idealize.ShloMosaic.Lib.StableHlo.Run

/-!
# The entry contents of the two regions, read at an index

Before the projection region the program reshapes `x` from `[4, 2048, 1024]` to `[8192, 1024]` (row `2048·b + s` of
the result is row `s` of batch `b`) and each bias from `[1024]` to `[1, 1024]`; the weight matrices are passed as
they are. Between the regions it reshapes each projection back from `[8192, 1024]` to `[4, 2048, 1024]`. A reshape
keeps the row-major position of every element, so each entry array, read at an index, is the operand read at the
index with the same position.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.StableHlo

variable {F : FTy → Type} [FloatOps F] [Named F]

variable (m : (ℓ : Loc nD τ sig) → Buf (Elt F) ℓ) (ρ : Dev nD → PrngReg)

/-! ## The projection region's entry -/

/-- The reshaped `x` as a term of the launch memory. -/
theorem V1_main_v0_eq (c : Dev nD) :
    (V1 m ρ c main_v0 : S8192x1024.Idx → Elt F .f32)
      = shapeCast S8192x1024 (m ((c : Thread nD τ).loc main_arg0)) shapeCasts_S4x2048x1024_S8192x1024 := by
  dsimp only [V1, W1, W0, hostOps0]; after_results; rfl

/-- Row `r` of the reshaped `x` is row `r % 2048` of batch `r / 2048`. -/
theorem V1_main_v0 (c : Dev nD) (r : Fin 8192) (j : Fin 1024) :
    V1 m ρ c main_v0 (ix2 r j)
      = m ((c : Thread nD τ).loc main_arg0) (ix3 (⟨r.val / 2048, by omega⟩ : Fin 4) (⟨r.val % 2048, by omega⟩ : Fin 2048) j) := by
  rw [V1_main_v0_eq]
  refine shapeCast_apply (s := S4x2048x1024) (t := S8192x1024) _ _ _ _ ?_
  rw [Shape.rowMajor_val_three, Shape.rowMajor_val_two]
  show ((r.val / 2048) * 2048 + r.val % 2048) * 1024 + j.val = r.val * 1024 + j.val
  omega

/-- The reshaped `bq` as a term of the launch memory. -/
theorem V1_main_v1_eq (c : Dev nD) :
    (V1 m ρ c main_v1 : S1x1024.Idx → Elt F .f32)
      = shapeCast S1x1024 (m ((c : Thread nD τ).loc main_arg2)) shapeCasts_S1024_S1x1024 := by
  dsimp only [V1, W1, W0, hostOps0]; after_results; rfl

/-- The one row of the reshaped `bq` is `bq`. -/
theorem V1_main_v1 (c : Dev nD) (z : Fin 1) (q : Fin 1024) :
    V1 m ρ c main_v1 (ix2 z q) = m ((c : Thread nD τ).loc main_arg2) (ix1 q) := by
  rw [V1_main_v1_eq]
  refine shapeCast_apply (s := S1024) (t := S1x1024) _ _ _ _ ?_
  rw [Shape.rowMajor_val_one, Shape.rowMajor_val_two]
  show q.val = z.val * 1024 + q.val
  omega

/-- The reshaped `bk` as a term of the launch memory. -/
theorem V1_main_v2_eq (c : Dev nD) :
    (V1 m ρ c main_v2 : S1x1024.Idx → Elt F .f32)
      = shapeCast S1x1024 (m ((c : Thread nD τ).loc main_arg4)) shapeCasts_S1024_S1x1024 := by
  dsimp only [V1, W1, W0, hostOps0]; after_results; rfl

/-- The one row of the reshaped `bk` is `bk`. -/
theorem V1_main_v2 (c : Dev nD) (z : Fin 1) (q : Fin 1024) :
    V1 m ρ c main_v2 (ix2 z q) = m ((c : Thread nD τ).loc main_arg4) (ix1 q) := by
  rw [V1_main_v2_eq]
  refine shapeCast_apply (s := S1024) (t := S1x1024) _ _ _ _ ?_
  rw [Shape.rowMajor_val_one, Shape.rowMajor_val_two]
  show q.val = z.val * 1024 + q.val
  omega

/-- The reshaped `bv` as a term of the launch memory. -/
theorem V1_main_v3_eq (c : Dev nD) :
    (V1 m ρ c main_v3 : S1x1024.Idx → Elt F .f32)
      = shapeCast S1x1024 (m ((c : Thread nD τ).loc main_arg6)) shapeCasts_S1024_S1x1024 := by
  dsimp only [V1, W1, W0, hostOps0]; after_results; rfl

/-- The one row of the reshaped `bv` is `bv`. -/
theorem V1_main_v3 (c : Dev nD) (z : Fin 1) (q : Fin 1024) :
    V1 m ρ c main_v3 (ix2 z q) = m ((c : Thread nD τ).loc main_arg6) (ix1 q) := by
  rw [V1_main_v3_eq]
  refine shapeCast_apply (s := S1024) (t := S1x1024) _ _ _ _ ?_
  rw [Shape.rowMajor_val_one, Shape.rowMajor_val_two]
  show q.val = z.val * 1024 + q.val
  omega

/-- `Wq` is passed to the region as launched. -/
theorem V1_main_arg1 (c : Dev nD) : V1 m ρ c main_arg1 = m ((c : Thread nD τ).loc main_arg1) := by
  dsimp only [V1, W1, W0, hostOps0]; after_results

/-- `Wk` is passed to the region as launched. -/
theorem V1_main_arg3 (c : Dev nD) : V1 m ρ c main_arg3 = m ((c : Thread nD τ).loc main_arg3) := by
  dsimp only [V1, W1, W0, hostOps0]; after_results

/-- `Wv` is passed to the region as launched. -/
theorem V1_main_arg5 (c : Dev nD) : V1 m ρ c main_arg5 = m ((c : Thread nD τ).loc main_arg5) := by
  dsimp only [V1, W1, W0, hostOps0]; after_results

/-! ## The attention region's entry -/

/-- The `q` array the attention region starts from, as a term of the projection region's exit contents. -/
theorem V3_main_v5_eq (c : Dev nD) :
    (V3 m ρ c main_v5 : S4x2048x1024.Idx → Elt F .bf16)
      = shapeCast S4x2048x1024 (W2 m ρ c (Proc.devRef .tc main_v4_0)) shapeCasts_S8192x1024_S4x2048x1024 := by
  dsimp only [V3, W3, hostOps1]; after_results; rfl

/-- Row `s` of batch `b` of `q` is row `2048·b + s` of the projection. -/
theorem V3_main_v5 (c : Dev nD) (b : Fin 4) (s : Fin 2048) (e : Fin 1024) :
    V3 m ρ c main_v5 (ix3 b s e)
      = W2 m ρ c (Proc.devRef .tc main_v4_0) (ix2 (⟨2048 * b.val + s.val, by omega⟩ : Fin 8192) e) := by
  rw [V3_main_v5_eq]
  refine shapeCast_apply (s := S8192x1024) (t := S4x2048x1024) _ _ _ _ ?_
  rw [Shape.rowMajor_val_three, Shape.rowMajor_val_two]
  show (2048 * b.val + s.val) * 1024 + e.val = (b.val * 2048 + s.val) * 1024 + e.val
  omega

/-- The `k` array the attention region starts from, as a term of the projection region's exit contents. -/
theorem V3_main_v6_eq (c : Dev nD) :
    (V3 m ρ c main_v6 : S4x2048x1024.Idx → Elt F .bf16)
      = shapeCast S4x2048x1024 (W2 m ρ c (Proc.devRef .tc main_v4_1)) shapeCasts_S8192x1024_S4x2048x1024 := by
  dsimp only [V3, W3, hostOps1]; after_results; rfl

/-- Row `s` of batch `b` of `k` is row `2048·b + s` of the projection. -/
theorem V3_main_v6 (c : Dev nD) (b : Fin 4) (s : Fin 2048) (e : Fin 1024) :
    V3 m ρ c main_v6 (ix3 b s e)
      = W2 m ρ c (Proc.devRef .tc main_v4_1) (ix2 (⟨2048 * b.val + s.val, by omega⟩ : Fin 8192) e) := by
  rw [V3_main_v6_eq]
  refine shapeCast_apply (s := S8192x1024) (t := S4x2048x1024) _ _ _ _ ?_
  rw [Shape.rowMajor_val_three, Shape.rowMajor_val_two]
  show (2048 * b.val + s.val) * 1024 + e.val = (b.val * 2048 + s.val) * 1024 + e.val
  omega

/-- The `v` array the attention region starts from, as a term of the projection region's exit contents. -/
theorem V3_main_v7_eq (c : Dev nD) :
    (V3 m ρ c main_v7 : S4x2048x1024.Idx → Elt F .bf16)
      = shapeCast S4x2048x1024 (W2 m ρ c (Proc.devRef .tc main_v4_2)) shapeCasts_S8192x1024_S4x2048x1024 := by
  dsimp only [V3, W3, hostOps1]; after_results; rfl

/-- Row `s` of batch `b` of `v` is row `2048·b + s` of the projection. -/
theorem V3_main_v7 (c : Dev nD) (b : Fin 4) (s : Fin 2048) (e : Fin 1024) :
    V3 m ρ c main_v7 (ix3 b s e)
      = W2 m ρ c (Proc.devRef .tc main_v4_2) (ix2 (⟨2048 * b.val + s.val, by omega⟩ : Fin 8192) e) := by
  rw [V3_main_v7_eq]
  refine shapeCast_apply (s := S8192x1024) (t := S4x2048x1024) _ _ _ _ ?_
  rw [Shape.rowMajor_val_three, Shape.rowMajor_val_two]
  show (2048 * b.val + s.val) * 1024 + e.val = (b.val * 2048 + s.val) * 1024 + e.val
  omega

end Cert.KernelIdeal.Hand

end
-- ==== Proof.LibRowsDot.lean ====
/-
  A matrix product against a transposed right operand, read at an index.

  The dimension numbers of `[a, K] × [b, K] → [a, b]` — contract the left operand's axis 1 with the right operand's axis 1, no
  batch axis — are those of `q · kᵀ` written without a transpose. On the extended reals the product, read at `(p, q)`, is the
  sum over `k` of `l (p, k) · r (q, k)`: row `p` of the left operand against row `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with rows `[a, K] × [b, K] → [a, b]`, over any witness of their
    well-formedness. -/
abbrev rowsDot (wf : DotDims.WF ⟨2, ![a, K]⟩ ⟨2, ![b, K]⟩ ⟨2, ![a, b]⟩ [1] [1] [0] [0] [] []) :
    DotDims ⟨2, ![a, K]⟩ ⟨2, ![b, K]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, K]⟩ ⟨2, ![b, K]⟩ ⟨2, ![a, b]⟩ [1] [1] [0] [0] [] [])

/-- Off the contracted axis the left operand is read at the result's row, -/
theorem rowsDot_lhs_row (i : (⟨2, ![a, b]⟩ : Shape).Idx) (κ : (rowsDot wf).contr.Idx) :
    ((rowsDot wf).lhsIdx i κ 0).val = (i 0).val := by
  unfold DotDims.lhsIdx
  rw [dif_neg (show ¬(0 : Fin (Shape.rank ⟨2, ![a, K]⟩)) ∈ (rowsDot wf).lhsBatch from List.not_mem_nil),
    dif_pos (show (0 : Fin (Shape.rank ⟨2, ![a, K]⟩)) ∈ (rowsDot wf).lhsNonContracting from List.mem_singleton.mpr rfl)]
  rfl

/-- and the right operand at the row the result's column names. -/
theorem rowsDot_rhs_row (i : (⟨2, ![a, b]⟩ : Shape).Idx) (κ : (rowsDot wf).contr.Idx) :
    ((rowsDot wf).rhsIdx i κ 0).val = (i 1).val := by
  unfold DotDims.rhsIdx
  rw [dif_neg (show ¬(0 : Fin (Shape.rank ⟨2, ![b, K]⟩)) ∈ (rowsDot wf).rhsBatch from List.not_mem_nil),
    dif_pos (show (0 : Fin (Shape.rank ⟨2, ![b, K]⟩)) ∈ (rowsDot wf).rhsNonContracting from List.mem_singleton.mpr rfl)]
  rfl

/-- At result index `(p, q)` and contraction position `k` the left operand is read at `(p, k)`. -/
theorem rowsDot_lhsIdx (p : Fin a) (q : Fin b) (k : Fin K) :
    (rowsDot wf).lhsIdx (ix2 p q) ((contrEquiv1 (rowsDot wf) K rfl rfl).symm k) = ix2 p k :=
  funext fun ax => Fin.ext (by
    match ax with
    | ⟨0, _⟩ => exact rowsDot_lhs_row wf _ _
    | ⟨1, _⟩ =>
      exact ((rowsDot wf).lhsIdx_val_of_single rfl _ _).trans (contrEquiv1_symm_val (rowsDot wf) K rfl rfl k))

/-- … and the right operand at `(q, k)`. -/
theorem rowsDot_rhsIdx (p : Fin a) (q : Fin b) (k : Fin K) :
    (rowsDot wf).rhsIdx (ix2 p q) ((contrEquiv1 (rowsDot wf) K rfl rfl).symm k) = ix2 q k :=
  funext fun ax => Fin.ext (by
    match ax with
    | ⟨0, _⟩ => exact rowsDot_rhs_row wf _ _
    | ⟨1, _⟩ =>
      exact ((rowsDot wf).rhsIdx_val_of_single rfl _ _).trans (contrEquiv1_symm_val (rowsDot wf) K rfl rfl k))

/-- The contraction of a product of rows with rows at `(p, q)`, re-indexed by the contracted coordinate. -/
theorem rowsDot_sum {φ₁ φ₂ : FTy} (l : FVec Ideal ⟨2, ![a, K]⟩ φ₁) (r : FVec Ideal ⟨2, ![b, K]⟩ φ₂) (p : Fin a) (q : Fin b) :
    (∑ k : (rowsDot wf).contr.Idx, l ((rowsDot wf).lhsIdx (ix2 p q) k) * r ((rowsDot wf).rhsIdx (ix2 p q) k))
      = ∑ k : Fin K, l (ix2 p k) * r (ix2 q k) := by
  rw [← Equiv.sum_comp (contrEquiv1 (rowsDot wf) K rfl rfl).symm]
  refine Finset.sum_congr rfl fun k _ => ?_
  rw [rowsDot_lhsIdx, rowsDot_rhsIdx]

/-- A `tpu.matmul` of rows with rows at `(p, q)`: the accumulator's entry plus the row-by-row sum. -/
theorem matmul_rows_apply {φ₁ φ₂ : FTy} (prec : Option ContractPrecision) (l : FVec Ideal ⟨2, ![a, K]⟩ φ₁)
    (r : FVec Ideal ⟨2, ![b, K]⟩ φ₂) (acc : FVec Ideal ⟨2, ![a, b]⟩ .f32) (p : Fin a) (q : Fin b) :
    FloatOps.matmul (rowsDot wf) prec l r acc (ix2 p q) = acc (ix2 p q) + ∑ k : Fin K, l (ix2 p k) * r (ix2 q k) := by
  rw [Ideal.matmul_apply, rowsDot_sum]

/-- Into the zero accumulator: the row-by-row sum alone. -/
theorem matmul_rows_zero_apply {φ₁ φ₂ : FTy} (prec : Option ContractPrecision) (l : FVec Ideal ⟨2, ![a, K]⟩ φ₁)
    (r : FVec Ideal ⟨2, ![b, K]⟩ φ₂) (p : Fin a) (q : Fin b) :
    FloatOps.matmul (rowsDot wf) prec l r (constant ⟨2, ![a, b]⟩ .f32 0x00000000#32) (ix2 p q)
      = ∑ k : Fin K, l (ix2 p k) * r (ix2 q k) := by
  rw [Ideal.matmul_constant_zero_apply, rowsDot_sum]

/-- The host's `dot_general` of rows with rows at `(p, q)`: the same sum. -/
theorem dotGeneral_rows_apply {φ₁ φ₂ : FTy} (prec : Option ContractPrecision) (sched : HostSchedule)
    (l : FVec Ideal ⟨2, ![a, K]⟩ φ₁) (r : FVec Ideal ⟨2, ![b, K]⟩ φ₂) (p : Fin a) (q : Fin b) :
    FloatOps.dotGeneral (rowsDot wf) prec sched l r (ix2 p q) = ∑ k : Fin K, l (ix2 p k) * r (ix2 q k) := by
  rw [Ideal.dotGeneral_apply, rowsDot_sum]

end Cert.Lib

end
-- ==== Proof.KI.Value0Pay.lean ====
import proofs.«150816_j58841051955817_2_alg».proof.Proof.Gen.KernelIdeal.Skeleton
import proofs.«150816_j58841051955817_2_alg».proof.Proof.LibRowsDot
import Idealize.ShloMosaic.Lib.ValueIdx
import Idealize.ShloMosaic.Lib.ValueLayout
import Idealize.ShloMosaic.PureOps.Ideal.Laws

/-!
# The projection body's three results, entry by entry

The body of the projection region holds a block of 512 rows of `x`, one whole weight matrix and one bias row per
result. On the extended reals a change of float format is the identity, the product into the zero accumulator
contracts the second axis of the rows with the second axis of the weights, and the bias row is repeated down the
512 rows. So entry `(p, q)` of each stored block is

  `∑ k, x (p, k) · W (q, k) + b (0, q)`,

for the first result multiplied by the word `0x3D000000`, which is `2⁻⁵ = 1/32`.
-/

noncomputable section

namespace Cert.KernelIdeal.Value0

open Cert.KernelIdeal Cert.KernelIdeal.Gen
open Idealize.ShloMosaic Idealize.ShloMosaic.ValueIdx
open scoped BigOperators

/-- The word `0x3D000000` denotes `2⁻⁵ = 1/32`. -/
theorem scale_word : Ideal.ofBits .f32 0x3D000000#32 = ((1 / 32 : ℝ) : EReal) := by
  simp [Ideal.ofBits, Ideal.ieee, -EReal.coe_mul]; norm_num

/-- The printed dimension numbers of the body's product are those of rows against rows. -/
theorem dot_eq_rows : dot_S512x1024_S1024x1024_S512x1024_1_1_0_0_n_n
    = Cert.Lib.rowsDot (a := 512) (K := 1024) (b := 1024) dot_S512x1024_S1024x1024_S512x1024_1_1_0_0_n_n.wf := rfl

/-- The product of the row block with a weight matrix, into the zero accumulator, at `(p, q)`: row `p` of the
    block against row `q` of the weights. -/
theorem rows_weights_apply (x0 : Vec Ideal S512x1024 .f32) (x1 : Vec Ideal S1024x1024 .f32) (p : Fin 512) (q : Fin 1024) :
    matmul (F := Ideal) dot_S512x1024_S1024x1024_S512x1024_1_1_0_0_n_n none (k0_pay1 x0)
        (truncf .bf16 x1 bitsLt_bf16_f32) (constant S512x1024 .f32 0x00000000#32) (ix2 p q)
      = ∑ k : Fin 1024, (x0 (ix2 p k) : EReal) * (x1 (ix2 q k) : EReal) := by
  rw [dot_eq_rows]
  refine (Cert.Lib.matmul_rows_zero_apply dot_S512x1024_S1024x1024_S512x1024_1_1_0_0_n_n.wf none (k0_pay1 x0)
    (truncf .bf16 x1 bitsLt_bf16_f32) p q).trans ?_
  refine Finset.sum_congr rfl fun k _ => ?_
  unfold k0_pay1
  rw [shapeCast_self]
  rfl

/-- The bias row repeated down the block's rows, at `(p, q)`: the row's entry `q`. -/
theorem bias_rows_apply (x2 : Vec Ideal S1x1024 .f32) (p : Fin 512) (q : Fin 1024) :
    broadcastTo S512x1024 (shapeCast S1x1024 x2 shapeCasts_S1x1024_S1x1024) broadcasts_S1x1024_S512x1024 (ix2 p q)
      = x2 (ix2 (0 : Fin 1) q) := by
  rw [shapeCast_self]
  exact broadcastTo_1b_ab_apply x2 broadcasts_S1x1024_S512x1024 p q

/-- Entry `(p, q)` of the first result's block: the affine form, multiplied by `1/32`. -/
theorem pay2_apply (x0 : Vec Ideal S512x1024 .f32) (x1 : Vec Ideal S1024x1024 .f32) (x2 : Vec Ideal S1x1024 .f32)
    (p : Fin 512) (q : Fin 1024) :
    (k0_pay2 (F := Ideal) x0 x1 x2 (ix2 p q) : EReal)
      = ((∑ k : Fin 1024, (x0 (ix2 p k) : EReal) * (x1 (ix2 q k) : EReal)) + (x2 (ix2 (0 : Fin 1) q) : EReal))
          * ((1 / 32 : ℝ) : EReal) := by
  unfold k0_pay2
  show ((matmul (F := Ideal) dot_S512x1024_S1024x1024_S512x1024_1_1_0_0_n_n none (k0_pay1 x0)
        (truncf .bf16 x1 bitsLt_bf16_f32) (constant S512x1024 .f32 0x00000000#32) (ix2 p q) : EReal)
      + (broadcastTo S512x1024 (shapeCast S1x1024 x2 shapeCasts_S1x1024_S1x1024) broadcasts_S1x1024_S512x1024 (ix2 p q) : EReal))
      * Ideal.ofBits .f32 0x3D000000#32 = _
  rw [rows_weights_apply, bias_rows_apply, scale_word]

/-- Entry `(p, q)` of the second result's block. -/
theorem pay3_apply (x0 : Vec Ideal S512x1024 .f32) (x1 : Vec Ideal S1024x1024 .f32) (x2 : Vec Ideal S1x1024 .f32)
    (p : Fin 512) (q : Fin 1024) :
    (k0_pay3 (F := Ideal) x0 x1 x2 (ix2 p q) : EReal)
      = (∑ k : Fin 1024, (x0 (ix2 p k) : EReal) * (x1 (ix2 q k) : EReal)) + (x2 (ix2 (0 : Fin 1) q) : EReal) := by
  unfold k0_pay3
  show (matmul (F := Ideal) dot_S512x1024_S1024x1024_S512x1024_1_1_0_0_n_n none (k0_pay1 x0)
        (truncf .bf16 x1 bitsLt_bf16_f32) (constant S512x1024 .f32 0x00000000#32) (ix2 p q) : EReal)
      + (broadcastTo S512x1024 (shapeCast S1x1024 x2 shapeCasts_S1x1024_S1x1024) broadcasts_S1x1024_S512x1024 (ix2 p q) : EReal) = _
  rw [rows_weights_apply, bias_rows_apply]

/-- Entry `(p, q)` of the third result's block. -/
theorem pay4_apply (x0 : Vec Ideal S512x1024 .f32) (x1 : Vec Ideal S1024x1024 .f32) (x2 : Vec Ideal S1x1024 .f32)
    (p : Fin 512) (q : Fin 1024) :
    (k0_pay4 (F := Ideal) x0 x1 x2 (ix2 p q) : EReal)
      = (∑ k : Fin 1024, (x0 (ix2 p k) : EReal) * (x1 (ix2 q k) : EReal)) + (x2 (ix2 (0 : Fin 1) q) : EReal) := by
  unfold k0_pay4
  show (matmul (F := Ideal) dot_S512x1024_S1024x1024_S512x1024_1_1_0_0_n_n none (k0_pay1 x0)
        (truncf .bf16 x1 bitsLt_bf16_f32) (constant S512x1024 .f32 0x00000000#32) (ix2 p q) : EReal)
      + (broadcastTo S512x1024 (shapeCast S1x1024 x2 shapeCasts_S1x1024_S1x1024) broadcasts_S1x1024_S512x1024 (ix2 p q) : EReal) = _
  rw [rows_weights_apply, bias_rows_apply]

end Cert.KernelIdeal.Value0

end
-- ==== Proof.KI.Value0Blocks.lean ====
import proofs.«150816_j58841051955817_2_alg».proof.Proof.KI.Region0
import proofs.«150816_j58841051955817_2_alg».proof.Proof.KI.Value0Pay
import Idealize.ShloMosaic.Lib.Pipeline.Value

/-!
# The projection region's blocks as parts of its arrays

The projection region walks 16 row blocks of 512 rows. At grid point `t` the block of `x` and the blocks of
the three results are rows `512 t … 512 t + 511` of their arrays; the three weight matrices and the three bias
rows are whole arrays, the same block at every point. This module states those facts as equations between
indices — an element `(p, k)` of a row block sits at `(512 t + p, k)` of its array, an element of a whole-array
block at the same index of the array — and reads each input window's block, as the region finds the arrays, at
an index. It also names the function the three results are instances of: the affine projection of the rows of
`X` by the rows of `W` and a bias row.
-/

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx
open scoped BigOperators

-- the contents of the core's buffers when the region is entered, on the extended reals
variable (V : (c : Dev nD) → (b : Ref sig .tc) → Buf (Elt Ideal) ((c : Thread nD τ).loc b))

/-- The affine projection of the rows of `X`: entry `(r, e)` is row `r` of `X` against row `e` of `W`, plus the
    bias row's entry `e`. -/
def projRows (X : S8192x1024.Idx → EReal) (W : S1024x1024.Idx → EReal) (B : S1x1024.Idx → EReal) : S8192x1024.Idx → EReal :=
  fun i => (∑ j : Fin 1024, X (ix2 (i 0) j) * W (ix2 (i 1) j)) + B (ix2 0 (i 1))

theorem projRows_apply (X : S8192x1024.Idx → EReal) (W : S1024x1024.Idx → EReal) (B : S1x1024.Idx → EReal)
    (r : Fin 8192) (e : Fin 1024) :
    projRows X W B (ix2 r e) = (∑ j : Fin 1024, X (ix2 r j) * W (ix2 e j)) + B (ix2 (0 : Fin 1) e) := rfl

/-- The zero offsets of a whole-buffer rectangle of rank two. -/
theorem hz : (![0, 0] : Fin 2 → Nat) = fun _ => 0 := funext fun a => by fin_cases a <;> rfl

/-- The index maps over the grid: the row blocks of `x` and of the three results are at the grid coordinate, the
    weights and the bias rows always at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

/-- Row `p` of the row block at point `t` is row `512 t + p` of the array. -/
def rowAt (t : Fin cfg0.N) (p : Fin 512) : Fin 8192 :=
  ⟨t.val * 512 + p.val, by
    have h : t.val < 16 := Nat.lt_of_lt_of_eq t.isLt N_0
    have := p.isLt; omega⟩

theorem rowAt_val (t : Fin cfg0.N) (p : Fin 512) : (rowAt t p).val = t.val * 512 + p.val := rfl

/-! ## Where a block's element sits in its array -/

/-! The row blocks: of `x` (window 0) and of the three results (windows 7, 8, 9). -/
theorem emb0 (t : Fin cfg0.N) (p : Fin 512) (k : Fin 1024) :
    ((cfg0.win 0).blk t).view.emb (ix2 p k) = ix2 (rowAt t p) k := by
  obtain ⟨e0, e1, -⟩ := idx_facts t
  funext a; apply Fin.ext
  match a with
  | ⟨0, _⟩ => show win0_0.index t (0 : Fin 2) * 512 + 1 * p.val = t.val * 512 + p.val; rw [e0]; omega
  | ⟨1, _⟩ => show win0_0.index t (1 : Fin 2) * 1024 + 1 * k.val = k.val; rw [e1]; omega

theorem emb7 (t : Fin cfg0.N) (p : Fin 512) (k : Fin 1024) :
    ((cfg0.win 7).blk t).view.emb (ix2 p k) = ix2 (rowAt t p) k := by
  obtain ⟨-, -, -, -, -, -, -, -, -, -, -, -, -, -, e0, e1, -⟩ := idx_facts t
  funext a; apply Fin.ext
  match a with
  | ⟨0, _⟩ => show win0_7.index t (0 : Fin 2) * 512 + 1 * p.val = t.val * 512 + p.val; rw [e0]; omega
  | ⟨1, _⟩ => show win0_7.index t (1 : Fin 2) * 1024 + 1 * k.val = k.val; rw [e1]; omega

theorem emb8 (t : Fin cfg0.N) (p : Fin 512) (k : Fin 1024) :
    ((cfg0.win 8).blk t).view.emb (ix2 p k) = ix2 (rowAt t p) k := by
  obtain ⟨-, -, -, -, -, -, -, -, -, -, -, -, -, -, -, -, e0, e1, -⟩ := idx_facts t
  funext a; apply Fin.ext
  match a with
  | ⟨0, _⟩ => show win0_8.index t (0 : Fin 2) * 512 + 1 * p.val = t.val * 512 + p.val; rw [e0]; omega
  | ⟨1, _⟩ => show win0_8.index t (1 : Fin 2) * 1024 + 1 * k.val = k.val; rw [e1]; omega

theorem emb9 (t : Fin cfg0.N) (p : Fin 512) (k : Fin 1024) :
    ((cfg0.win 9).blk t).view.emb (ix2 p k) = ix2 (rowAt t p) k := by
  obtain ⟨-, -, -, -, -, -, -, -, -, -, -, -, -, -, -, -, -, -, e0, e1⟩ := idx_facts t
  funext a; apply Fin.ext
  match a with
  | ⟨0, _⟩ => show win0_9.index t (0 : Fin 2) * 512 + 1 * p.val = t.val * 512 + p.val; rw [e0]; omega
  | ⟨1, _⟩ => show win0_9.index t (1 : Fin 2) * 1024 + 1 * k.val = k.val; rw [e1]; omega

/-! The weight matrices (windows 1, 3, 5): the block is the array. -/
theorem emb1 (t : Fin cfg0.N) (q k : Fin 1024) :
    ((cfg0.win 1).blk t).view.emb (ix2 q k) = ix2 q k := by
  obtain ⟨-, -, e0, e1, -⟩ := idx_facts t
  funext a; apply Fin.ext
  match a with
  | ⟨0, _⟩ => show win0_1.index t (0 : Fin 2) * 1024 + 1 * q.val = q.val; rw [e0]; omega
  | ⟨1, _⟩ => show win0_1.index t (1 : Fin 2) * 1024 + 1 * k.val = k.val; rw [e1]; omega

theorem emb3 (t : Fin cfg0.N) (q k : Fin 1024) :
    ((cfg0.win 3).blk t).view.emb (ix2 q k) = ix2 q k := by
  obtain ⟨-, -, -, -, -, -, e0, e1, -⟩ := idx_facts t
  funext a; apply Fin.ext
  match a with
  | ⟨0, _⟩ => show win0_3.index t (0 : Fin 2) * 1024 + 1 * q.val = q.val; rw [e0]; omega
  | ⟨1, _⟩ => show win0_3.index t (1 : Fin 2) * 1024 + 1 * k.val = k.val; rw [e1]; omega

theorem emb5 (t : Fin cfg0.N) (q k : Fin 1024) :
    ((cfg0.win 5).blk t).view.emb (ix2 q k) = ix2 q k := by
  obtain ⟨-, -, -, -, -, -, -, -, -, -, e0, e1, -⟩ := idx_facts t
  funext a; apply Fin.ext
  match a with
  | ⟨0, _⟩ => show win0_5.index t (0 : Fin 2) * 1024 + 1 * q.val = q.val; rw [e0]; omega
  | ⟨1, _⟩ => show win0_5.index t (1 : Fin 2) * 1024 + 1 * k.val = k.val; rw [e1]; omega

/-! The bias rows (windows 2, 4, 6): the block is the array. -/
theorem emb2 (t : Fin cfg0.N) (u : Fin 1) (q : Fin 1024) :
    ((cfg0.win 2).blk t).view.emb (ix2 u q) = ix2 u q := by
  obtain ⟨-, -, -, -, e0, e1, -⟩ := idx_facts t
  funext a; apply Fin.ext
  match a with
  | ⟨0, _⟩ => show win0_2.index t (0 : Fin 2) * 1 + 1 * u.val = u.val; rw [e0]; omega
  | ⟨1, _⟩ => show win0_2.index t (1 : Fin 2) * 1024 + 1 * q.val = q.val; rw [e1]; omega

theorem emb4 (t : Fin cfg0.N) (u : Fin 1) (q : Fin 1024) :
    ((cfg0.win 4).blk t).view.emb (ix2 u q) = ix2 u q := by
  obtain ⟨-, -, -, -, -, -, -, -, e0, e1, -⟩ := idx_facts t
  funext a; apply Fin.ext
  match a with
  | ⟨0, _⟩ => show win0_4.index t (0 : Fin 2) * 1 + 1 * u.val = u.val; rw [e0]; omega
  | ⟨1, _⟩ => show win0_4.index t (1 : Fin 2) * 1024 + 1 * q.val = q.val; rw [e1]; omega

theorem emb6 (t : Fin cfg0.N) (u : Fin 1) (q : Fin 1024) :
    ((cfg0.win 6).blk t).view.emb (ix2 u q) = ix2 u q := by
  obtain ⟨-, -, -, -, -, -, -, -, -, -, -, -, e0, e1, -⟩ := idx_facts t
  funext a; apply Fin.ext
  match a with
  | ⟨0, _⟩ => show win0_6.index t (0 : Fin 2) * 1 + 1 * u.val = u.val; rw [e0]; omega
  | ⟨1, _⟩ => show win0_6.index t (1 : Fin 2) * 1024 + 1 * q.val = q.val; rw [e1]; omega

/-! ## The input blocks at an index -/

/-- The block of `x` at point `t` is rows `512 t … 512 t + 511` of the array. -/
theorem blk0_apply (c : Dev nD) (t : Fin cfg0.N) (p : Fin 512) (k : Fin 1024) :
    (iblk0 V c 0 t : Vec Ideal S512x1024 .f32) (ix2 p k) = (V c main_v0 : S8192x1024.Idx → EReal) (ix2 (rowAt t p) k) := by
  unfold iblk0
  show V c main_v0 (((cfg0.win 0).blk t).view.emb (ix2 p k)) = _
  rw [emb0]

/-! A weight matrix's block is the matrix, -/
theorem blk1_apply (c : Dev nD) (t : Fin cfg0.N) (q k : Fin 1024) :
    (iblk0 V c 1 t : Vec Ideal S1024x1024 .f32) (ix2 q k) = (V c main_arg1 : S1024x1024.Idx → EReal) (ix2 q k) := by
  unfold iblk0
  show V c main_arg1 (((cfg0.win 1).blk t).view.emb (ix2 q k)) = _
  rw [emb1]

theorem blk3_apply (c : Dev nD) (t : Fin cfg0.N) (q k : Fin 1024) :
    (iblk0 V c 3 t : Vec Ideal S1024x1024 .f32) (ix2 q k) = (V c main_arg3 : S1024x1024.Idx → EReal) (ix2 q k) := by
  unfold iblk0
  show V c main_arg3 (((cfg0.win 3).blk t).view.emb (ix2 q k)) = _
  rw [emb3]

theorem blk5_apply (c : Dev nD) (t : Fin cfg0.N) (q k : Fin 1024) :
    (iblk0 V c 5 t : Vec Ideal S1024x1024 .f32) (ix2 q k) = (V c main_arg5 : S1024x1024.Idx → EReal) (ix2 q k) := by
  unfold iblk0
  show V c main_arg5 (((cfg0.win 5).blk t).view.emb (ix2 q k)) = _
  rw [emb5]

/-! and a bias row's block is the row. -/
theorem blk2_apply (c : Dev nD) (t : Fin cfg0.N) (u : Fin 1) (q : Fin 1024) :
    (iblk0 V c 2 t : Vec Ideal S1x1024 .f32) (ix2 u q) = (V c main_v1 : S1x1024.Idx → EReal) (ix2 u q) := by
  unfold iblk0
  show V c main_v1 (((cfg0.win 2).blk t).view.emb (ix2 u q)) = _
  rw [emb2]

theorem blk4_apply (c : Dev nD) (t : Fin cfg0.N) (u : Fin 1) (q : Fin 1024) :
    (iblk0 V c 4 t : Vec Ideal S1x1024 .f32) (ix2 u q) = (V c main_v2 : S1x1024.Idx → EReal) (ix2 u q) := by
  unfold iblk0
  show V c main_v2 (((cfg0.win 4).blk t).view.emb (ix2 u q)) = _
  rw [emb4]

theorem blk6_apply (c : Dev nD) (t : Fin cfg0.N) (u : Fin 1) (q : Fin 1024) :
    (iblk0 V c 6 t : Vec Ideal S1x1024 .f32) (ix2 u q) = (V c main_v3 : S1x1024.Idx → EReal) (ix2 u q) := by
  unfold iblk0
  show V c main_v3 (((cfg0.win 6).blk t).view.emb (ix2 u q)) = _
  rw [emb6]

end Cert.KernelIdeal.Value0

end
-- ==== Proof.KI.Value0.lean ====
import proofs.«150816_j58841051955817_2_alg».proof.Proof.KI.Value0Blocks

/-!
# The projection region's three result arrays

After the projection region each result array is one function of the arrays the region found: with `x` as 8192
rows of 1024 features, entry `(r, e)` of a result is row `r` of `x` against row `e` of the result's weight matrix,
plus entry `e` of its bias row — for the first result multiplied by `1/32`.

Per result: what grid point `t` writes back is block `t` of that function (the stored block read entry by entry,
each input block read as part of its array); the 16 row blocks cover the array, row `r` by point `r / 512`; so the
array after the last point is the function.
-/

noncomputable section

namespace Cert.KernelIdeal.Value0

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

-- the contents of the core's buffers when the region is entered, on the extended reals
variable (V : (c : Dev nD) → (b : Ref sig .tc) → Buf (Elt Ideal) ((c : Thread nD τ).loc b))

/-! ## The first result (window 7) -/

/-- What point `t` writes back to the first result's array is block `t` of the projection by `Wq`, `bq`, multiplied by `1/32`: the stored block's
    entry `(p, q)` is row `p` of the block of `x` against row `q` of the weights plus the bias entry `q`, and row `p`
    of the block of `x` is row `512 t + p` of `x`. -/
theorem flushed7_eq (c : Dev nD) (t : Fin cfg0.N) :
    (dat0 (F := Ideal) V c).flushed 7 t = ((cfg0.win 7).blk t).view.read (Elt Ideal)
      (fun i => projRows (V c main_v0) (V c main_arg1) (V c main_v1) i * ((1 / 32 : ℝ) : EReal)) := by
  show (cfg0.win 7).cut (grid0.coords t) ((dat0 (F := Ideal) V c).after 7 t) = _
  rw [after0_7]
  unfold out0_7
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  show (k0_pay2 (F := Ideal) (iblk0 V c 0 t) (iblk0 V c 1 t) (iblk0 V c 2 t) (ix2 p q) : EReal)
    = projRows (V c main_v0) (V c main_arg1) (V c main_v1) (((cfg0.win 7).blk t).view.emb (ix2 p q)) * ((1 / 32 : ℝ) : EReal)
  rw [pay2_apply (iblk0 V c 0 t) (iblk0 V c 1 t) (iblk0 V c 2 t) p q, emb7, projRows_apply, blk2_apply]
  refine congrArg (fun s => (s + _) * _) (Finset.sum_congr rfl fun k _ => ?_)
  rw [blk0_apply, blk1_apply]

/-- An index of the first result's array is in point `t`'s block iff each coordinate is in the block's range. -/
theorem mem_blk7 (t : Fin cfg0.N) (i : S8192x1024.Idx) :
    i ∈ ((cfg0.win 7).blk t).view.set ↔ ∀ a : Fin 2, win0_7.index t a * S512x1024.size a ≤ (i a).val
      ∧ (i a).val < win0_7.index t a * S512x1024.size a + S512x1024.size a := by
  show i ∈ ((View.whole main_v4_0).slice (win0_7.rect t)).set ↔ _
  rw [View.set_slice_whole, Rect.mem_set_unit]
  exact Iff.rfl

/-- Row `r` of the array lies in the block of point `r / 512`, which is written back. -/
theorem cover7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega) N_0.symm⟩, rfl⟩
  obtain ⟨-, -, -, -, -, -, -, -, -, -, -, -, -, -, e0, e1, -⟩ := idx_facts t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 1024 ≤ (i 1).val ∧ (i 1).val < win0_7.index t (1 : Fin 2) * 1024 + 1024
    rw [e1]; omega

/-- The first result's array after the region: the projection by `Wq`, `bq`, multiplied by `1/32`, of the arrays as the region finds them. -/
theorem final0_7 (c : Dev nD) :
    (dat0 (F := Ideal) V c).arrAt 7 cfg0.N
      = fun i => projRows (V c main_v0) (V c main_arg1) (V c main_v1) i * ((1 / 32 : ℝ) : EReal) :=
  (dat0 (F := Ideal) V c).arrAt_eq_of_cover 7 _ (fun t _ => flushed7_eq V c t) cover7

/-! ## The second result (window 8) -/

/-- What point `t` writes back to the second result's array is block `t` of the projection by `Wk`, `bk`: the stored block's
    entry `(p, q)` is row `p` of the block of `x` against row `q` of the weights plus the bias entry `q`, and row `p`
    of the block of `x` is row `512 t + p` of `x`. -/
theorem flushed8_eq (c : Dev nD) (t : Fin cfg0.N) :
    (dat0 (F := Ideal) V c).flushed 8 t = ((cfg0.win 8).blk t).view.read (Elt Ideal)
      (projRows (V c main_v0) (V c main_arg3) (V c main_v2)) := by
  show (cfg0.win 8).cut (grid0.coords t) ((dat0 (F := Ideal) V c).after 8 t) = _
  rw [after0_8]
  unfold out0_8
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  show (k0_pay3 (F := Ideal) (iblk0 V c 0 t) (iblk0 V c 3 t) (iblk0 V c 4 t) (ix2 p q) : EReal)
    = projRows (V c main_v0) (V c main_arg3) (V c main_v2) (((cfg0.win 8).blk t).view.emb (ix2 p q))
  rw [pay3_apply (iblk0 V c 0 t) (iblk0 V c 3 t) (iblk0 V c 4 t) p q, emb8, projRows_apply, blk4_apply]
  refine congrArg (fun s => s + _) (Finset.sum_congr rfl fun k _ => ?_)
  rw [blk0_apply, blk3_apply]

/-- An index of the second result's array is in point `t`'s block iff each coordinate is in the block's range. -/
theorem mem_blk8 (t : Fin cfg0.N) (i : S8192x1024.Idx) :
    i ∈ ((cfg0.win 8).blk t).view.set ↔ ∀ a : Fin 2, win0_8.index t a * S512x1024.size a ≤ (i a).val
      ∧ (i a).val < win0_8.index t a * S512x1024.size a + S512x1024.size a := by
  show i ∈ ((View.whole main_v4_1).slice (win0_8.rect t)).set ↔ _
  rw [View.set_slice_whole, Rect.mem_set_unit]
  exact Iff.rfl

/-- Row `r` of the array lies in the block of point `r / 512`, which is written back. -/
theorem cover8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega) N_0.symm⟩, rfl⟩
  obtain ⟨-, -, -, -, -, -, -, -, -, -, -, -, -, -, -, -, e0, e1, -⟩ := idx_facts t
  refine ⟨t, flush0_8 t, ?_⟩
  rw [mem_blk8]
  intro a
  match a with
  | ⟨0, _⟩ =>
    show win0_8.index t (0 : Fin 2) * 512 ≤ (i 0).val ∧ (i 0).val < win0_8.index t (0 : Fin 2) * 512 + 512
    rw [e0, ht]; omega
  | ⟨1, _⟩ =>
    show win0_8.index t (1 : Fin 2) * 1024 ≤ (i 1).val ∧ (i 1).val < win0_8.index t (1 : Fin 2) * 1024 + 1024
    rw [e1]; omega

/-- The second result's array after the region: the projection by `Wk`, `bk`, of the arrays as the region finds them. -/
theorem final0_8 (c : Dev nD) :
    (dat0 (F := Ideal) V c).arrAt 8 cfg0.N
      = projRows (V c main_v0) (V c main_arg3) (V c main_v2) :=
  (dat0 (F := Ideal) V c).arrAt_eq_of_cover 8 _ (fun t _ => flushed8_eq V c t) cover8

/-! ## The third result (window 9) -/

/-- What point `t` writes back to the third result's array is block `t` of the projection by `Wv`, `bv`: the stored block's
    entry `(p, q)` is row `p` of the block of `x` against row `q` of the weights plus the bias entry `q`, and row `p`
    of the block of `x` is row `512 t + p` of `x`. -/
theorem flushed9_eq (c : Dev nD) (t : Fin cfg0.N) :
    (dat0 (F := Ideal) V c).flushed 9 t = ((cfg0.win 9).blk t).view.read (Elt Ideal)
      (projRows (V c main_v0) (V c main_arg5) (V c main_v3)) := by
  show (cfg0.win 9).cut (grid0.coords t) ((dat0 (F := Ideal) V c).after 9 t) = _
  rw [after0_9]
  unfold out0_9
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  show (k0_pay4 (F := Ideal) (iblk0 V c 0 t) (iblk0 V c 5 t) (iblk0 V c 6 t) (ix2 p q) : EReal)
    = projRows (V c main_v0) (V c main_arg5) (V c main_v3) (((cfg0.win 9).blk t).view.emb (ix2 p q))
  rw [pay4_apply (iblk0 V c 0 t) (iblk0 V c 5 t) (iblk0 V c 6 t) p q, emb9, projRows_apply, blk6_apply]
  refine congrArg (fun s => s + _) (Finset.sum_congr rfl fun k _ => ?_)
  rw [blk0_apply, blk5_apply]

/-- An index of the third result's array is in point `t`'s block iff each coordinate is in the block's range. -/
theorem mem_blk9 (t : Fin cfg0.N) (i : S8192x1024.Idx) :
    i ∈ ((cfg0.win 9).blk t).view.set ↔ ∀ a : Fin 2, win0_9.index t a * S512x1024.size a ≤ (i a).val
      ∧ (i a).val < win0_9.index t a * S512x1024.size a + S512x1024.size a := by
  show i ∈ ((View.whole main_v4_2).slice (win0_9.rect t)).set ↔ _
  rw [View.set_slice_whole, Rect.mem_set_unit]
  exact Iff.rfl

/-- Row `r` of the array lies in the block of point `r / 512`, which is written back. -/
theorem cover9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega) N_0.symm⟩, rfl⟩
  obtain ⟨-, -, -, -, -, -, -, -, -, -, -, -, -, -, -, -, -, -, e0, e1⟩ := idx_facts t
  refine ⟨t, flush0_9 t, ?_⟩
  rw [mem_blk9]
  intro a
  match a with
  | ⟨0, _⟩ =>
    show win0_9.index t (0 : Fin 2) * 512 ≤ (i 0).val ∧ (i 0).val < win0_9.index t (0 : Fin 2) * 512 + 512
    rw [e0, ht]; omega
  | ⟨1, _⟩ =>
    show win0_9.index t (1 : Fin 2) * 1024 ≤ (i 1).val ∧ (i 1).val < win0_9.index t (1 : Fin 2) * 1024 + 1024
    rw [e1]; omega

/-- The third result's array after the region: the projection by `Wv`, `bv`, of the arrays as the region finds them. -/
theorem final0_9 (c : Dev nD) :
    (dat0 (F := Ideal) V c).arrAt 9 cfg0.N
      = projRows (V c main_v0) (V c main_arg5) (V c main_v3) :=
  (dat0 (F := Ideal) V c).arrAt_eq_of_cover 9 _ (fun t _ => flushed9_eq V c t) cover9

end Cert.KernelIdeal.Value0

end
-- ==== Proof.LibOnlineSoftmax.lean ====
/-
  The online softmax equals the one-shot softmax, on the extended reals.

  A row of attention scores is consumed tile by tile. The running state is a triple
  (m, l, acc): the maximum of the scores seen so far, the sum of exp (score - m) over them, and
  the sum of exp (score - m) * value over them. A new tile raises the maximum to m', rescales the
  two sums by exp (m - m'), and adds the tile's own terms. After the last tile acc / l is the
  softmax-weighted mean of the values, which is what the one-shot formula (one maximum, one
  sum over all columns) computes. Masked scores are ⊥ and weigh exp ⊥ = 0.

  Everything is stated with the extended-real operations Ideal.exp and Ideal.div and EReal's own
  +, -, *, max, over abstract finite index types. The proof moves to the reals: from the first
  tile on every quantity is the coercion of a real number.
-/
import Idealize.ShloMosaic.PureOps.Ideal

noncomputable section

namespace Cert.Lib

open Idealize.ShloMosaic
open scoped BigOperators

/-! ### Small facts on the extended reals -/

/-- An extended real is the coercion of a real number exactly when it is neither infinity. -/
theorem exists_coe_iff (x : EReal) : (∃ r : ℝ, x = (r : EReal)) ↔ x ≠ ⊥ ∧ x ≠ ⊤ := by
  constructor
  · rintro ⟨r, rfl⟩
    exact ⟨EReal.coe_ne_bot r, EReal.coe_ne_top r⟩
  · rintro ⟨hb, ht⟩
    exact ⟨x.toReal, (EReal.coe_toReal ht hb).symm⟩

/-- The coercion of a finite sum of reals is the sum of the coercions. -/
theorem coe_sum' {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a difference of two reals is the real exponential of the difference. -/
theorem exp_coe_sub_coe (x m : ℝ) :
    Ideal.exp ((x : EReal) - (m : EReal)) = ((Real.exp (x - m) : ℝ) : EReal) := by
  rw [← EReal.coe_sub, Ideal.exp_coe]

/-- ⊥ - x = ⊥ for every extended real x, so its exponential is 0: a masked score has weight 0,
    and the rescaling factor of the empty initial state is 0. -/
theorem exp_bot_sub (x : EReal) : Ideal.exp (⊥ - x) = 0 := by
  rw [EReal.bot_sub, Ideal.exp_bot]

/-! ### The maximum of a finite family -/

section FoldMax
variable {ι : Type*}

/-- The maximum (from ⊥) of a family that never takes the value ⊤ is not ⊤. -/
theorem fold_max_ne_top (t : Finset ι) (f : ι → EReal) (hf : ∀ i ∈ t, f i ≠ ⊤) :
    t.fold max ⊥ f ≠ ⊤ := by
  rw [← lt_top_iff_ne_top, Finset.fold_max_lt]
  exact ⟨bot_lt_top, fun i hi => lt_top_iff_ne_top.2 (hf i hi)⟩

/-- The maximum (from ⊥) of a family with an entry other than ⊥ is not ⊥. -/
theorem fold_max_ne_bot (t : Finset ι) (f : ι → EReal) (hf : ∃ i ∈ t, f i ≠ ⊥) :
    t.fold max ⊥ f ≠ ⊥ := by
  obtain ⟨i, hi, hne⟩ := hf
  rw [← bot_lt_iff_ne_bot, Finset.lt_fold_max]
  exact Or.inr ⟨i, hi, bot_lt_iff_ne_bot.2 hne⟩

/-- Every entry is at most the maximum. -/
theorem le_fold_max_of_mem (t : Finset ι) (f : ι → EReal) {i : ι} (hi : i ∈ t) :
    f i ≤ t.fold max ⊥ f :=
  (Finset.le_fold_max _).2 (Or.inr ⟨i, hi, le_rfl⟩)

/-- The maximum (from ⊥) over a whole finite type of a family whose entries are real or ⊥, with
    at least one real entry, is a real number. -/
theorem fold_max_real [Fintype ι] (f : ι → EReal) (hf : ∀ i, f i ≠ ⊤) (hex : ∃ i, f i ≠ ⊥) :
    ∃ r : ℝ, Finset.univ.fold max ⊥ f = (r : EReal) := by
  obtain ⟨i, hi⟩ := hex
  exact (exists_coe_iff _).2
    ⟨fold_max_ne_bot _ f ⟨i, Finset.mem_univ i, hi⟩, fold_max_ne_top _ f fun j _ => hf j⟩

end FoldMax

/-! ### The weight exp (x - m) as a real number -/

/-- The softmax weight of a score x against a real maximum m, as a real number: exp (x - m) for a
    real x, and 0 for the masked score ⊥. -/
def wt (x : EReal) (m : ℝ) : ℝ := (Ideal.exp (x - (m : EReal))).toReal

/-- A masked score has weight 0. -/
theorem wt_bot (m : ℝ) : wt ⊥ m = 0 := by
  rw [wt, EReal.bot_sub, Ideal.exp_bot, EReal.toReal_zero]

/-- A real score x has weight exp (x - m). -/
theorem wt_coe (x m : ℝ) : wt (x : EReal) m = Real.exp (x - m) := by
  rw [wt, exp_coe_sub_coe, EReal.toReal_coe]

/-- For a score that is real or ⊥, the extended-real exponential of x - m is the coercion of the
    weight. -/
theorem exp_sub_coe {x : EReal} (hx : x ≠ ⊤) (m : ℝ) :
    Ideal.exp (x - (m : EReal)) = ((wt x m : ℝ) : EReal) := by
  induction x using EReal.rec with
  | bot => rw [wt_bot, EReal.bot_sub, Ideal.exp_bot, EReal.coe_zero]
  | coe r => rw [wt_coe, exp_coe_sub_coe]
  | top => exact absurd rfl hx

/-- A weight is nonnegative. -/
theorem wt_nonneg {x : EReal} (hx : x ≠ ⊤) (m : ℝ) : 0 ≤ wt x m := by
  induction x using EReal.rec with
  | bot => rw [wt_bot]
  | coe r => rw [wt_coe]; exact (Real.exp_pos _).le
  | top => exact absurd rfl hx

/-- The weight of a real score is positive. -/
theorem wt_pos {x : EReal} (hx : x ≠ ⊤) (hx' : x ≠ ⊥) (m : ℝ) : 0 < wt x m := by
  induction x using EReal.rec with
  | bot => exact absurd rfl hx'
  | coe r => rw [wt_coe]; exact Real.exp_pos _
  | top => exact absurd rfl hx

/-- Changing the maximum from μ to m' multiplies every weight by exp (μ - m'):
    exp (μ - m') * exp (x - μ) = exp (x - m'), and both sides are 0 for a masked score. -/
theorem wt_rescale {x : EReal} (hx : x ≠ ⊤) (μ m' : ℝ) :
    wt (μ : EReal) m' * wt x μ = wt x m' := by
  induction x using EReal.rec with
  | bot => rw [wt_bot, wt_bot, mul_zero]
  | coe r =>
    rw [wt_coe, wt_coe, wt_coe, ← Real.exp_add]
    congr 1
    ring
  | top => exact absurd rfl hx

/-! ### The online softmax -/

/-- One row's running state: the running maximum m, the running denominator l, and the running
    numerator acc (one entry per output feature). -/
@[ext]
structure OSState (H : Type*) where
  m : EReal
  l : EReal
  acc : H → EReal

variable {H K : Type*} [Fintype K]

/-- One step of the online softmax: a tile with scores s and values v raises the maximum to
    m' = max m (max of s), rescales l and acc by exp (m - m'), and adds the tile's weights
    exp (s k - m') and weighted values. -/
def osStep (st : OSState H) (s : K → EReal) (v : K → H → EReal) : OSState H where
  m := max st.m (Finset.univ.fold max ⊥ s)
  l := Ideal.exp (st.m - max st.m (Finset.univ.fold max ⊥ s)) * st.l
      + ∑ k, Ideal.exp (s k - max st.m (Finset.univ.fold max ⊥ s))
  acc := fun h => Ideal.exp (st.m - max st.m (Finset.univ.fold max ⊥ s)) * st.acc h
      + ∑ k, Ideal.exp (s k - max st.m (Finset.univ.fold max ⊥ s)) * v k h

/-- The new maximum. -/
theorem osStep_m (st : OSState H) (s : K → EReal) (v : K → H → EReal) :
    (osStep st s v).m = max st.m (Finset.univ.fold max ⊥ s) := rfl

/-- The new denominator, written with the new maximum. -/
theorem osStep_l (st : OSState H) (s : K → EReal) (v : K → H → EReal) :
    (osStep st s v).l = Ideal.exp (st.m - (osStep st s v).m) * st.l
      + ∑ k, Ideal.exp (s k - (osStep st s v).m) := rfl

/-- The new numerator, written with the new maximum. -/
theorem osStep_acc (st : OSState H) (s : K → EReal) (v : K → H → EReal) (h : H) :
    (osStep st s v).acc h = Ideal.exp (st.m - (osStep st s v).m) * st.acc h
      + ∑ k, Ideal.exp (s k - (osStep st s v).m) * v k h := rfl

/-- The state after the first n of J tiles: from (⊥, 0, 0), one step per tile, in order. (For
    n beyond J the state stays that after all J tiles.) -/
def osRun {J : ℕ} (s : Fin J → K → EReal) (v : Fin J → K → H → EReal) : ℕ → OSState H
  | 0 => ⟨⊥, 0, fun _ => 0⟩
  | n + 1 => if hn : n < J then osStep (osRun s v n) (s ⟨n, hn⟩) (v ⟨n, hn⟩) else osRun s v n

variable {J : ℕ} (s : Fin J → K → EReal) (v : Fin J → K → H → EReal)

/-- Before any tile the state is (⊥, 0, 0). -/
theorem osRun_zero : osRun s v 0 = ⟨⊥, 0, fun _ => 0⟩ := rfl

/-- The state after tile n is one step from the state before it. -/
theorem osRun_succ {n : ℕ} (hn : n < J) :
    osRun s v (n + 1) = osStep (osRun s v n) (s ⟨n, hn⟩) (v ⟨n, hn⟩) := by
  rw [osRun, dif_pos hn]

/-! ### The step on a state whose sums are real -/

/-- If the old maximum is not ⊤, the old denominator is a real L, the tile's scores are real or
    ⊥, and the new maximum is a real m', then the new denominator is the real
    wt m m' * L + ∑ k, wt (s k) m'. -/
theorem osStep_l_real {st : OSState H} {s₀ : K → EReal} {v₀ : K → H → EReal} {L m' : ℝ}
    (hμ : st.m ≠ ⊤) (hL : st.l = (L : EReal)) (hs₀ : ∀ k, s₀ k ≠ ⊤)
    (hm' : (osStep st s₀ v₀).m = (m' : EReal)) :
    (osStep st s₀ v₀).l = ((wt st.m m' * L + ∑ k, wt (s₀ k) m' : ℝ) : EReal) := by
  rw [osStep_l, hm', hL, exp_sub_coe hμ, EReal.coe_add, EReal.coe_mul, coe_sum']
  congr 1
  exact Finset.sum_congr rfl fun k _ => exp_sub_coe (hs₀ k) m'

/-- The same for one entry of the numerator, when the tile's values are real. -/
theorem osStep_acc_real {st : OSState H} {s₀ : K → EReal} {v₀ : K → H → EReal} {A m' : ℝ} {h : H}
    (hμ : st.m ≠ ⊤) (hA : st.acc h = (A : EReal)) (hs₀ : ∀ k, s₀ k ≠ ⊤)
    (hv₀ : ∀ k, v₀ k h ≠ ⊥ ∧ v₀ k h ≠ ⊤)
    (hm' : (osStep st s₀ v₀).m = (m' : EReal)) :
    (osStep st s₀ v₀).acc h
      = ((wt st.m m' * A + ∑ k, wt (s₀ k) m' * (v₀ k h).toReal : ℝ) : EReal) := by
  rw [osStep_acc, hm', hA, exp_sub_coe hμ, EReal.coe_add, EReal.coe_mul, coe_sum']
  congr 1
  refine Finset.sum_congr rfl fun k _ => ?_
  rw [EReal.coe_mul, exp_sub_coe (hs₀ k), EReal.coe_toReal (hv₀ k).2 (hv₀ k).1]

/-! ### The tiles done so far -/

/-- The tiles with index below n. -/
def tilesBelow (J n : ℕ) : Finset (Fin J) := Finset.univ.filter fun j => j.val < n

/-- Membership: the tile's index is below n. -/
theorem mem_tilesBelow {n : ℕ} (j : Fin J) : j ∈ tilesBelow J n ↔ j.val < n := by
  simp [tilesBelow]

/-- No tile is below 0. -/
theorem tilesBelow_zero : tilesBelow J 0 = ∅ := by
  simp [tilesBelow]

/-- The tiles below n + 1 are tile n and the tiles below n. -/
theorem tilesBelow_succ {n : ℕ} (hn : n < J) :
    tilesBelow J (n + 1) = insert (⟨n, hn⟩ : Fin J) (tilesBelow J n) := by
  ext j
  simp only [tilesBelow, Finset.mem_filter, Finset.mem_univ, true_and, Finset.mem_insert,
    Fin.ext_iff]
  omega

/-- Tile n is not below n. -/
theorem not_mem_tilesBelow {n : ℕ} (hn : n < J) : (⟨n, hn⟩ : Fin J) ∉ tilesBelow J n := by
  simp [tilesBelow]

/-- All J tiles are below J. -/
theorem tilesBelow_self : tilesBelow J J = Finset.univ := by
  ext j
  simp [tilesBelow]

/-! ### The running maximum -/

/-- The maximum (from ⊥) of the scores of the tiles below n: the maximum over those tiles of
    each tile's own maximum. -/
def runMax (s : Fin J → K → EReal) (n : ℕ) : EReal :=
  (tilesBelow J n).fold max ⊥ fun j => Finset.univ.fold max ⊥ (s j)

/-- The running maximum of the online softmax after n tiles is the maximum of the scores of
    those tiles. -/
theorem osRun_m {n : ℕ} (hn : n ≤ J) : (osRun s v n).m = runMax s n := by
  induction n with
  | zero => rw [osRun_zero, runMax, tilesBelow_zero, Finset.fold_empty]
  | succ n ih =>
    have hn' : n < J := hn
    rw [osRun_succ s v hn', osStep_m, ih hn'.le]
    unfold runMax
    rw [tilesBelow_succ hn', Finset.fold_insert (not_mem_tilesBelow hn'), max_comm]

/-- Every score of a tile below n is at most the running maximum. -/
theorem le_runMax {n : ℕ} {j : Fin J} (hj : j.val < n) (k : K) : s j k ≤ runMax s n :=
  (le_fold_max_of_mem _ (s j) (Finset.mem_univ k)).trans
    (le_fold_max_of_mem _ (fun j => Finset.univ.fold max ⊥ (s j)) ((mem_tilesBelow j).2 hj))

/-- With scores real or ⊥, the running maximum is never ⊤. -/
theorem runMax_ne_top (hs : ∀ j k, s j k ≠ ⊤) (n : ℕ) : runMax s n ≠ ⊤ :=
  fold_max_ne_top _ _ fun j _ => fold_max_ne_top _ _ fun k _ => hs j k

/-- With scores real or ⊥ and a real score in tile 0, the running maximum after at least one
    tile is a real number. -/
theorem runMax_real (hJ : 0 < J) (hs : ∀ j k, s j k ≠ ⊤) (h0 : ∃ k, s ⟨0, hJ⟩ k ≠ ⊥)
    {n : ℕ} (hn : 0 < n) : ∃ μ : ℝ, runMax s n = (μ : EReal) := by
  obtain ⟨k, hk⟩ := h0
  refine (exists_coe_iff _).2 ⟨?_, runMax_ne_top s hs n⟩
  exact fold_max_ne_bot _ _ ⟨⟨0, hJ⟩, (mem_tilesBelow _).2 hn,
    fold_max_ne_bot _ _ ⟨k, Finset.mem_univ k, hk⟩⟩

/-! ### The invariant: the sums of the run, as real numbers -/

/-- Rescaling a double sum of weights (times real coefficients y) from the maximum μ to m'. -/
theorem sum_rescale (hs : ∀ j k, s j k ≠ ⊤) (T : Finset (Fin J)) (y : Fin J → K → ℝ) (μ m' : ℝ) :
    wt (μ : EReal) m' * ∑ j ∈ T, ∑ k, wt (s j k) μ * y j k
      = ∑ j ∈ T, ∑ k, wt (s j k) m' * y j k := by
  rw [Finset.mul_sum]
  refine Finset.sum_congr rfl fun j _ => ?_
  rw [Finset.mul_sum]
  refine Finset.sum_congr rfl fun k _ => ?_
  rw [← mul_assoc, wt_rescale (hs j k)]

/-- The same along the run: rescaling the sums over the tiles below n from their own maximum to
    any real m'. Before the first tile both sums are empty; afterwards the maximum is real. -/
theorem run_rescale (hJ : 0 < J) (hs : ∀ j k, s j k ≠ ⊤) (h0 : ∃ k, s ⟨0, hJ⟩ k ≠ ⊥)
    (n : ℕ) (y : Fin J → K → ℝ) (m' : ℝ) :
    wt (runMax s n) m' * ∑ j ∈ tilesBelow J n, ∑ k, wt (s j k) (runMax s n).toReal * y j k
      = ∑ j ∈ tilesBelow J n, ∑ k, wt (s j k) m' * y j k := by
  rcases Nat.eq_zero_or_pos n with rfl | hpos
  · rw [tilesBelow_zero, Finset.sum_empty, Finset.sum_empty, mul_zero]
  · obtain ⟨μ, hμ⟩ := runMax_real s hJ hs h0 hpos
    rw [hμ, EReal.toReal_coe]
    exact sum_rescale s hs _ y μ m'

/-- THE INVARIANT. With scores real or ⊥, real values, and a real score in tile 0: after n tiles,
    with m the running maximum (read as a real), the denominator is the real number
    ∑ exp (score - m) over the columns of those tiles, and each numerator entry is the real number
    ∑ exp (score - m) * value over them. (For n = 0 both sums are empty.) -/
theorem osRun_l_acc (hJ : 0 < J) (hs : ∀ j k, s j k ≠ ⊤)
    (hv : ∀ j k h, v j k h ≠ ⊥ ∧ v j k h ≠ ⊤) (h0 : ∃ k, s ⟨0, hJ⟩ k ≠ ⊥) {n : ℕ} (hn : n ≤ J) :
    (osRun s v n).l
        = ((∑ j ∈ tilesBelow J n, ∑ k, wt (s j k) (runMax s n).toReal : ℝ) : EReal) ∧
      ∀ h, (osRun s v n).acc h
        = ((∑ j ∈ tilesBelow J n, ∑ k,
            wt (s j k) (runMax s n).toReal * (v j k h).toReal : ℝ) : EReal) := by
  induction n with
  | zero =>
    refine ⟨?_, fun h => ?_⟩
    · rw [osRun_zero, tilesBelow_zero, Finset.sum_empty, EReal.coe_zero]
    · rw [osRun_zero, tilesBelow_zero, Finset.sum_empty, EReal.coe_zero]
  | succ n ih =>
    have hn' : n < J := hn
    obtain ⟨ihl, ihacc⟩ := ih hn'.le
    obtain ⟨m', hm'⟩ := runMax_real s hJ hs h0 (Nat.succ_pos n)
    have hμ : (osRun s v n).m ≠ ⊤ := by
      rw [osRun_m s v hn'.le]; exact runMax_ne_top s hs n
    have hnew : (osStep (osRun s v n) (s ⟨n, hn'⟩) (v ⟨n, hn'⟩)).m = (m' : EReal) := by
      rw [← osRun_succ s v hn', osRun_m s v hn, hm']
    rw [osRun_succ s v hn', hm', EReal.toReal_coe, tilesBelow_succ hn']
    refine ⟨?_, fun h => ?_⟩
    · rw [osStep_l_real hμ ihl (hs ⟨n, hn'⟩) hnew, Finset.sum_insert (not_mem_tilesBelow hn'),
        osRun_m s v hn'.le, add_comm]
      congr 2
      simpa using run_rescale s hJ hs h0 n (fun _ _ => 1) m'
    · rw [osStep_acc_real hμ (ihacc h) (hs ⟨n, hn'⟩) (fun k => hv ⟨n, hn'⟩ k h) hnew,
        Finset.sum_insert (not_mem_tilesBelow hn'), osRun_m s v hn'.le, add_comm]
      congr 2
      exact run_rescale s hJ hs h0 n (fun j k => (v j k h).toReal) m'

/-- With a real score in tile 0, the real denominator after at least one tile is positive. -/
theorem sum_wt_pos (hJ : 0 < J) (hs : ∀ j k, s j k ≠ ⊤) (h0 : ∃ k, s ⟨0, hJ⟩ k ≠ ⊥)
    {n : ℕ} (hn : 0 < n) (m : ℝ) : 0 < ∑ j ∈ tilesBelow J n, ∑ k, wt (s j k) m := by
  obtain ⟨k, hk⟩ := h0
  refine Finset.sum_pos' (fun j _ => Finset.sum_nonneg fun k _ => wt_nonneg (hs j k) m)
    ⟨⟨0, hJ⟩, (mem_tilesBelow _).2 hn, ?_⟩
  exact Finset.sum_pos' (fun k _ => wt_nonneg (hs _ k) m)
    ⟨k, Finset.mem_univ k, wt_pos (hs _ k) hk m⟩

/-- THE STATE AFTER n ≥ 1 TILES IS REAL: the maximum is a real m, the denominator a positive real
    L, every numerator entry a real A h. -/
theorem osRun_real (hJ : 0 < J) (hs : ∀ j k, s j k ≠ ⊤)
    (hv : ∀ j k h, v j k h ≠ ⊥ ∧ v j k h ≠ ⊤) (h0 : ∃ k, s ⟨0, hJ⟩ k ≠ ⊥)
    {n : ℕ} (hpos : 0 < n) (hn : n ≤ J) :
    ∃ (m L : ℝ) (A : H → ℝ), (osRun s v n).m = (m : EReal) ∧ (osRun s v n).l = (L : EReal) ∧
      0 < L ∧ ∀ h, (osRun s v n).acc h = (A h : EReal) := by
  obtain ⟨m, hm⟩ := runMax_real s hJ hs h0 hpos
  obtain ⟨hl, hacc⟩ := osRun_l_acc s v hJ hs hv h0 hn
  exact ⟨m, _, _, (osRun_m s v hn).trans hm, hl, sum_wt_pos s hJ hs h0 hpos _, hacc⟩

/-! ### The one-shot softmax over all columns -/

section OneShot

variable {C : Type*} [Fintype C]
variable (u : C → EReal) (w : C → H → EReal) (e : Fin J × K → C)

/-- If the one-shot scores u restrict to the tile scores along e and are ⊥ off the range of e,
    the one-shot maximum is the running maximum after all tiles. -/
theorem fold_max_eq_runMax (hu : ∀ j k, u (e (j, k)) = s j k)
    (hout : ∀ c, c ∉ Set.range e → u c = ⊥) :
    Finset.univ.fold max ⊥ u = runMax s J := by
  apply le_antisymm
  · refine (Finset.fold_max_le _).2 ⟨bot_le, fun c _ => ?_⟩
    by_cases hc : c ∈ Set.range e
    · obtain ⟨⟨j, k⟩, rfl⟩ := hc
      rw [hu j k]
      exact le_runMax s j.isLt k
    · rw [hout c hc]
      exact bot_le
  · refine (Finset.fold_max_le _).2 ⟨bot_le, fun j _ => ?_⟩
    refine (Finset.fold_max_le _).2 ⟨bot_le, fun k _ => ?_⟩
    rw [← hu j k]
    exact le_fold_max_of_mem _ u (Finset.mem_univ _)

/-- The one-shot denominator, ∑ over all columns of exp (score - m), is the real double sum over
    tiles and tile columns of the weights: the columns off the range of e are masked and weigh 0. -/
theorem sum_exp_eq (hs : ∀ j k, s j k ≠ ⊤) (he : Function.Injective e)
    (hu : ∀ j k, u (e (j, k)) = s j k) (hout : ∀ c, c ∉ Set.range e → u c = ⊥) (m : ℝ) :
    ∑ c, Ideal.exp (u c - (m : EReal)) = ((∑ j, ∑ k, wt (s j k) m : ℝ) : EReal) := by
  rw [← Fintype.sum_of_injective e he (fun p => ((wt (s p.1 p.2) m : ℝ) : EReal))
    (fun c => Ideal.exp (u c - (m : EReal)))
    (fun c hc => by rw [hout c hc, exp_bot_sub])
    (fun p => by rw [← exp_sub_coe (hs p.1 p.2), ← hu p.1 p.2])]
  rw [Fintype.sum_prod_type, coe_sum']
  exact Finset.sum_congr rfl fun j _ => (coe_sum' _ _).symm

/-- THE ONLINE SOFTMAX IS THE SOFTMAX (plain shape of the one-shot side: its maximum is the
    maximum of all scores, its denominator the sum of all exponentials).
    Scores are real or ⊥, values real, tile 0 has a real score; the one-shot scores u and values w
    restrict to the tiles' along an injection e of (tile, column) pairs into all columns, and u
    is ⊥ off its range. Then for each output feature h, numerator over denominator after the last
    tile is ∑ over all columns of (exp (u c - M) / ∑ exp (u c' - M)) * w c h. -/
theorem onlineSoftmax_eq_softmax' (hJ : 0 < J) (hs : ∀ j k, s j k ≠ ⊤)
    (hv : ∀ j k h, v j k h ≠ ⊥ ∧ v j k h ≠ ⊤) (h0 : ∃ k, s ⟨0, hJ⟩ k ≠ ⊥)
    (he : Function.Injective e) (hu : ∀ j k, u (e (j, k)) = s j k)
    (hw : ∀ j k h, w (e (j, k)) h = v j k h) (hout : ∀ c, c ∉ Set.range e → u c = ⊥) (h : H) :
    Ideal.div ((osRun s v J).acc h) ((osRun s v J).l)
      = ∑ c, Ideal.div (Ideal.exp (u c - Finset.univ.fold max ⊥ u))
            (∑ c', Ideal.exp (u c' - Finset.univ.fold max ⊥ u)) * w c h := by
  obtain ⟨μ, hμ⟩ := runMax_real s hJ hs h0 hJ
  obtain ⟨hl, hacc⟩ := osRun_l_acc s v hJ hs hv h0 (le_refl J)
  rw [tilesBelow_self, hμ, EReal.toReal_coe] at hl hacc
  have hLpos : 0 < ∑ j, ∑ k, wt (s j k) μ := by
    have := sum_wt_pos s hJ hs h0 hJ μ
    rwa [tilesBelow_self] at this
  rw [fold_max_eq_runMax s u e hu hout, hμ, sum_exp_eq s u e hs he hu hout μ, hl, hacc h]
  generalize (∑ j, ∑ k, wt (s j k) μ) = L at hLpos ⊢
  rw [Ideal.div_coe hLpos.ne']
  rw [← Fintype.sum_of_injective e he
    (fun p => ((wt (s p.1 p.2) μ * (1 / L) * (v p.1 p.2 h).toReal : ℝ) : EReal))
    (fun c => Ideal.div (Ideal.exp (u c - (μ : EReal))) (L : EReal) * w c h)
    (fun c hc => by
      rw [hout c hc, exp_bot_sub, Ideal.div_coe hLpos.ne', zero_mul, zero_mul])
    (fun p => by
      rw [hu p.1 p.2, hw p.1 p.2 h, Ideal.div_coe hLpos.ne', exp_sub_coe (hs p.1 p.2),
        EReal.coe_mul, EReal.coe_mul, EReal.coe_toReal (hv p.1 p.2 h).2 (hv p.1 p.2 h).1])]
  rw [Fintype.sum_prod_type, ← EReal.coe_mul]
  have hsum : (∑ j, ∑ k, ((wt (s j k) μ * (1 / L) * (v j k h).toReal : ℝ) : EReal))
      = ((∑ j, ∑ k, wt (s j k) μ * (1 / L) * (v j k h).toReal : ℝ) : EReal) := by
    rw [coe_sum']
    exact Finset.sum_congr rfl fun j _ => (coe_sum' _ _).symm
  rw [hsum]
  congr 1
  rw [Finset.sum_mul]
  refine Finset.sum_congr rfl fun j _ => ?_
  rw [Finset.sum_mul]
  refine Finset.sum_congr rfl fun k _ => ?_
  ring

/-- THE ONLINE SOFTMAX IS THE SOFTMAX, with the one-shot side in the shape a reference program
    has: maximum max ⊥ (max of all scores), denominator 0 + ∑ of all exponentials. Hypotheses as in
    onlineSoftmax_eq_softmax'. -/
theorem onlineSoftmax_eq_softmax (hJ : 0 < J) (hs : ∀ j k, s j k ≠ ⊤)
    (hv : ∀ j k h, v j k h ≠ ⊥ ∧ v j k h ≠ ⊤) (h0 : ∃ k, s ⟨0, hJ⟩ k ≠ ⊥)
    (he : Function.Injective e) (hu : ∀ j k, u (e (j, k)) = s j k)
    (hw : ∀ j k h, w (e (j, k)) h = v j k h) (hout : ∀ c, c ∉ Set.range e → u c = ⊥) (h : H) :
    Ideal.div ((osRun s v J).acc h) ((osRun s v J).l)
      = ∑ c, Ideal.div (Ideal.exp (u c - max ⊥ (Finset.univ.fold max ⊥ u)))
            (0 + ∑ c', Ideal.exp (u c' - max ⊥ (Finset.univ.fold max ⊥ u))) * w c h := by
  rw [max_bot_left, zero_add]
  exact onlineSoftmax_eq_softmax' s v u w e hJ hs hv h0 he hu hw hout h

/-- The same with the values' reality stated as "is the coercion of a real". -/
theorem onlineSoftmax_eq_softmax_of_exists (hJ : 0 < J) (hs : ∀ j k, s j k ≠ ⊤)
    (hv : ∀ j k h, ∃ r : ℝ, v j k h = (r : EReal)) (h0 : ∃ k, s ⟨0, hJ⟩ k ≠ ⊥)
    (he : Function.Injective e) (hu : ∀ j k, u (e (j, k)) = s j k)
    (hw : ∀ j k h, w (e (j, k)) h = v j k h) (hout : ∀ c, c ∉ Set.range e → u c = ⊥) (h : H) :
    Ideal.div ((osRun s v J).acc h) ((osRun s v J).l)
      = ∑ c, Ideal.div (Ideal.exp (u c - max ⊥ (Finset.univ.fold max ⊥ u)))
            (0 + ∑ c', Ideal.exp (u c' - max ⊥ (Finset.univ.fold max ⊥ u))) * w c h :=
  onlineSoftmax_eq_softmax s v u w e hJ hs (fun j k h => (exists_coe_iff _).1 (hv j k h)) h0 he hu
    hw hout h

end OneShot

end Cert.Lib
-- ==== Proof.Tiles.lean ====
/-
  The attention kernel's view of one query row: the key axis cut into tiles of 512, each tile's masked
  scores and values, and the running (maximum, denominator, numerator) after the first n tiles.
-/
import proofs.«150816_j58841051955817_2_alg».proof.Proof.Spec
import proofs.«150816_j58841051955817_2_alg».proof.Proof.LibOnlineSoftmax

noncomputable section

namespace Cert.Spec

open Idealize.ShloMosaic Idealize.ShloMosaic.ValueIdx Cert.Lib

variable (x : Rows) (Wq : Weights) (bq : Bias) (Wk : Weights) (bk : Bias) (Wv : Weights) (bv : Bias)

/-- The query projection as the projection kernel stores it: scaled by 1/32 = 1/√1024. -/
def qScaled (b : Fin 4) (s : Fin 2048) (d : Fin 1024) : EReal := proj x Wq bq b s d * ((1 / 32 : ℝ) : EReal)

/-- Key tile `j`'s scores of query row `s`: column `k` of the tile is key `512·j + k`; a key after the query is
    masked. -/
def tileScore (b : Fin 4) (s : Fin 2048) {J : ℕ} (j : Fin J) (k : Fin 512) : EReal :=
  if h : 512 * j.val + k.val ≤ s.val then
    ∑ d : Fin 1024, qScaled x Wq bq b s d * proj x Wk bk b ⟨512 * j.val + k.val, lt_of_le_of_lt h s.isLt⟩ d
  else ⊥

/-- Key tile `j`'s values. -/
def tileVal (b : Fin 4) {J : ℕ} (j : Fin J) (k : Fin 512) (e : Fin 1024) : EReal :=
  if h : 512 * j.val + k.val < 2048 then proj x Wv bv b ⟨512 * j.val + k.val, h⟩ e else 0

/-- Row `r` of query tile `qi`. -/
def qRow (qi : Fin 2) (r : Fin 1024) : Fin 2048 := ⟨1024 * qi.val + r.val, by omega⟩

/-- The running state of query row `(b, qRow qi r)` after its first `n` key tiles; the causal triangle of query
    tile `qi` spans the key tiles `0 … 2·qi + 1`. -/
def rowState (b : Fin 4) (qi : Fin 2) (r : Fin 1024) (n : ℕ) : OSState (Fin 1024) :=
  osRun (J := 2 * (qi.val + 1)) (tileScore x Wq bq Wk bk b (qRow qi r)) (tileVal x Wv bv b) n

end Cert.Spec

end
-- ==== Proof.LibRealEntries.lean ====
/-
  General lemmas: arrays of reals among arrays of extended reals, and how a finiteness precondition yields them.

  A float input read on the extended reals ranges over `[-∞, +∞]`; an algebraic law that fails at the infinities
  (cancelling, distributing, a quotient of exponentials) needs the entries to be reals. A precondition of the form
  `all (|x| < +∞)` says exactly that:
  * `AllReal x`: every entry of `x` is the coercion of a real;
  * `top_word_f32`: the f32 word `0x7F800000` denotes `+∞`;
  * `real_of_abs_lt_top`: an extended real whose absolute value `max x (-x)` compares below that word is a real
    (`|±∞| = +∞` is not below `+∞`);
  * `allReal_of_all_abs_lt`: if the host's reduction by `and`, over all axes into a result of one index, of the
    comparison `|x| < inf` (with `inf` the splat of that word) answers one, then `x` is an array of reals.
-/
import Idealize.ShloMosaic.Lib.ReduceAll
import Idealize.ShloMosaic.PureOps.Ideal.Laws

noncomputable section

namespace Cert.Lib

open Idealize.ShloMosaic

/-- Every entry of an array of extended reals is a real. -/
def AllReal {ι : Type} (x : ι → EReal) : Prop := ∀ i, ∃ r : ℝ, x i = (r : EReal)

/-- The f32 word of `+∞` denotes `⊤`. -/
theorem top_word_f32 : Ideal.ofBits .f32 0x7F800000#32 = ⊤ := by simp [Ideal.ofBits, Ideal.ieee]

/-- An extended real whose absolute value is below `+∞` is a real. -/
theorem real_of_abs_lt_top (x : EReal)
    (h : FloatOps.cmpf (F := Ideal) (φ := .f32) .olt (FloatOps.hostAbsf (F := Ideal) (φ := .f32) x) (Ideal.ofBits .f32 0x7F800000#32) = 1#1) :
    ∃ r : ℝ, x = (r : EReal) := by
  rw [top_word_f32] at h
  induction x using EReal.rec with
  | bot => exfalso; revert h; simp [Ideal.cmpf_def, Ideal.absf_def, Ideal.cmp]
  | top => exfalso; revert h; simp [Ideal.cmpf_def, Ideal.absf_def, Ideal.cmp]
  | coe r => exact ⟨r, rfl⟩

/-- An array all of whose entries pass `|x| < +∞` — the host's reduction by `and` over every axis, into a result of one
    index, answers one — is an array of reals. -/
theorem allReal_of_all_abs_lt {s t u : Shape} [Subsingleton t.Idx] (x inf : FVec Ideal s .f32)
    (hinf : ∀ i, inf i = Ideal.ofBits .f32 0x7F800000#32) {axes : List (Fin s.rank)} (hr : s.ReducesTo axes t)
    (init : u.Idx → BitVec 1) (hu : 0 < u.numel) (j : t.Idx)
    (e : Host.reduce IntOp.andi (cmpf .olt (Host.absf x) inf) init hr hu j = 1#1) : AllReal x := fun i => by
  have hi := Host.reduce_andi_all _ init hr hu j e i
  exact real_of_abs_lt_top (x i) (by rw [← hinf i]; exact hi)

end Cert.Lib

end
-- ==== Proof.PreEntries.lean ====
/-
  The finiteness precondition says every entry of the seven arrays is a real number.

  The precondition is the conjunction, over the seven arrays, of "every entry's absolute value is
  below plus infinity", each conjunct a reduction by "and" of the entrywise comparison over all the
  array's axes. If the conjunction is one, each conjunct is one, so each comparison holds at every
  index, and an extended real whose absolute value is below plus infinity is a real number.
-/
import proofs.«150816_j58841051955817_2_alg».proof.Pre_finite_inputs
import proofs.«150816_j58841051955817_2_alg».proof.Proof.Gen.Pre_finite_inputs
import proofs.«150816_j58841051955817_2_alg».proof.Proof.LibRealEntries
import Idealize.ShloMosaic.Lib.Pipeline.Value
import Idealize.ShloMosaic.Lib.ValueIdx
import Idealize.ShloMosaic.Lib.Affine

noncomputable section

namespace Cert.PreReal

open Idealize.ShloMosaic Cert.Lib Cert.Pre_finite_inputs Cert.Pre_finite_inputs.Gen

/-- A rank-0 array has one index. -/
instance : Subsingleton S_.Idx := ⟨fun _ _ => funext fun d => d.elim0⟩

/-- The splat of the word of plus infinity holds that word's value at every index. -/
theorem splat_inf {s : Shape} (h : S_.BroadcastsInDim s (![] : Fin 0 → Fin s.rank)) (i : s.Idx) :
    broadcastInDim s ![] h (constant (F := Ideal) S_ .f32 0x7F800000#32) i = Ideal.ofBits .f32 0x7F800000#32 :=
  broadcastInDim_apply _ h _ i (fun a => a.elim0) (fun a => a.elim0)

/-- If the precondition's function answers one on seven arrays, every entry of each is a real number. -/
theorem allReal_of_fn (a0 : FVec Ideal S4x2048x1024 .f32) (a1 : FVec Ideal S1024x1024 .f32) (a2 : FVec Ideal S1024 .f32)
    (a3 : FVec Ideal S1024x1024 .f32) (a4 : FVec Ideal S1024 .f32) (a5 : FVec Ideal S1024x1024 .f32)
    (a6 : FVec Ideal S1024 .f32) (h : fn (F := Ideal) a0 a1 a2 a3 a4 a5 a6 = fun _ => 1#1) :
    AllReal a0 ∧ AllReal a1 ∧ AllReal a2 ∧ AllReal a3 ∧ AllReal a4 ∧ AllReal a5 ∧ AllReal a6 := by
  have h0 := congrFun h ValueIdx.ix0
  dsimp only [fn, fn_part1] at h0
  obtain ⟨h5, e6⟩ := IntOp.andi_eq_one.1 h0
  obtain ⟨h4, e5⟩ := IntOp.andi_eq_one.1 h5
  obtain ⟨h3, e4⟩ := IntOp.andi_eq_one.1 h4
  obtain ⟨h2, e3⟩ := IntOp.andi_eq_one.1 h3
  obtain ⟨h1, e2⟩ := IntOp.andi_eq_one.1 h2
  obtain ⟨e0, e1⟩ := IntOp.andi_eq_one.1 h1
  exact ⟨allReal_of_all_abs_lt a0 _ (splat_inf _) _ _ _ _ e0,
    allReal_of_all_abs_lt a1 _ (splat_inf _) _ _ _ _ e1,
    allReal_of_all_abs_lt a2 _ (splat_inf _) _ _ _ _ e2,
    allReal_of_all_abs_lt a3 _ (splat_inf _) _ _ _ _ e3,
    allReal_of_all_abs_lt a4 _ (splat_inf _) _ _ _ _ e4,
    allReal_of_all_abs_lt a5 _ (splat_inf _) _ _ _ _ e5,
    allReal_of_all_abs_lt a6 _ (splat_inf _) _ _ _ _ e6⟩

end Cert.PreReal

end
-- ==== Proof.PreReal.lean ====
/-
  Under the precondition the seven argument arrays of the idealized kernel hold real numbers.
-/
import proofs.«150816_j58841051955817_2_alg».proof.Defs
import proofs.«150816_j58841051955817_2_alg».proof.Proof.Gen.Pre_finite_inputs
import proofs.«150816_j58841051955817_2_alg».proof.Proof.PreEntries
import proofs.«150816_j58841051955817_2_alg».proof.Proof.Spec

noncomputable section

namespace Cert.PreReal

open Idealize.ShloMosaic Idealize.ShloMosaic.TcCoe Idealize.SL.Sem

/-- The precondition on the idealized kernel's memory: on every device, every entry of each of the
    seven argument arrays is a real number. -/
theorem pre_real (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread Cert.KernelIdeal.nD Cert.KernelIdeal.τ).loc Cert.KernelIdeal.main_arg0) : Cert.Spec.Rows) i = (r : EReal))
      ∧ (∀ i, ∃ r : ℝ, (m ((c.tc : Thread Cert.KernelIdeal.nD Cert.KernelIdeal.τ).loc Cert.KernelIdeal.main_arg1) : Cert.Spec.Weights) i = (r : EReal))
      ∧ (∀ i, ∃ r : ℝ, (m ((c.tc : Thread Cert.KernelIdeal.nD Cert.KernelIdeal.τ).loc Cert.KernelIdeal.main_arg2) : Cert.Spec.Bias) i = (r : EReal))
      ∧ (∀ i, ∃ r : ℝ, (m ((c.tc : Thread Cert.KernelIdeal.nD Cert.KernelIdeal.τ).loc Cert.KernelIdeal.main_arg3) : Cert.Spec.Weights) i = (r : EReal))
      ∧ (∀ i, ∃ r : ℝ, (m ((c.tc : Thread Cert.KernelIdeal.nD Cert.KernelIdeal.τ).loc Cert.KernelIdeal.main_arg4) : Cert.Spec.Bias) i = (r : EReal))
      ∧ (∀ i, ∃ r : ℝ, (m ((c.tc : Thread Cert.KernelIdeal.nD Cert.KernelIdeal.τ).loc Cert.KernelIdeal.main_arg5) : Cert.Spec.Weights) i = (r : EReal))
      ∧ (∀ i, ∃ r : ℝ, (m ((c.tc : Thread Cert.KernelIdeal.nD Cert.KernelIdeal.τ).loc Cert.KernelIdeal.main_arg6) : Cert.Spec.Bias) i = (r : EReal)) :=
  allReal_of_fn _ _ _ _ _ _ _ (h c)

/-- The same of the idealized reference's memory under its precondition. -/
theorem pre_real_reference (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) :
    (∀ i, ∃ r : ℝ, (m ((c.tc : Thread Cert.ReferenceIdeal.nD Cert.ReferenceIdeal.τ).loc Cert.ReferenceIdeal.main_arg0) : Cert.Spec.Rows) i = (r : EReal))
      ∧ (∀ i, ∃ r : ℝ, (m ((c.tc : Thread Cert.ReferenceIdeal.nD Cert.ReferenceIdeal.τ).loc Cert.ReferenceIdeal.main_arg1) : Cert.Spec.Weights) i = (r : EReal))
      ∧ (∀ i, ∃ r : ℝ, (m ((c.tc : Thread Cert.ReferenceIdeal.nD Cert.ReferenceIdeal.τ).loc Cert.ReferenceIdeal.main_arg2) : Cert.Spec.Bias) i = (r : EReal))
      ∧ (∀ i, ∃ r : ℝ, (m ((c.tc : Thread Cert.ReferenceIdeal.nD Cert.ReferenceIdeal.τ).loc Cert.ReferenceIdeal.main_arg3) : Cert.Spec.Weights) i = (r : EReal))
      ∧ (∀ i, ∃ r : ℝ, (m ((c.tc : Thread Cert.ReferenceIdeal.nD Cert.ReferenceIdeal.τ).loc Cert.ReferenceIdeal.main_arg4) : Cert.Spec.Bias) i = (r : EReal))
      ∧ (∀ i, ∃ r : ℝ, (m ((c.tc : Thread Cert.ReferenceIdeal.nD Cert.ReferenceIdeal.τ).loc Cert.ReferenceIdeal.main_arg5) : Cert.Spec.Weights) i = (r : EReal))
      ∧ (∀ i, ∃ r : ℝ, (m ((c.tc : Thread Cert.ReferenceIdeal.nD Cert.ReferenceIdeal.τ).loc Cert.ReferenceIdeal.main_arg6) : Cert.Spec.Bias) i = (r : EReal)) :=
  allReal_of_fn _ _ _ _ _ _ _ (h c)

end Cert.PreReal

end
-- ==== Proof.KernelValue.lean ====
/-
  The idealized kernel's result is the specification's attention of its arguments.

  The program reshapes x to 8192 rows, runs the projection region, reshapes the three projections
  back to 4 × 2048 rows, and runs the attention region. Row 2048·b + s of the reshaped array is row
  (b, s) of x, so the projection region's results, read at (b, s, e) after the reshape back, are the
  specification's projections, the query one times 1/32. The attention region turns such arrays
  into the specification's attention, and no segment writes an argument array.
-/
import proofs.«150816_j58841051955817_2_alg».proof.Proof.KI.Entry
import proofs.«150816_j58841051955817_2_alg».proof.Proof.KI.Value0
import proofs.«150816_j58841051955817_2_alg».proof.Proof.Tiles
import proofs.«150816_j58841051955817_2_alg».proof.Proof.PreReal

set_option maxRecDepth 16384

noncomputable section

namespace Cert.KernelIdeal.Whole

open Cert.KernelIdeal Cert.KernelIdeal.Gen Cert.KernelIdeal.Hand
open Idealize.ShloMosaic Idealize.ShloMosaic.TcCoe Idealize.SL.Sem Idealize.ShloMosaic.ValueIdx
open scoped BigOperators

/-- Row 2048·b + s of the 8192 reshaped rows, projected, is the projection of row (b, s). -/
theorem projRows_at (X : S8192x1024.Idx → EReal) (W : S1024x1024.Idx → EReal) (B : S1x1024.Idx → EReal)
    (x : Spec.Rows) (w : Spec.Weights) (bias : Spec.Bias)
    (hX : ∀ (r : Fin 8192) (j : Fin 1024),
      X (ix2 r j) = x (ix3 (⟨r.val / 2048, by omega⟩ : Fin 4) (⟨r.val % 2048, by omega⟩ : Fin 2048) j))
    (hW : W = w) (hB : ∀ q : Fin 1024, B (ix2 (0 : Fin 1) q) = bias (ix1 q))
    (b : Fin 4) (s : Fin 2048) (e : Fin 1024) :
    Value0.projRows X W B (ix2 (⟨2048 * b.val + s.val, by omega⟩ : Fin 8192) e) = Spec.proj x w bias b s e := by
  rw [Value0.projRows_apply, hB, hW]
  unfold Spec.proj
  congr 1
  refine Finset.sum_congr rfl fun j _ => ?_
  rw [hX]
  congr 1
  refine congrArg x (funext fun a => Fin.ext ?_)
  match a with
  | ⟨0, _⟩ => show (2048 * b.val + s.val) / 2048 = b.val; omega
  | ⟨1, _⟩ => show (2048 * b.val + s.val) % 2048 = s.val; omega
  | ⟨2, _⟩ => rfl

variable (m : (ℓ : Loc nD τ sig) → Buf (Elt Ideal) ℓ) (ρ : Dev nD → PrngReg)

/-- The attention region's query array at (b, s, d): the query projection times 1/32. -/
theorem query_entry (c : Dev nD) (b : Fin 4) (s : Fin 2048) (d : Fin 1024) :
    (V3 m ρ c main_v5 : S4x2048x1024.Idx → EReal) (ix3 b s d)
      = Spec.qScaled (m ((c : Thread nD τ).loc main_arg0)) (m ((c : Thread nD τ).loc main_arg1)) (m ((c : Thread nD τ).loc main_arg2)) b s d := by
  rw [V3_main_v5, W2_main_v4_0, Value0.final0_7 (V1 m ρ) c]
  show Value0.projRows _ _ _ (ix2 (⟨2048 * b.val + s.val, by omega⟩ : Fin 8192) d) * _ = _
  rw [projRows_at _ _ _ (m ((c : Thread nD τ).loc main_arg0)) (m ((c : Thread nD τ).loc main_arg1)) (m ((c : Thread nD τ).loc main_arg2))
    (V1_main_v0 m ρ c) (V1_main_arg1 m ρ c) (V1_main_v1 m ρ c 0) b s d]
  rfl

/-- The attention region's key array at (b, s, d): the key projection. -/
theorem key_entry (c : Dev nD) (b : Fin 4) (s : Fin 2048) (d : Fin 1024) :
    (V3 m ρ c main_v6 : S4x2048x1024.Idx → EReal) (ix3 b s d)
      = Spec.proj (m ((c : Thread nD τ).loc main_arg0)) (m ((c : Thread nD τ).loc main_arg3)) (m ((c : Thread nD τ).loc main_arg4)) b s d := by
  rw [V3_main_v6, W2_main_v4_1, Value0.final0_8 (V1 m ρ) c]
  exact projRows_at _ _ _ (m ((c : Thread nD τ).loc main_arg0)) (m ((c : Thread nD τ).loc main_arg3)) (m ((c : Thread nD τ).loc main_arg4))
    (V1_main_v0 m ρ c) (V1_main_arg3 m ρ c) (V1_main_v2 m ρ c 0) b s d

/-- The attention region's value array at (b, s, e): the value projection. -/
theorem value_entry (c : Dev nD) (b : Fin 4) (s : Fin 2048) (e : Fin 1024) :
    (V3 m ρ c main_v7 : S4x2048x1024.Idx → EReal) (ix3 b s e)
      = Spec.proj (m ((c : Thread nD τ).loc main_arg0)) (m ((c : Thread nD τ).loc main_arg5)) (m ((c : Thread nD τ).loc main_arg6)) b s e := by
  rw [V3_main_v7, W2_main_v4_2, Value0.final0_9 (V1 m ρ) c]
  exact projRows_at _ _ _ (m ((c : Thread nD τ).loc main_arg0)) (m ((c : Thread nD τ).loc main_arg5)) (m ((c : Thread nD τ).loc main_arg6))
    (V1_main_v0 m ρ c) (V1_main_arg5 m ρ c) (V1_main_v3 m ρ c 0) b s e

section Final

variable (final1 : ∀ (V : (c : Dev nD) → (b : Ref sig .tc) → Buf (Elt Ideal) ((c : Thread nD τ).loc b)) (c : Dev nD)
      (x : Spec.Rows) (Wq : Spec.Weights) (bq : Spec.Bias) (Wk : Spec.Weights) (bk : Spec.Bias) (Wv : Spec.Weights) (bv : Spec.Bias)
      (_ : ∀ i, ∃ r : ℝ, x i = (r : EReal)) (_ : ∀ i, ∃ r : ℝ, Wq i = (r : EReal)) (_ : ∀ i, ∃ r : ℝ, bq i = (r : EReal))
      (_ : ∀ i, ∃ r : ℝ, Wk i = (r : EReal)) (_ : ∀ i, ∃ r : ℝ, bk i = (r : EReal)) (_ : ∀ i, ∃ r : ℝ, Wv i = (r : EReal))
      (_ : ∀ i, ∃ r : ℝ, bv i = (r : EReal))
      (_ : ∀ (b : Fin 4) (s : Fin 2048) (d : Fin 1024), (V c main_v5 : S4x2048x1024.Idx → EReal) (ix3 b s d) = Spec.qScaled x Wq bq b s d)
      (_ : ∀ (b : Fin 4) (s : Fin 2048) (d : Fin 1024), (V c main_v6 : S4x2048x1024.Idx → EReal) (ix3 b s d) = Spec.proj x Wk bk b s d)
      (_ : ∀ (b : Fin 4) (s : Fin 2048) (e : Fin 1024), (V c main_v7 : S4x2048x1024.Idx → EReal) (ix3 b s e) = Spec.proj x Wv bv b s e),
      ((dat1 (F := Ideal) V c).arrAt 3 cfg1.N : S4x2048x1024.Idx → EReal) = Spec.attn x Wq bq Wk bk Wv bv)
include final1

/-- Under the precondition the kernel's result array at the end of the run is the specification's
    attention of the launch contents of the seven arguments. -/
theorem kernel_value (hpre : Cert.Pre_KernelIdeal m) (c : Dev nD) :
    (W4 m ρ c (Proc.devRef .tc main_v8) : S4x2048x1024.Idx → EReal)
      = Spec.attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  obtain ⟨hx, hWq, hbq, hWk, hbk, hWv, hbv⟩ := Cert.PreReal.pre_real m hpre c
  rw [W4_main_v8]
  exact final1 (V3 m ρ) c _ _ _ _ _ _ _ hx hWq hbq hWk hbk hWv hbv
    (query_entry m ρ c) (key_entry m ρ c) (value_entry m ρ c)

/-- Under the precondition every weakly fair execution of the idealized kernel terminates, without a
    fault, with the specification's attention of its arguments in its result and its arguments unchanged. -/
theorem kernel_run (hpre : Cert.Pre_KernelIdeal m) :
    θ_run defs (onTc (τ := τ) (main (F := Ideal))) ⟨m, fun _ => 0, ρ⟩ (fun r => ∀ c : Dev nD,
      r.2.mem ((c.tc : Thread nD τ).loc main_v8)
        = Spec.attn (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (run_all m ρ).mono fun s h c =>
    ⟨(h c _ (mem_uc main_v8 (by decide))).trans (kernel_value m ρ final1 hpre c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩

end Final

end Cert.KernelIdeal.Whole

end
-- ==== Proof.Algebraic.lean ====
/-
  The idealized kernel and the idealized reference end with equal results.

  From memories that agree on the seven arguments, under the precondition, the idealized kernel
  ends with the specification's attention of its arguments in its result, and the idealized
  reference ends with the specification's attention of its own arguments, which are the same
  arrays. Both leave their arguments unchanged.
-/
import proofs.«150816_j58841051955817_2_alg».proof.Proof.KernelValue
import proofs.«150816_j58841051955817_2_alg».proof.Proof.RefValue

set_option maxRecDepth 16384

noncomputable section

namespace Cert.Proof.Claims

open Cert.KernelIdeal Cert.KernelIdeal.Gen Cert.KernelIdeal.Hand
open Idealize.ShloMosaic Idealize.ShloMosaic.TcCoe Idealize.SL.Sem Idealize.ShloMosaic.ValueIdx

/-- Equal results, given that the attention region turns the scaled query projection, the key
    projection and the value projection of real arrays into the specification's attention. -/
theorem algebraic_of
    (final1 : ∀ (V : (c : Dev nD) → (b : Ref sig .tc) → Buf (Elt Ideal) ((c : Thread nD τ).loc b)) (c : Dev nD)
      (x : Spec.Rows) (Wq : Spec.Weights) (bq : Spec.Bias) (Wk : Spec.Weights) (bk : Spec.Bias) (Wv : Spec.Weights) (bv : Spec.Bias)
      (_ : ∀ i, ∃ r : ℝ, x i = (r : EReal)) (_ : ∀ i, ∃ r : ℝ, Wq i = (r : EReal)) (_ : ∀ i, ∃ r : ℝ, bq i = (r : EReal))
      (_ : ∀ i, ∃ r : ℝ, Wk i = (r : EReal)) (_ : ∀ i, ∃ r : ℝ, bk i = (r : EReal)) (_ : ∀ i, ∃ r : ℝ, Wv i = (r : EReal))
      (_ : ∀ i, ∃ r : ℝ, bv i = (r : EReal))
      (_ : ∀ (b : Fin 4) (s : Fin 2048) (d : Fin 1024), (V c main_v5 : S4x2048x1024.Idx → EReal) (ix3 b s d) = Spec.qScaled x Wq bq b s d)
      (_ : ∀ (b : Fin 4) (s : Fin 2048) (d : Fin 1024), (V c main_v6 : S4x2048x1024.Idx → EReal) (ix3 b s d) = Spec.proj x Wk bk b s d)
      (_ : ∀ (b : Fin 4) (s : Fin 2048) (e : Fin 1024), (V c main_v7 : S4x2048x1024.Idx → EReal) (ix3 b s e) = Spec.proj x Wv bv b s e),
      ((dat1 (F := Ideal) V c).arrAt 3 cfg1.N : S4x2048x1024.Idx → EReal) = Spec.attn x Wq bq Wk bk Wv bv) :
    Cert.algebraic_KernelIdeal_ReferenceIdeal := by
  intro m ρ m' ρ' hpre hagree
  refine ⟨_, Cert.KernelIdeal.Whole.kernel_run m ρ final1 hpre, ?_⟩
  refine (θ_run Cert.ReferenceIdeal.defs _ _).mono (fun _ h c => ⟨(h c).1.trans ?_, (h c).2⟩)
    (Cert.RefValue.run m' ρ')
  rw [(hagree c).1, (hagree c).2.1, (hagree c).2.2.1, (hagree c).2.2.2.1, (hagree c).2.2.2.2.1,
    (hagree c).2.2.2.2.2.1, (hagree c).2.2.2.2.2.2]

end Cert.Proof.Claims

end
-- ==== Proof.KI.R1Blocks.lean ====
import proofs.«150816_j58841051955817_2_alg».proof.Proof.KI.R1Frame
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! # Which rows of q, k and v a point's blocks are

Position `t = 8·b + 4·qi + ki`: the query block is rows `1024·qi …` of batch `b`; the key and value blocks are rows
`512·min(ki, 2·qi + 1) …` (the block index is clamped to the causal triangle). -/

theorem idx1_0 : ∀ t : Fin cfg1.N, win1_0.index t 0 = t.val / 8 ∧ win1_0.index t 1 = t.val % 8 / 4 ∧ win1_0.index t 2 = 0 :=
  (by decide +kernel : ∀ t : Fin grid1.N, win1_0.index t 0 = t.val / 8 ∧ win1_0.index t 1 = t.val % 8 / 4 ∧ win1_0.index t 2 = 0)
theorem idx1_1 : ∀ t : Fin cfg1.N, win1_1.index t 0 = t.val / 8 ∧ win1_1.index t 1 = min (t.val % 4) (2 * (t.val % 8 / 4) + 1) ∧ win1_1.index t 2 = 0 :=
  (by decide +kernel : ∀ t : Fin grid1.N, win1_1.index t 0 = t.val / 8 ∧ win1_1.index t 1 = min (t.val % 4) (2 * (t.val % 8 / 4) + 1) ∧ win1_1.index t 2 = 0)
theorem idx1_2 : ∀ t : Fin cfg1.N, win1_2.index t 0 = t.val / 8 ∧ win1_2.index t 1 = min (t.val % 4) (2 * (t.val % 8 / 4) + 1) ∧ win1_2.index t 2 = 0 :=
  (by decide +kernel : ∀ t : Fin grid1.N, win1_2.index t 0 = t.val / 8 ∧ win1_2.index t 1 = min (t.val % 4) (2 * (t.val % 8 / 4) + 1) ∧ win1_2.index t 2 = 0)
theorem idx1_3 : ∀ t : Fin cfg1.N, win1_3.index t 0 = t.val / 8 ∧ win1_3.index t 1 = t.val % 8 / 4 ∧ win1_3.index t 2 = 0 :=
  (by decide +kernel : ∀ t : Fin grid1.N, win1_3.index t 0 = t.val / 8 ∧ win1_3.index t 1 = t.val % 8 / 4 ∧ win1_3.index t 2 = 0)
/-- The grid coordinates of a position. -/
theorem coords1 : ∀ t : Fin cfg1.N, (grid1.coords t 0).val = t.val / 8 ∧ (grid1.coords t 1).val = t.val % 8 / 4 ∧ (grid1.coords t 2).val = t.val % 4 :=
  (by decide +kernel : ∀ t : Fin grid1.N, (grid1.coords t 0).val = t.val / 8 ∧ (grid1.coords t 1).val = t.val % 8 / 4 ∧ (grid1.coords t 2).val = t.val % 4)

/-- The query block at a position is the query tile's 1024 rows of the batch's q. -/
theorem iblk1_0_apply (c : Dev nD) (t : Fin cfg1.N) (y : S1x1024x1024.Idx) (k : S4x2048x1024.Idx)
    (h0 : (k 0).val = t.val / 8 + (y 0).val) (h1 : (k 1).val = 1024 * (t.val % 8 / 4) + (y 1).val) (h2 : (k 2).val = (y 2).val) :
    (iblk1 V c 0 t : Vec F S1x1024x1024 .bf16) y = (V c main_v5 : S4x2048x1024.Idx → Elt F .bf16) k := by
  obtain ⟨i0, i1, i2⟩ := idx1_0 t
  unfold iblk1
  rw [View.read_apply]
  show V c main_v5 _ = V c main_v5 _
  congr 1
  funext a
  apply Fin.ext
  match a with
  | ⟨0, _⟩ => show win1_0.index t 0 * 1 + 1 * (y 0).val = (k 0).val; rw [i0, h0]; omega
  | ⟨1, _⟩ => show win1_0.index t 1 * 1024 + 1 * (y 1).val = (k 1).val; rw [i1, h1]; omega
  | ⟨2, _⟩ => show win1_0.index t 2 * 1024 + 1 * (y 2).val = (k 2).val; rw [i2, h2]; omega

/-- The key block is the (clamped) key tile's 512 rows of the batch's k. -/
theorem iblk1_1_apply (c : Dev nD) (t : Fin cfg1.N) (y : S1x512x1024.Idx) (k : S4x2048x1024.Idx)
    (h0 : (k 0).val = t.val / 8 + (y 0).val) (h1 : (k 1).val = 512 * (min (t.val % 4) (2 * (t.val % 8 / 4) + 1)) + (y 1).val) (h2 : (k 2).val = (y 2).val) :
    (iblk1 V c 1 t : Vec F S1x512x1024 .bf16) y = (V c main_v6 : S4x2048x1024.Idx → Elt F .bf16) k := by
  obtain ⟨i0, i1, i2⟩ := idx1_1 t
  unfold iblk1
  rw [View.read_apply]
  show V c main_v6 _ = V c main_v6 _
  congr 1
  funext a
  apply Fin.ext
  match a with
  | ⟨0, _⟩ => show win1_1.index t 0 * 1 + 1 * (y 0).val = (k 0).val; rw [i0, h0]; omega
  | ⟨1, _⟩ => show win1_1.index t 1 * 512 + 1 * (y 1).val = (k 1).val; rw [i1, h1]; omega
  | ⟨2, _⟩ => show win1_1.index t 2 * 1024 + 1 * (y 2).val = (k 2).val; rw [i2, h2]; omega

/-- The value block is the (clamped) key tile's 512 rows of the batch's v. -/
theorem iblk1_2_apply (c : Dev nD) (t : Fin cfg1.N) (y : S1x512x1024.Idx) (k : S4x2048x1024.Idx)
    (h0 : (k 0).val = t.val / 8 + (y 0).val) (h1 : (k 1).val = 512 * (min (t.val % 4) (2 * (t.val % 8 / 4) + 1)) + (y 1).val) (h2 : (k 2).val = (y 2).val) :
    (iblk1 V c 2 t : Vec F S1x512x1024 .bf16) y = (V c main_v7 : S4x2048x1024.Idx → Elt F .bf16) k := by
  obtain ⟨i0, i1, i2⟩ := idx1_2 t
  unfold iblk1
  rw [View.read_apply]
  show V c main_v7 _ = V c main_v7 _
  congr 1
  funext a
  apply Fin.ext
  match a with
  | ⟨0, _⟩ => show win1_2.index t 0 * 1 + 1 * (y 0).val = (k 0).val; rw [i0, h0]; omega
  | ⟨1, _⟩ => show win1_2.index t 1 * 512 + 1 * (y 1).val = (k 1).val; rw [i1, h1]; omega
  | ⟨2, _⟩ => show win1_2.index t 2 * 1024 + 1 * (y 2).val = (k 2).val; rw [i2, h2]; omega

end Cert.KernelIdeal.Hand

end
-- ==== Proof.KI.R1Pieces.lean ====
import proofs.«150816_j58841051955817_2_alg».proof.Proof.KI.R1Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What each case leaves, as payloads of the blocks and of what the point before left

With `m`, `l`, `acc` the running maximum, denominator and numerator before the point: the fold of a key tile leaves
`m' = max m (row maxima of the masked scores)` (`k1_pay5 ∘ k1_pay9`), `l' = exp (m − m')·l + row sums of exp (score − m')`
(`k1_pay12`) and `acc' = exp (m − m')·acc + exp (score − m')·values` (`k1_pay4`); the reset starts them at −∞, 0, 0
(`k1_pay1`, `k1_pay2`, `k1_pay3`); the output tile is `acc' / l'` (`k1_pay6`). -/

theorem hz2 : (![0, 0] : Fin 2 → ℕ) = fun _ => 0 := by funext a; fin_cases a <;> rfl
theorem hz3 : (![0, 0, 0] : Fin 3 → ℕ) = fun _ => 0 := by funext a; fin_cases a <;> rfl

theorem sout1_D_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_D_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_D_0
  rw [View.read_writes_eq_canon _ _ _ (cover_sout1_D_0 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_D_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_D_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_D_1
  rw [View.read_writes_eq_canon _ _ _ (cover_sout1_D_1 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_D_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : ¬cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_D_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_D_2
  rw [View.read_writes_eq_canon _ _ _ (cover_sout1_D_2 c i arg3 harg3 arg4 harg4 arg5 harg5 arg6 harg6 arg7 harg7 arg8 harg8 arg9 harg9 hc0 hc1 hc2 x0 x1 x2 xs0 xs1 xs2)]
  unfold kernelRun1_D
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_B_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_0 c i arg3 harg3 arg4 harg4 arg5 harg5 arg6 harg6 arg7 harg7 arg8 harg8 arg9 harg9 hc0 hc1 hc2 x0 x1 x2 xs0 xs1 xs2 = k1_pay5 (k1_pay9 (BitVec.ofNat 32 (i 1).val) (BitVec.ofNat 32 (i 2).val) x0 x1 xs0) := by
  unfold sout1_B_0
  rw [View.read_writes_eq_canon _ _ _ (cover_sout1_B_0 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_B_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_1 c i arg3 harg3 arg4 harg4 arg5 harg5 arg6 harg6 arg7 harg7 arg8 harg8 arg9 harg9 hc0 hc1 hc2 x0 x1 x2 xs0 xs1 xs2 = k1_pay12 (BitVec.ofNat 32 (i 1).val) (BitVec.ofNat 32 (i 2).val) x0 x1 xs0 xs1 := by
  unfold sout1_B_1
  rw [View.read_writes_eq_canon _ _ _ (cover_sout1_B_1 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_B_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    sout1_B_2 c i arg3 harg3 arg4 harg4 arg5 harg5 arg6 harg6 arg7 harg7 arg8 harg8 arg9 harg9 hc0 hc1 hc2 x0 x1 x2 xs0 xs1 xs2 = k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2 := by
  unfold sout1_B_2
  rw [View.read_writes_eq_canon _ _ _ (cover_sout1_B_2 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem out1_B_3_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : ¬cond1_0 i) (hc1 : cond1_1 i) (hc2 : cond1_2 i) (x0 : Vec F S1x1024x1024 .bf16) (x1 : Vec F S1x512x1024 .bf16) (x2 : Vec F S1x512x1024 .bf16) (xs0 : Vec F S1024x1 .f32) (xs1 : Vec F S1024x1 .f32) (xs2 : Vec F S1024x1024 .f32) :
    out1_B_3 c i arg3 harg3 arg4 harg4 arg5 harg5 arg6 harg6 arg7 harg7 arg8 harg8 arg9 harg9 hc0 hc1 hc2 x0 x1 x2 xs0 xs1 xs2 = k1_pay6 (k1_pay4 (k1_pay7 x2) (k1_pay10 (BitVec.ofNat 32 (i 1).val) (BitVec.ofNat 32 (i 2).val) x0 x1 xs0) (k1_pay11 (BitVec.ofNat 32 (i 1).val) (BitVec.ofNat 32 (i 2).val) x0 x1 xs0) xs2) (k1_pay12 (BitVec.ofNat 32 (i 1).val) (BitVec.ofNat 32 (i 2).val) x0 x1 xs0 xs1) := by
  unfold out1_B_3
  rw [View.read_writes_eq_canon _ _ _ (cover_out1_B_3 c i arg3 harg3 arg4 harg4 arg5 harg5 arg6 harg6 arg7 harg7 arg8 harg8 arg9 harg9 hc0 hc1 hc2 x0 x1 x2 xs0 xs1 xs2)]
  unfold kernelRun1_B
  dsimp only
  sl_unfold_words
  rw [View.canon_unit_zero hz3]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_A_0_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x512x1024 .bf16) (x2 : Vec F S1x512x1024 .bf16) :
    sout1_A_0 c i arg3 harg3 arg4 harg4 arg5 harg5 arg6 harg6 arg7 harg7 arg8 harg8 arg9 harg9 hc0 hc1 hc2 x0 x1 x2 = k1_pay5 (k1_pay9 (BitVec.ofNat 32 (i 1).val) (BitVec.ofNat 32 (i 2).val) x0 x1 k1_pay1) := by
  unfold sout1_A_0
  rw [View.read_writes_eq_canon _ _ _ (cover_sout1_A_0 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_A_1_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x512x1024 .bf16) (x2 : Vec F S1x512x1024 .bf16) :
    sout1_A_1 c i arg3 harg3 arg4 harg4 arg5 harg5 arg6 harg6 arg7 harg7 arg8 harg8 arg9 harg9 hc0 hc1 hc2 x0 x1 x2 = k1_pay12 (BitVec.ofNat 32 (i 1).val) (BitVec.ofNat 32 (i 2).val) x0 x1 k1_pay1 k1_pay2 := by
  unfold sout1_A_1
  rw [View.read_writes_eq_canon _ _ _ (cover_sout1_A_1 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

theorem sout1_A_2_eq (c : Dev nD) (i : grid1.Coords) (arg3 : Memref sig .tc .vmem S1x1024x1024 .bf16) (harg3 : arg3.IsWhole) (arg4 : Memref sig .tc .vmem S1x512x1024 .bf16) (harg4 : arg4.IsWhole) (arg5 : Memref sig .tc .vmem S1x512x1024 .bf16) (harg5 : arg5.IsWhole) (arg6 : Memref sig .tc .vmem S1x1024x1024 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1024 .f32) (harg9 : arg9.IsWhole) (hc0 : cond1_0 i) (hc1 : cond1_1 i) (hc2 : ¬cond1_2 i) (x0 : Vec F S1x1024x1024 .bf16) (x1 : Vec F S1x512x1024 .bf16) (x2 : Vec F S1x512x1024 .bf16) :
    sout1_A_2 c i arg3 harg3 arg4 harg4 arg5 harg5 arg6 harg6 arg7 harg7 arg8 harg8 arg9 harg9 hc0 hc1 hc2 x0 x1 x2 = k1_pay4 (k1_pay7 x2) (k1_pay10 (BitVec.ofNat 32 (i 1).val) (BitVec.ofNat 32 (i 2).val) x0 x1 k1_pay1) (k1_pay11 (BitVec.ofNat 32 (i 1).val) (BitVec.ofNat 32 (i 2).val) x0 x1 k1_pay1) k1_pay3 := by
  unfold sout1_A_2
  rw [View.read_writes_eq_canon _ _ _ (cover_sout1_A_2 c i arg3 harg3 arg4 harg4 arg5 harg5 arg6 harg6 arg7 harg7 arg8 harg8 arg9 harg9 hc0 hc1 hc2 x0 x1 x2)]
  unfold kernelRun1_A
  dsimp only
  sl_unfold_words
  rw [View.canon_cons_unit_zero hz2]
  simp only [View.readAt_eq_ld, harg3.read_unread, harg4.read_unread, harg5.read_unread, harg7.read_unread, harg8.read_unread, harg9.read_unread,
    View.ld_unit_zero (S := S1x1024x1024) hz3, View.ld_unit_zero (S := S1x512x1024) hz3, View.ld_unit_zero (S := S1024x1) hz2, View.ld_unit_zero (S := S1024x1024) hz2,
    View.readCov_unit_zero (S := S1024x1) _ hz2, View.readCov_unit_zero (S := S1024x1024) _ hz2]

end Cert.KernelIdeal.Hand

end
-- ==== Proof.LibMatDot.lean ====
/-
  A plain matrix product read at an index.

  The dimension numbers of `[a, K] × [K, b] → [a, b]` — contract the left operand's axis 1 with the right operand's axis 0, no
  batch axis — are those of the product `l · r`. On the extended reals the product, read at `(p, q)`, is the sum over `k` of
  `l (p, k) · r (k, q)`: row `p` of the left operand against column `q` of the right one.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : ℕ}

/-- The dimension numbers of the product of rows with columns `[a, K] × [K, b] → [a, b]`, over any witness of their
    well-formedness. -/
abbrev matDot (wf : DotDims.WF ⟨2, ![a, K]⟩ ⟨2, ![K, b]⟩ ⟨2, ![a, b]⟩ [1] [0] [0] [1] [] []) :
    DotDims ⟨2, ![a, K]⟩ ⟨2, ![K, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, K]⟩ ⟨2, ![K, b]⟩ ⟨2, ![a, b]⟩ [1] [0] [0] [1] [] [])

/-- Off the contracted axis the left operand is read at the result's row, -/
theorem matDot_lhs_row (i : (⟨2, ![a, b]⟩ : Shape).Idx) (κ : (matDot wf).contr.Idx) :
    ((matDot wf).lhsIdx i κ 0).val = (i 0).val := by
  unfold DotDims.lhsIdx
  rw [dif_neg (show ¬(0 : Fin (Shape.rank ⟨2, ![a, K]⟩)) ∈ (matDot wf).lhsBatch from List.not_mem_nil),
    dif_pos (show (0 : Fin (Shape.rank ⟨2, ![a, K]⟩)) ∈ (matDot wf).lhsNonContracting from List.mem_singleton.mpr rfl)]
  rfl

/-- and the right operand at the result's column. -/
theorem matDot_rhs_col (i : (⟨2, ![a, b]⟩ : Shape).Idx) (κ : (matDot wf).contr.Idx) :
    ((matDot wf).rhsIdx i κ 1).val = (i 1).val := by
  unfold DotDims.rhsIdx
  rw [dif_neg (show ¬(1 : Fin (Shape.rank ⟨2, ![K, b]⟩)) ∈ (matDot wf).rhsBatch from List.not_mem_nil),
    dif_pos (show (1 : Fin (Shape.rank ⟨2, ![K, b]⟩)) ∈ (matDot wf).rhsNonContracting from List.mem_singleton.mpr rfl)]
  rfl

/-- At result index `(p, q)` and contraction position `k` the left operand is read at `(p, k)`. -/
theorem matDot_lhsIdx (p : Fin a) (q : Fin b) (k : Fin K) :
    (matDot wf).lhsIdx (ix2 p q) ((contrEquiv1 (matDot wf) K rfl rfl).symm k) = ix2 p k :=
  funext fun ax => Fin.ext (by
    match ax with
    | ⟨0, _⟩ => exact matDot_lhs_row wf _ _
    | ⟨1, _⟩ =>
      exact ((matDot wf).lhsIdx_val_of_single rfl _ _).trans (contrEquiv1_symm_val (matDot wf) K rfl rfl k))

/-- … and the right operand at `(k, q)`. -/
theorem matDot_rhsIdx (p : Fin a) (q : Fin b) (k : Fin K) :
    (matDot wf).rhsIdx (ix2 p q) ((contrEquiv1 (matDot wf) K rfl rfl).symm k) = ix2 k q :=
  funext fun ax => Fin.ext (by
    match ax with
    | ⟨0, _⟩ =>
      exact ((matDot wf).rhsIdx_val_of_single rfl _ _).trans (contrEquiv1_symm_val (matDot wf) K rfl rfl k)
    | ⟨1, _⟩ => exact matDot_rhs_col wf _ _)

/-- The contraction of a product of rows with columns at `(p, q)`, re-indexed by the contracted coordinate. -/
theorem matDot_sum {φ₁ φ₂ : FTy} (l : FVec Ideal ⟨2, ![a, K]⟩ φ₁) (r : FVec Ideal ⟨2, ![K, b]⟩ φ₂) (p : Fin a) (q : Fin b) :
    (∑ k : (matDot wf).contr.Idx, l ((matDot wf).lhsIdx (ix2 p q) k) * r ((matDot wf).rhsIdx (ix2 p q) k))
      = ∑ k : Fin K, l (ix2 p k) * r (ix2 k q) := by
  rw [← Equiv.sum_comp (contrEquiv1 (matDot wf) K rfl rfl).symm]
  refine Finset.sum_congr rfl fun k _ => ?_
  rw [matDot_lhsIdx, matDot_rhsIdx]

/-- A `tpu.matmul` of rows with columns at `(p, q)`: the accumulator's entry plus the row-by-column sum. -/
theorem matmul_plain_apply {φ₁ φ₂ : FTy} (prec : Option ContractPrecision) (l : FVec Ideal ⟨2, ![a, K]⟩ φ₁)
    (r : FVec Ideal ⟨2, ![K, b]⟩ φ₂) (acc : FVec Ideal ⟨2, ![a, b]⟩ .f32) (p : Fin a) (q : Fin b) :
    FloatOps.matmul (matDot wf) prec l r acc (ix2 p q) = acc (ix2 p q) + ∑ k : Fin K, l (ix2 p k) * r (ix2 k q) := by
  rw [Ideal.matmul_apply, matDot_sum]

/-- Into the zero accumulator: the row-by-column sum alone. -/
theorem matmul_plain_zero_apply {φ₁ φ₂ : FTy} (prec : Option ContractPrecision) (l : FVec Ideal ⟨2, ![a, K]⟩ φ₁)
    (r : FVec Ideal ⟨2, ![K, b]⟩ φ₂) (p : Fin a) (q : Fin b) :
    FloatOps.matmul (matDot wf) prec l r (constant ⟨2, ![a, b]⟩ .f32 0x00000000#32) (ix2 p q)
      = ∑ k : Fin K, l (ix2 p k) * r (ix2 k q) := by
  rw [Ideal.matmul_constant_zero_apply, matDot_sum]

/-- The host's `dot_general` of rows with columns at `(p, q)`: the same sum. -/
theorem dotGeneral_plain_apply {φ₁ φ₂ : FTy} (prec : Option ContractPrecision) (sched : HostSchedule)
    (l : FVec Ideal ⟨2, ![a, K]⟩ φ₁) (r : FVec Ideal ⟨2, ![K, b]⟩ φ₂) (p : Fin a) (q : Fin b) :
    FloatOps.dotGeneral (matDot wf) prec sched l r (ix2 p q) = ∑ k : Fin K, l (ix2 p k) * r (ix2 k q) := by
  rw [Ideal.dotGeneral_apply, matDot_sum]

end Cert.Lib

end
-- ==== Proof.LibColumn.lean ====
/-
  A column vector's layout operations read at an index.

  A vector of `a` entries reshaped to a column `[a, 1]` reads, at `(i, 0)`, the vector's entry `i`; a column `[a, 1]`
  broadcast along its unit axis to `[a, b]` reads, at `(p, c)`, the column's entry `p`, whatever the column `c`. These
  are the column counterparts of the library's row forms (a vector as one row, one row broadcast over many).
-/
import Idealize.ShloMosaic.Lib.ValueIdx
import Idealize.ShloMosaic.Lib.Pipeline.Value

noncomputable section

namespace Cert.Lib

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib

end
-- ==== Proof.LibRowMax.lean ====
/-
  A row's maximum read at an index.

  A `vector.multi_reduction <maximumf>` of an `[R, K]` array over its second axis, read on the extended reals at row
  `p`, is the fold of `max` from the accumulator's value over the `K` entries `src (p, k)` of that row: the reduced index
  `(p)` with the coordinate `k` put back on the reduced axis is `(p, k)`.
-/
import Idealize.ShloMosaic.PureOps.Ideal.Laws
import Idealize.ShloMosaic.Lib.ValueIdx

noncomputable section

namespace Cert.Lib

open Idealize.ShloMosaic Idealize.ShloMosaic.ValueIdx

variable {R K : ℕ}

/-- The reduced index `(p)` with coordinate `k` inserted on axis 1 is `(p, k)`. -/
theorem lift_lastAxis2 (h : (⟨2, ![R, K]⟩ : Shape).Reduces [1] (⟨1, ![R]⟩ : Shape)) (p : Fin R)
    (k : Fin ((⟨2, ![R, K]⟩ : Shape).size 1)) : h.lift (ix1 p) k = ix2 p (⟨k.val, k.isLt⟩ : Fin K) := by
  funext c; apply Fin.ext
  fin_cases c <;> rfl

/-- A float maximum over the second axis of an `[R, K]` array, at row `p`: the fold of `max` over that row. -/
theorem multiReduction_maximumf_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin K)).fold max (Ideal.ofBits φ acc) (fun k => src (ix2 p k)) := by
  refine (Ideal.multiReduction_maximumf_single src acc h hφ hacc (ix1 p)).trans ?_
  have hf : (src ∘ h.lift (ix1 p)) = fun k : Fin K => src (ix2 p k) :=
    funext fun k => congrArg src (lift_lastAxis2 h p k)
  exact congrArg (fun f => Finset.fold max (Ideal.ofBits φ acc) f (Finset.univ : Finset (Fin K))) hf

end Cert.Lib

end
-- ==== Proof.LibRowSum.lean ====
/-
  A row's sum read at an index.

  A `vector.multi_reduction <add>` of an `[R, K]` array over its second axis, read on the extended reals at row `p`, is
  the sum of the `K` entries `src (p, k)` of that row (the accumulator is the additive neutral word, so nothing is added
  in front); the host's one-operand `reduce` with an add body over the same axis is its initial value plus that sum.
-/
import Idealize.ShloMosaic.PureOps.Ideal.Laws
import Idealize.ShloMosaic.Lib.ValueIdx
import proofs.«150816_j58841051955817_2_alg».proof.Proof.LibRowMax

noncomputable section

namespace Cert.Lib

open Idealize.ShloMosaic Idealize.ShloMosaic.ValueIdx
open scoped BigOperators

variable {R K : ℕ}

/-- A float sum over the second axis of an `[R, K]` array, at row `p`: the sum over that row. -/
theorem multiReduction_add_rows {φ : FTy} (src : FVec Ideal ⟨2, ![R, K]⟩ φ) (acc : BitVec φ.bits)
    (h : (⟨2, ![R, K]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin K, src (ix2 p k) := by
  refine (Ideal.multiReduction_add_single src acc h hφ hacc (ix1 p)).trans ?_
  exact Finset.sum_congr rfl fun k _ => congrArg src (lift_lastAxis2 h p k)

/-- The host's float sum over the second axis of an `[R, K]` array, at row `p`: the initial value plus the sum over that row. -/
theorem hostReduceAdd_rows {φ : FTy} {u : Shape} (x : FVec Ideal ⟨2, ![R, K]⟩ φ) (init : u.Idx → Ideal φ)
    (h' : (⟨2, ![R, K]⟩ : Shape).ReducesTo [1] (⟨1, ![R]⟩ : Shape)) (h : (⟨2, ![R, K]⟩ : Shape).Reduces [1] (⟨1, ![R]⟩ : Shape))
    (hu : 0 < u.numel) (p : Fin R) :
    Host.reduceAdd x init h' hu (ix1 p) = init (Shape.Idx.first hu) + ∑ k : Fin K, x (ix2 p k) := by
  unfold Host.reduceAdd
  rw [Ideal.hostReduceAdd_def, Ideal.hostReduceAdd_single h' h]
  exact congrArg (_ + ·) (Finset.sum_congr rfl fun k _ => congrArg x (lift_lastAxis2 h p k))

end Cert.Lib

end
-- ==== Proof.KI.R1Step.lean ====
import proofs.«150816_j58841051955817_2_alg».proof.Proof.Gen.KernelIdeal.Skeleton
import proofs.«150816_j58841051955817_2_alg».proof.Proof.LibOnlineSoftmax
import proofs.«150816_j58841051955817_2_alg».proof.Proof.LibRowsDot
import proofs.«150816_j58841051955817_2_alg».proof.Proof.LibMatDot
import proofs.«150816_j58841051955817_2_alg».proof.Proof.LibColumn
import proofs.«150816_j58841051955817_2_alg».proof.Proof.LibRowMax
import proofs.«150816_j58841051955817_2_alg».proof.Proof.LibRowSum
import proofs.«150816_j58841051955817_2_alg».proof.Proof.Consts
import Idealize.ShloMosaic.Lib.ValueIdx
import Idealize.ShloMosaic.Lib.ValueLayout
import Idealize.ShloMosaic.PureOps.Ideal.Laws

/-!
# The attention body's arithmetic, entry by entry

At grid point `(batch, qi, ki)` the attention body holds a tile of 1024 queries, a tile of 512 keys and the
matching tile of 512 values, and three running arrays: a column of maxima, a column of denominators and a
1024 × 1024 numerator. On the extended reals a change of float format is the identity, so the body's values are:

* the masked scores `sc r k`: the product of query row `r` with key row `k`, kept when key `512·ki + k` is not
  after query `1024·qi + r`, and `⊥` otherwise (the comparison is on 32-bit words, which do not wrap at these sizes);
* the new maximum, `max m (max over k of sc r k)`;
* the new denominator, `exp (m - m') · l + ∑ k, exp (sc r k - m')`;
* the new numerator, `exp (m - m') · acc + ∑ k, exp (sc r k - m') · v k e`.

These are the three fields of one step of the online softmax from the state `(m, l, acc)` of row `r`.
-/

noncomputable section

namespace Cert.KernelIdeal.Step

open Cert.KernelIdeal Cert.KernelIdeal.Gen
open Idealize.ShloMosaic Idealize.ShloMosaic.ValueIdx Cert.Lib
open scoped BigOperators

/-! ### Words -/

/-- A natural number below `2 ^ 31`, as a 32-bit word read as a signed integer, is itself. -/
theorem toInt_ofNat_small (a : ℕ) (ha : a < 2 ^ 31) : (BitVec.ofNat 32 a).toInt = a := by
  rw [BitVec.toInt_eq_toNat_cond, BitVec.toNat_ofNat]
  have : a % 2 ^ 32 = a := Nat.mod_eq_of_lt (by omega)
  rw [this, if_pos (by omega)]

/-- The signed comparison of two such words is the comparison of the numbers. -/
theorem sle_ofNat (a b : ℕ) (ha : a < 2 ^ 31) (hb : b < 2 ^ 31) :
    (BitVec.ofNat 32 a).sle (BitVec.ofNat 32 b) = decide (a ≤ b) := by
  rw [BitVec.sle, toInt_ofNat_small a ha, toInt_ofNat_small b hb]
  simp

/-- A tile's first position plus an offset, computed on words, is the word of the sum. -/
theorem muli_add_ofNat (q c r : ℕ) :
    IntOp.addi (Scalar.muli (BitVec.ofNat 32 q) (BitVec.ofNat 32 c)) (BitVec.ofNat 32 r) = BitVec.ofNat 32 (c * q + r) := by
  unfold Scalar.muli IntOp.muli IntOp.addi
  rw [← BitVec.ofNat_mul, ← BitVec.ofNat_add, Nat.mul_comm]

/-- A select on a decided bit is the conditional. -/
theorem select_ofBool {α : Type} (P : Prop) [Decidable P] (a b : α) :
    Scalar.select (BitVec.ofBool (decide P)) a b = if P then a else b := by
  by_cases h : P
  · rw [if_pos h, decide_eq_true h]; exact select_one a b
  · rw [if_neg h, decide_eq_false h]; exact select_zero a b

/-- The mask's fill value, the constant the idealized body names, is `⊥`. -/
theorem neg_big : Named.named (F := Ideal) Cert.KernelIdeal.κ "neg_big" (φ := .f32) 0xF149F2CA#32 = (⊥ : EReal) :=
  IdealRules.named_const.ideal_named_scalar _ _ _ _ rfl

/-! ### The state, the scores and the values -/

section Defs
variable (qi ki : ℕ) (x0 : Vec Ideal S1x1024x1024 .bf16) (x1 x2 : Vec Ideal S1x512x1024 .bf16)
  (mp lp : Vec Ideal S1024x1 .f32) (ap : Vec Ideal S1024x1024 .f32)

/-- Key tile `ki`'s masked scores of the query tile's row `r`: key `512·ki + k` is kept when it is not after query
    `1024·qi + r`. -/
def sc (r : Fin 1024) (k : Fin 512) : EReal :=
  if 512 * ki + k.val ≤ 1024 * qi + r.val then ∑ d : Fin 1024, x0 (ix3 0 r d) * x1 (ix3 0 k d) else ⊥

/-- Row `r`'s running state, read off the three running arrays. -/
def st (r : Fin 1024) : OSState (Fin 1024) := ⟨mp (ix2 r 0), lp (ix2 r 0), fun e => ap (ix2 r e)⟩

/-- The tile's values. -/
def vals (k : Fin 512) (e : Fin 1024) : EReal := x2 (ix3 0 k e)

end Defs

/-! ### The scores -/

/-- The printed dimension numbers of the score product are those of rows against rows. -/
theorem dot_scores_eq : dot_S1024x1024_S512x1024_S1024x512_1_1_0_0_n_n
    = rowsDot (a := 1024) (K := 1024) (b := 512) dot_S1024x1024_S512x1024_S1024x512_1_1_0_0_n_n.wf := rfl

/-- The printed dimension numbers of the weights-by-values product are those of the plain product. -/
theorem dot_values_eq : dot_S1024x512_S512x1024_S1024x1024_1_0_0_1_n_n
    = matDot (a := 1024) (K := 512) (b := 1024) dot_S1024x512_S512x1024_S1024x1024_1_0_0_1_n_n.wf := rfl

/-- The product of the query tile with the key tile, into the zero accumulator, at `(r, k)`. -/
theorem scores_apply (x0 : FVec Ideal S1x1024x1024 .bf16) (x1 : FVec Ideal S1x512x1024 .bf16) (r : Fin 1024) (k : Fin 512) :
    matmul (F := Ideal) dot_S1024x1024_S512x1024_S1024x512_1_1_0_0_n_n none
        (shapeCast S1024x1024 x0 shapeCasts_S1x1024x1024_S1024x1024)
        (shapeCast S512x1024 x1 shapeCasts_S1x512x1024_S512x1024) (constant S1024x512 .f32 0x00000000#32) (ix2 r k)
      = ∑ d : Fin 1024, (x0 (ix3 0 r d) : EReal) * (x1 (ix3 0 k d) : EReal) := by
  rw [dot_scores_eq]
  refine (matmul_rows_zero_apply dot_S1024x1024_S512x1024_S1024x512_1_1_0_0_n_n.wf none
    (shapeCast S1024x1024 x0 shapeCasts_S1x1024x1024_S1024x1024)
    (shapeCast S512x1024 x1 shapeCasts_S1x512x1024_S512x1024) r k).trans ?_
  refine Finset.sum_congr rfl fun d _ => ?_
  rw [shapeCast_1ab_ab_apply, shapeCast_1ab_ab_apply]

/-- The mask bit at `(r, k)`: set exactly when key `512·ki + k` is not after query `1024·qi + r`. -/
theorem mask_apply (qi ki : ℕ) (hqi : qi < 2) (hki : ki < 4) (r : Fin 1024) (k : Fin 512) :
    cmpi .sge
        (addi (broadcast S1024x512 (Scalar.muli (BitVec.ofNat 32 qi) 1024#32)) (iota .tc S1024x512 32 [0] iota_S1024x512_d0_w32))
        (addi (broadcast S1024x512 (Scalar.muli (BitVec.ofNat 32 ki) 512#32)) (iota .tc S1024x512 32 [1] iota_S1024x512_d1_w32))
        (ix2 r k)
      = BitVec.ofBool (decide (512 * ki + k.val ≤ 1024 * qi + r.val)) := by
  show IntOp.cmpi .sge
      (IntOp.addi (Scalar.muli (BitVec.ofNat 32 qi) (BitVec.ofNat 32 1024)) (iota .tc S1024x512 32 [0] iota_S1024x512_d0_w32 (ix2 r k)))
      (IntOp.addi (Scalar.muli (BitVec.ofNat 32 ki) (BitVec.ofNat 32 512)) (iota .tc S1024x512 32 [1] iota_S1024x512_d1_w32 (ix2 r k))) = _
  rw [iota_single_apply, iota_single_apply]
  show IntOp.cmpi .sge
      (IntOp.addi (Scalar.muli (BitVec.ofNat 32 qi) (BitVec.ofNat 32 1024)) (BitVec.ofNat 32 r.val))
      (IntOp.addi (Scalar.muli (BitVec.ofNat 32 ki) (BitVec.ofNat 32 512)) (BitVec.ofNat 32 k.val)) = _
  rw [muli_add_ofNat, muli_add_ofNat]
  show BitVec.ofBool ((BitVec.ofNat 32 (512 * ki + k.val)).sle (BitVec.ofNat 32 (1024 * qi + r.val))) = _
  have hr := r.isLt
  have hk := k.isLt
  rw [sle_ofNat _ _ (by omega) (by omega)]

/-- Entry `(r, k)` of the masked scores. -/
theorem pay8_apply (qi ki : ℕ) (hqi : qi < 2) (hki : ki < 4) (x0 : Vec Ideal S1x1024x1024 .bf16)
    (x1 : Vec Ideal S1x512x1024 .bf16) (r : Fin 1024) (k : Fin 512) :
    k1_pay8 (F := Ideal) (BitVec.ofNat 32 qi) (BitVec.ofNat 32 ki) x0 x1 (ix2 r k) = sc qi ki x0 x1 r k := by
  unfold k1_pay8 sc
  rw [select_apply, mask_apply qi ki hqi hki, select_ofBool, scores_apply x0 x1 r k, broadcast_apply, neg_big]

/-! ### The new maximum, the rescaling factor and the weights -/

/-- Row `r`'s new maximum: the larger of the running maximum and the maximum of the tile's masked scores. -/
theorem pay9_apply (qi ki : ℕ) (hqi : qi < 2) (hki : ki < 4) (x0 : Vec Ideal S1x1024x1024 .bf16)
    (x1 : Vec Ideal S1x512x1024 .bf16) (mp : Vec Ideal S1024x1 .f32) (r : Fin 1024) :
    k1_pay9 (F := Ideal) (BitVec.ofNat 32 qi) (BitVec.ofNat 32 ki) x0 x1 mp (ix2 r 0)
      = max (mp (ix2 r 0)) (Finset.univ.fold max ⊥ (sc qi ki x0 x1 r)) := by
  unfold k1_pay9
  rw [maximumf_apply, shapeCast_a_a1_apply]
  refine congrArg (max (mp (ix2 r 0))) ?_
  refine (multiReduction_maximumf_rows (k1_pay8 (F := Ideal) (BitVec.ofNat 32 qi) (BitVec.ofNat 32 ki) x0 x1)
    0xFF800000#32 reduces_S1024x512_S1024 (.inl rfl) rfl r).trans ?_
  rw [Cert.Consts.ofBits_neg_inf]
  exact congrArg (fun f => Finset.fold max ⊥ f Finset.univ) (funext fun k => pay8_apply qi ki hqi hki x0 x1 r k)

/-- The rescaling factor of row `r`: the exponential of the old maximum minus the new one. -/
theorem pay10_apply (a1 a2 : BitVec 32) (x0 : Vec Ideal S1x1024x1024 .bf16)
    (x1 : Vec Ideal S1x512x1024 .bf16) (mp : Vec Ideal S1024x1 .f32) (r : Fin 1024) :
    k1_pay10 (F := Ideal) a1 a2 x0 x1 mp (ix2 r 0)
      = Ideal.exp (mp (ix2 r 0) - k1_pay9 (F := Ideal) a1 a2 x0 x1 mp (ix2 r 0)) := rfl

/-- The weight of key `k` in row `r`: the exponential of the masked score minus the new maximum. -/
theorem pay11_apply (a1 a2 : BitVec 32) (x0 : Vec Ideal S1x1024x1024 .bf16)
    (x1 : Vec Ideal S1x512x1024 .bf16) (mp : Vec Ideal S1024x1 .f32) (r : Fin 1024) (k : Fin 512) :
    k1_pay11 (F := Ideal) a1 a2 x0 x1 mp (ix2 r k)
      = Ideal.exp (k1_pay8 (F := Ideal) a1 a2 x0 x1 (ix2 r k) - k1_pay9 (F := Ideal) a1 a2 x0 x1 mp (ix2 r 0)) := by
  unfold k1_pay11
  show Ideal.exp (k1_pay8 (F := Ideal) a1 a2 x0 x1 (ix2 r k)
    - broadcastTo S1024x512 (k1_pay9 (F := Ideal) a1 a2 x0 x1 mp) broadcasts_S1024x1_S1024x512 (ix2 r k)) = _
  rw [broadcastTo_a1_ab_apply]

/-! ### One step of the online softmax -/

section Step
variable (qi ki : ℕ) (hqi : qi < 2) (hki : ki < 4) (x0 : Vec Ideal S1x1024x1024 .bf16) (x1 x2 : Vec Ideal S1x512x1024 .bf16)
  (mp lp : Vec Ideal S1024x1 .f32) (ap : Vec Ideal S1024x1024 .f32)
include hqi hki

/-- The stored maximum of row `r` is the step's new maximum. -/
theorem m_step (r : Fin 1024) :
    k1_pay5 (k1_pay9 (F := Ideal) (BitVec.ofNat 32 qi) (BitVec.ofNat 32 ki) x0 x1 mp) (ix2 r 0)
      = (osStep (st mp lp ap r) (sc qi ki x0 x1 r) (vals x2)).m := by
  unfold k1_pay5
  rw [shapeCast_self, pay9_apply qi ki hqi hki]
  rfl

/-- The stored denominator of row `r` is the step's new denominator. -/
theorem l_step (r : Fin 1024) :
    k1_pay12 (F := Ideal) (BitVec.ofNat 32 qi) (BitVec.ofNat 32 ki) x0 x1 mp lp (ix2 r 0)
      = (osStep (st mp lp ap r) (sc qi ki x0 x1 r) (vals x2)).l := by
  unfold k1_pay12
  rw [shapeCast_self, addf_apply, mulf_apply, shapeCast_a_a1_apply, pay10_apply, pay9_apply qi ki hqi hki]
  refine congrArg (Ideal.exp (mp (ix2 r 0) - max (mp (ix2 r 0)) (Finset.univ.fold max ⊥ (sc qi ki x0 x1 r))) * lp (ix2 r 0) + ·) ?_
  refine (multiReduction_add_rows (k1_pay11 (F := Ideal) (BitVec.ofNat 32 qi) (BitVec.ofNat 32 ki) x0 x1 mp)
    0x00000000#32 reduces_S1024x512_S1024 (.inl rfl) rfl r).trans ?_
  refine Finset.sum_congr rfl fun k _ => ?_
  rw [pay11_apply, pay8_apply qi ki hqi hki, pay9_apply qi ki hqi hki]
  rfl

/-- Entry `(r, e)` of the stored numerator is the step's new numerator at `e`. -/
theorem acc_step (r e : Fin 1024) :
    k1_pay4 (F := Ideal) (k1_pay7 x2) (k1_pay10 (BitVec.ofNat 32 qi) (BitVec.ofNat 32 ki) x0 x1 mp)
        (k1_pay11 (BitVec.ofNat 32 qi) (BitVec.ofNat 32 ki) x0 x1 mp) ap (ix2 r e)
      = (osStep (st mp lp ap r) (sc qi ki x0 x1 r) (vals x2)).acc e := by
  unfold k1_pay4
  rw [shapeCast_self, addf_apply, mulf_apply, broadcastTo_a1_ab_apply, pay10_apply, pay9_apply qi ki hqi hki, dot_values_eq]
  refine congrArg (Ideal.exp (mp (ix2 r 0) - max (mp (ix2 r 0)) (Finset.univ.fold max ⊥ (sc qi ki x0 x1 r))) * ap (ix2 r e) + ·) ?_
  refine (matmul_plain_zero_apply dot_S1024x512_S512x1024_S1024x1024_1_0_0_1_n_n.wf none
    (truncf .bf16 (k1_pay11 (F := Ideal) (BitVec.ofNat 32 qi) (BitVec.ofNat 32 ki) x0 x1 mp) bitsLt_bf16_f32)
    (k1_pay7 (F := Ideal) x2) r e).trans ?_
  refine Finset.sum_congr rfl fun k _ => ?_
  rw [truncf_apply, pay11_apply, pay8_apply qi ki hqi hki, pay9_apply qi ki hqi hki]
  unfold k1_pay7
  rw [shapeCast_1ab_ab_apply]
  rfl

end Step

end Cert.KernelIdeal.Step

end
-- ==== Proof.KI.R1StepInit.lean ====
import proofs.«150816_j58841051955817_2_alg».proof.Proof.Gen.KernelIdeal.Skeleton
import proofs.«150816_j58841051955817_2_alg».proof.Proof.Consts
import proofs.«150816_j58841051955817_2_alg».proof.Proof.LibMatDot
import proofs.«150816_j58841051955817_2_alg».proof.Proof.LibColumn
import Idealize.ShloMosaic.Lib.ValueIdx
import Idealize.ShloMosaic.Lib.ValueLayout
import Idealize.ShloMosaic.PureOps.Ideal.Laws

/-!
# The attention body's plain stores, entry by entry

The attention body keeps, per query row `r` of its tile of 1024 rows, a running maximum `m r`, a running
denominator `l r` (two columns `[1024, 1]`) and a running numerator row `acc r ·` (a matrix `[1024, 1024]`).
This module reads at an index, on the extended reals, the stored values that do not involve the masked scores:

* the three initial values: `m = ⊥` (the word `0xFF800000` is minus infinity), `l = 0`, `acc = 0`;
* the numerator's update at a key tile of 512 rows: `acc (r, e)` is multiplied by row `r`'s rescaling factor (a
  column, repeated along the features) and the product of the tile's weights with the tile's value rows is added:
  `α r · acc (r, e) + ∑ k, p (r, k) · v (k, e)`;
* the stored maximum, a copy of the new maximum;
* the output tile `acc (r, e) / l r`, the denominator's column repeated along the features, with a leading unit
  axis added;
* a key or value tile with its leading unit axis dropped.

A change of float format is the identity here, and a cast to the same shape changes nothing.
-/

noncomputable section

namespace Cert.KernelIdeal.Step

open Cert.KernelIdeal Cert.KernelIdeal.Gen
open Idealize.ShloMosaic Idealize.ShloMosaic.ValueIdx
open scoped BigOperators

/-! ## The initial values -/

/-- The running maximum starts at minus infinity. -/
theorem init_m (r : Fin 1024) : (k1_pay1 (F := Ideal) (ix2 r 0) : EReal) = ⊥ := by
  unfold k1_pay1
  rw [shapeCast_self]
  exact Cert.Consts.ofBits_neg_inf

/-- The running denominator starts at zero. -/
theorem init_l (r : Fin 1024) : (k1_pay2 (F := Ideal) (ix2 r 0) : EReal) = 0 := by
  unfold k1_pay2
  rw [shapeCast_self]
  exact Cert.Consts.ofBits_zero

/-- The running numerator starts at zero. -/
theorem init_acc (r : Fin 1024) (e : Fin 1024) : (k1_pay3 (F := Ideal) (ix2 r e) : EReal) = 0 := by
  unfold k1_pay3
  rw [shapeCast_self]
  exact Cert.Consts.ofBits_zero

/-! ## The numerator's update -/

/-- The printed dimension numbers of the weights-by-values product are those of a plain matrix product. -/
theorem dot_eq_plain : dot_S1024x512_S512x1024_S1024x1024_1_0_0_1_n_n
    = Cert.Lib.matDot (a := 1024) (K := 512) (b := 1024) dot_S1024x512_S512x1024_S1024x1024_1_0_0_1_n_n.wf := rfl

/-- The tile's weights times the tile's value rows, into the zero accumulator, at `(r, e)`: row `r` of the weights
    against column `e` of the values. -/
theorem weights_values_apply (v38 : FVec Ideal S1024x512 .f32) (v17 : FVec Ideal S512x1024 .bf16) (r : Fin 1024) (e : Fin 1024) :
    matmul (F := Ideal) dot_S1024x512_S512x1024_S1024x1024_1_0_0_1_n_n none (truncf .bf16 v38 bitsLt_bf16_f32) v17
        (constant S1024x1024 .f32 0x00000000#32) (ix2 r e)
      = ∑ k : Fin 512, (v38 (ix2 r k) : EReal) * (v17 (ix2 k e) : EReal) := by
  rw [dot_eq_plain]
  exact (Cert.Lib.matmul_plain_zero_apply dot_S1024x512_S512x1024_S1024x1024_1_0_0_1_n_n.wf none
    (truncf .bf16 v38 bitsLt_bf16_f32) v17 r e).trans rfl

/-- The numerator after a key tile, at `(r, e)`: the old entry times row `r`'s factor, plus the tile's weighted
    value rows. -/
theorem pay4_apply (v17 : FVec Ideal S512x1024 .bf16) (v35 : FVec Ideal S1024x1 .f32) (v38 : FVec Ideal S1024x512 .f32)
    (v47 : Vec Ideal S1024x1024 .f32) (r : Fin 1024) (e : Fin 1024) :
    (k1_pay4 (F := Ideal) v17 v35 v38 v47 (ix2 r e) : EReal)
      = (v35 (ix2 r 0) : EReal) * (v47 (ix2 r e) : EReal) + ∑ k : Fin 512, (v38 (ix2 r k) : EReal) * (v17 (ix2 k e) : EReal) := by
  unfold k1_pay4
  rw [shapeCast_self]
  show (broadcastTo S1024x1024 v35 broadcasts_S1024x1_S1024x1024 (ix2 r e) : EReal) * (v47 (ix2 r e) : EReal)
      + (matmul (F := Ideal) dot_S1024x512_S512x1024_S1024x1024_1_0_0_1_n_n none (truncf .bf16 v38 bitsLt_bf16_f32) v17
          (constant S1024x1024 .f32 0x00000000#32) (ix2 r e) : EReal) = _
  rw [weights_values_apply, Cert.Lib.broadcastTo_a1_ab_apply v35 broadcasts_S1024x1_S1024x1024 r e]

/-! ## The copies and the output tile -/

/-- The stored maximum is the new maximum. -/
theorem pay5_apply (v : FVec Ideal S1024x1 .f32) (j : S1024x1.Idx) : k1_pay5 (F := Ideal) v j = v j := by
  unfold k1_pay5
  rw [shapeCast_self]

/-- The output tile at `(0, r, e)`: the numerator's entry divided by row `r`'s denominator. -/
theorem out_apply (acc : Vec Ideal S1024x1024 .f32) (l : Vec Ideal S1024x1 .f32) (r : Fin 1024) (e : Fin 1024) :
    (k1_pay6 (F := Ideal) acc l (ix3 0 r e) : EReal) = Ideal.div (acc (ix2 r e)) (l (ix2 r 0)) := by
  unfold k1_pay6
  refine (shapeCast_ab_1ab_apply _ shapeCasts_S1024x1024_S1x1024x1024 (0 : Fin 1) r e).trans ?_
  show Ideal.div (acc (ix2 r e)) (broadcastTo S1024x1024 l broadcasts_S1024x1_S1024x1024 (ix2 r e)) = _
  rw [Cert.Lib.broadcastTo_a1_ab_apply l broadcasts_S1024x1_S1024x1024 r e]

/-- A key or value tile without its leading unit axis, at `(k, e)`: the tile's `(0, k, e)`. -/
theorem pay7_apply (x2 : Vec Ideal S1x512x1024 .bf16) (k : Fin 512) (e : Fin 1024) :
    k1_pay7 (F := Ideal) x2 (ix2 k e) = x2 (ix3 0 k e) := by
  unfold k1_pay7
  exact shapeCast_1ab_ab_apply x2 shapeCasts_S1x512x1024_S512x1024 k e

end Cert.KernelIdeal.Step

end
-- ==== Proof.KI.R1Cover.lean ====
import proofs.«150816_j58841051955817_2_alg».proof.Proof.KI.R1Blocks

/-!
# The attention output: from the blocks the region writes back to the whole array

The attention region writes its output tile back at the last key tile of each query tile: at the positions
`t = 8·b + 4·qi + 3`. The tile written there is rows `1024·qi … 1024·qi + 1023` of batch `b`, and these eight tiles
tile the `[4, 2048, 1024]` array. So if, at each such position, what the body leaves in the output buffer agrees
index by index with a function `G` of the whole array's indices, the array ends holding `G`.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable {F : FTy → Type} [FloatOps F] [Named F]

variable (V : (c : Dev nD) → (b : Ref sig .tc) → Buf (Elt F) ((c : Thread nD τ).loc b))

/-- An index of the array is in position `t`'s output block iff each coordinate is in the block's range on its axis. -/
theorem mem_blk1_3 (t : Fin cfg1.N) (i : S4x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v8).slice (win1_3.rect t)).set ↔ _
  rw [View.set_slice_whole, Rect.mem_set_unit]
  exact Iff.rfl

/-- Every index of the array lies in the block of a position that writes back: row `s` of batch `b` in the block
    of `8·b + 4·(s / 1024) + 3`. -/
theorem cover1_3 (i : S4x2048x1024.Idx) :
    ∃ t : Fin cfg1.N, (cfg1.win 3).flush t = true ∧ i ∈ ((cfg1.win 3).blk t).view.set := by
  have hi0 : (i 0).val < 4 := (i 0).isLt
  have hi1 : (i 1).val < 2048 := (i 1).isLt
  have hi2 : (i 2).val < 1024 := (i 2).isLt
  have hN : cfg1.N = 32 := N_1
  let t : Fin cfg1.N := ⟨8 * (i 0).val + 4 * ((i 1).val / 1024) + 3, by rw [hN]; omega⟩
  have ht : t.val = 8 * (i 0).val + 4 * ((i 1).val / 1024) + 3 := rfl
  obtain ⟨e0, e1, e2⟩ := idx1_3 t
  refine ⟨t, (flush1_3' t).mpr (by omega), ?_⟩
  rw [mem_blk1_3]
  intro a
  match a with
  | ⟨0, _⟩ => show win1_3.index t 0 * 1 ≤ (i 0).val ∧ (i 0).val < win1_3.index t 0 * 1 + 1; rw [e0, ht]; omega
  | ⟨1, _⟩ => show win1_3.index t 1 * 1024 ≤ (i 1).val ∧ (i 1).val < win1_3.index t 1 * 1024 + 1024; rw [e1, ht]; omega
  | ⟨2, _⟩ => show win1_3.index t 2 * 1024 ≤ (i 2).val ∧ (i 2).val < win1_3.index t 2 * 1024 + 1024; rw [e2]; omega

/-- The attention output array after the region, from what the body leaves in the output buffer at the positions
    that write back: if there it agrees with `G` at the tile's rows, the array ends holding `G`. -/
theorem arrAt3_of_after (c : Dev nD) (G : S4x2048x1024.Idx → Elt F .f32)
    (h : ∀ t : Fin cfg1.N, (t.val % 8 = 3 ∨ t.val % 8 = 7) → ∀ (r : Fin 1024) (e : Fin 1024),
      ((dat1 V c).after 3 t : S1x1024x1024.Idx → Elt F .f32) (ix3 0 r e)
        = G (ix3 (⟨t.val / 8, by have h1 := t.isLt; have h2 : cfg1.N = 32 := N_1; omega⟩ : Fin 4)
              (⟨1024 * (t.val % 8 / 4) + r.val, by have := r.isLt; omega⟩ : Fin 2048) e)) :
    (dat1 V c).arrAt 3 cfg1.N = G := by
  refine (dat1 V c).arrAt_eq_of_cover 3 G (fun t hf => ?_) cover1_3
  have hm := (flush1_3' t).mp hf
  obtain ⟨e0, e1, e2⟩ := idx1_3 t
  show (cfg1.win 3).cut (grid1.coords t) ((dat1 V c).after 3 t) = _
  funext y
  rw [View.read_apply]
  obtain ⟨z, r, e, rfl⟩ : ∃ (z : Fin 1) (r : Fin 1024) (e : Fin 1024), y = ix3 z r e := ⟨y 0, y 1, y 2, eq_ix3 y⟩
  obtain rfl : z = 0 := Subsingleton.elim _ _
  refine (h t hm r e).trans (congrArg G ?_)
  funext a
  apply Fin.ext
  match a with
  | ⟨0, _⟩ => show t.val / 8 = win1_3.index t 0 * 1 + 1 * 0; rw [e0]; omega
  | ⟨1, _⟩ => show 1024 * (t.val % 8 / 4) + r.val = win1_3.index t 1 * 1024 + 1 * r.val; rw [e1]; omega
  | ⟨2, _⟩ => show e.val = win1_3.index t 2 * 1024 + 1 * e.val; rw [e2]; omega

end Cert.KernelIdeal.Hand

end
-- ==== Proof.SpecReal.lean ====
/-
  The specification on arrays of real numbers.

  When every entry of the seven arrays is a real number (neither infinity), every intermediate of
  the attention formula is a real number except the masked scores, which are minus infinity exactly
  above the diagonal:
  * every projection entry is real, and so is every score;
  * a masked score is the score when the key row is not after the query row and ⊥ otherwise; it is
    never +∞, and the entry of key row 0 (and of the diagonal) is always real;
  * hence the row maximum is real, every weight exp (masked − maximum) is a nonnegative real, zero
    above the diagonal and positive on and below it, and the denominator is a positive real;
  * the attention entry is the coercion of the real sum of (weight / denominator) · value.
-/
import proofs.«150816_j58841051955817_2_alg».proof.Proof.Spec

noncomputable section

namespace Cert.Spec

open Idealize.ShloMosaic Idealize.ShloMosaic.ValueIdx
open scoped BigOperators

/-! ### Real numbers among the extended reals -/

/-- An extended real that is neither infinity is the coercion of a real number. -/
theorem exists_real_of_ne {a : EReal} (hb : a ≠ ⊥) (ht : a ≠ ⊤) : ∃ r : ℝ, a = (r : EReal) :=
  ⟨a.toReal, (EReal.coe_toReal ht hb).symm⟩

/-- The coercion of a finite sum of reals is the sum of the coercions. -/
theorem coe_finset_sum {ι : Type*} (T : Finset ι) (f : ι → ℝ) :
    ((∑ i ∈ T, f i : ℝ) : EReal) = ∑ i ∈ T, (f i : EReal) := by
  classical
  induction T using Finset.induction_on with
  | empty => simp
  | insert a T ha ih => rw [Finset.sum_insert ha, Finset.sum_insert ha, EReal.coe_add, ih]

/-- A finite sum of real entries is real. -/
theorem exists_real_sum {ι : Type*} (T : Finset ι) (f : ι → EReal) (h : ∀ i ∈ T, ∃ r : ℝ, f i = (r : EReal)) :
    ∃ r : ℝ, ∑ i ∈ T, f i = (r : EReal) := by
  classical
  induction T using Finset.induction_on with
  | empty => exact ⟨0, by simp⟩
  | insert a T ha ih =>
    obtain ⟨ra, hra⟩ := h a (Finset.mem_insert_self a T)
    obtain ⟨rs, hrs⟩ := ih fun i hi => h i (Finset.mem_insert_of_mem hi)
    exact ⟨ra + rs, by rw [Finset.sum_insert ha, hra, hrs, EReal.coe_add]⟩

/-! ### Projections and scores -/

section Real

variable {x : Rows} {Wq : Weights} {bq : Bias} {Wk : Weights} {bk : Bias} {Wv : Weights} {bv : Bias}

/-- A projection of real arrays is real. -/
theorem proj_real {W : Weights} {bias : Bias} (hx : ∀ i, ∃ r : ℝ, x i = (r : EReal))
    (hW : ∀ i, ∃ r : ℝ, W i = (r : EReal)) (hb : ∀ i, ∃ r : ℝ, bias i = (r : EReal))
    (b : Fin 4) (s : Fin 2048) (e : Fin 1024) : ∃ r : ℝ, proj x W bias b s e = (r : EReal) := by
  obtain ⟨rs, hrs⟩ := exists_real_sum Finset.univ (fun j : Fin 1024 => x (ix3 b s j) * W (ix2 e j)) fun j _ => by
    obtain ⟨a, ha⟩ := hx (ix3 b s j)
    obtain ⟨c, hc⟩ := hW (ix2 e j)
    exact ⟨a * c, by rw [ha, hc, EReal.coe_mul]⟩
  obtain ⟨rb, hrb⟩ := hb (ix1 e)
  exact ⟨rs + rb, by unfold proj; rw [hrs, hrb, EReal.coe_add]⟩

/-- A score of real arrays is real. -/
theorem score_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s t : Fin 2048) :
    ∃ r : ℝ, score x Wq bq Wk bk b s t = (r : EReal) := by
  obtain ⟨rs, hrs⟩ := exists_real_sum Finset.univ
    (fun d : Fin 1024 => proj x Wq bq b s d * proj x Wk bk b t d) fun d _ => by
    obtain ⟨a, ha⟩ := proj_real hx hWq hbq b s d
    obtain ⟨c, hc⟩ := proj_real hx hWk hbk b t d
    exact ⟨a * c, by rw [ha, hc, EReal.coe_mul]⟩
  exact ⟨rs * (1 / 32), by unfold score; rw [hrs, EReal.coe_mul]⟩

/-! ### Masked scores -/

/-- On and below the diagonal the masked score is the score. -/
theorem masked_of_le (b : Fin 4) {s t : Fin 2048} (h : t.val ≤ s.val) :
    masked x Wq bq Wk bk b s t = score x Wq bq Wk bk b s t := if_pos h

/-- Above the diagonal the masked score is minus infinity. -/
theorem masked_of_lt (b : Fin 4) {s t : Fin 2048} (h : s.val < t.val) :
    masked x Wq bq Wk bk b s t = ⊥ := if_neg (by omega)

/-- On and below the diagonal the masked score of real arrays is real. -/
theorem masked_real_of_le (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) {s t : Fin 2048} (h : t.val ≤ s.val) :
    ∃ r : ℝ, masked x Wq bq Wk bk b s t = (r : EReal) := by
  rw [masked_of_le b h]
  exact score_real hx hWq hbq hWk hbk b s t

/-- The masked score against key row 0 is always real: row 0 is never after the query row. -/
theorem masked_zero_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s : Fin 2048) :
    ∃ r : ℝ, masked x Wq bq Wk bk b s (⟨0, by norm_num⟩ : Fin 2048) = (r : EReal) :=
  masked_real_of_le hx hWq hbq hWk hbk b (Nat.zero_le _)

/-- A masked score of real arrays is minus infinity or real. -/
theorem masked_bot_or_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s t : Fin 2048) :
    masked x Wq bq Wk bk b s t = ⊥ ∨ ∃ r : ℝ, masked x Wq bq Wk bk b s t = (r : EReal) := by
  by_cases h : t.val ≤ s.val
  · exact Or.inr (masked_real_of_le hx hWq hbq hWk hbk b h)
  · exact Or.inl (masked_of_lt b (by omega))

/-- A masked score of real arrays is never plus infinity. -/
theorem masked_ne_top (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s t : Fin 2048) :
    masked x Wq bq Wk bk b s t ≠ ⊤ := by
  rcases masked_bot_or_real hx hWq hbq hWk hbk b s t with h | ⟨r, h⟩
  · rw [h]; exact bot_ne_top
  · rw [h]; exact EReal.coe_ne_top r

/-! ### The row maximum -/

/-- Every masked score of a row is at most the row maximum. -/
theorem masked_le_rowMax (b : Fin 4) (s t : Fin 2048) :
    masked x Wq bq Wk bk b s t ≤ rowMax x Wq bq Wk bk b s :=
  (Finset.le_fold_max _).2 (Or.inr ⟨t, Finset.mem_univ t, le_rfl⟩)

/-- The row maximum of real arrays is real: no entry is +∞ and the entry of key row 0 is real. -/
theorem rowMax_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s : Fin 2048) :
    ∃ r : ℝ, rowMax x Wq bq Wk bk b s = (r : EReal) := by
  refine exists_real_of_ne ?_ ?_
  · obtain ⟨r, hr⟩ := masked_zero_real hx hWq hbq hWk hbk b s
    have h := masked_le_rowMax (x := x) (Wq := Wq) (bq := bq) (Wk := Wk) (bk := bk) b s (⟨0, by norm_num⟩ : Fin 2048)
    rw [hr] at h
    exact fun hb => EReal.coe_ne_bot r (le_bot_iff.1 (hb ▸ h))
  · unfold rowMax
    rw [← lt_top_iff_ne_top, Finset.fold_max_lt]
    exact ⟨bot_lt_top, fun t _ => lt_top_iff_ne_top.2 (masked_ne_top hx hWq hbq hWk hbk b s t)⟩

/-! ### Weights and the denominator -/

/-- Above the diagonal the weight is 0: the exponential of minus infinity. -/
theorem weight_of_lt (b : Fin 4) {s t : Fin 2048} (h : s.val < t.val) :
    weight x Wq bq Wk bk b s t = 0 := by
  unfold weight
  rw [masked_of_lt b h, EReal.bot_sub, Ideal.exp_bot]

/-- A weight of real arrays is a nonnegative real, positive on and below the diagonal. -/
theorem weight_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s t : Fin 2048) :
    ∃ r : ℝ, weight x Wq bq Wk bk b s t = (r : EReal) ∧ 0 ≤ r ∧ (t.val ≤ s.val → 0 < r) := by
  obtain ⟨M, hM⟩ := rowMax_real hx hWq hbq hWk hbk b s
  by_cases h : t.val ≤ s.val
  · obtain ⟨a, ha⟩ := masked_real_of_le hx hWq hbq hWk hbk b h
    refine ⟨Real.exp (a - M), ?_, (Real.exp_pos _).le, fun _ => Real.exp_pos _⟩
    unfold weight
    rw [ha, hM, ← EReal.coe_sub, Ideal.exp_coe]
  · exact ⟨0, by rw [weight_of_lt b (by omega), EReal.coe_zero], le_rfl, fun h' => absurd h' h⟩

/-- The denominator of real arrays is a positive real. -/
theorem denom_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s : Fin 2048) :
    ∃ L : ℝ, denom x Wq bq Wk bk b s = (L : EReal) ∧ 0 < L := by
  choose w hw hw0 hwpos using fun t => weight_real hx hWq hbq hWk hbk b s t
  refine ⟨∑ t : Fin 2048, w t, ?_, ?_⟩
  · unfold denom
    rw [coe_finset_sum]
    exact Finset.sum_congr rfl fun t _ => hw t
  · exact Finset.sum_pos' (fun t _ => hw0 t)
      ⟨(⟨0, by norm_num⟩ : Fin 2048), Finset.mem_univ _, hwpos _ (Nat.zero_le _)⟩

/-! ### The attention entry -/

/-- The attention entry of real arrays is the coercion of the real softmax-weighted sum of the
    value projections: ∑ t, (weight t / denominator) · value t, every factor read as a real. -/
theorem attnAt_eq_coe (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (hWv : ∀ i, ∃ r : ℝ, Wv i = (r : EReal))
    (hbv : ∀ i, ∃ r : ℝ, bv i = (r : EReal)) (b : Fin 4) (s : Fin 2048) (e : Fin 1024) :
    attnAt x Wq bq Wk bk Wv bv b s e
      = ((∑ t : Fin 2048, (weight x Wq bq Wk bk b s t).toReal / (denom x Wq bq Wk bk b s).toReal
            * (proj x Wv bv b t e).toReal : ℝ) : EReal) := by
  choose w hw _ _ using fun t => weight_real hx hWq hbq hWk hbk b s t
  obtain ⟨L, hL, hLpos⟩ := denom_real hx hWq hbq hWk hbk b s
  choose v hv using fun t => proj_real hx hWv hbv b t e
  unfold attnAt
  rw [coe_finset_sum]
  refine Finset.sum_congr rfl fun t _ => ?_
  rw [hw t, hL, hv t, EReal.toReal_coe, EReal.toReal_coe, EReal.toReal_coe, Ideal.div_coe hLpos.ne',
    ← EReal.coe_mul, ← EReal.coe_mul]
  congr 1
  ring

/-- So the attention entry of real arrays is real. -/
theorem attnAt_real (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (hWv : ∀ i, ∃ r : ℝ, Wv i = (r : EReal))
    (hbv : ∀ i, ∃ r : ℝ, bv i = (r : EReal)) (b : Fin 4) (s : Fin 2048) (e : Fin 1024) :
    ∃ r : ℝ, attnAt x Wq bq Wk bk Wv bv b s e = (r : EReal) :=
  ⟨_, attnAt_eq_coe hx hWq hbq hWk hbk hWv hbv b s e⟩

/-! ### Two other spellings of the same numbers -/

/-- The attention entry with the definitions of the weights, the row maximum and the denominator written
    out: the one-shot softmax of the row's masked scores applied to the value projections. -/
theorem attnAt_eq_oneShot (x : Rows) (Wq : Weights) (bq : Bias) (Wk : Weights) (bk : Bias) (Wv : Weights) (bv : Bias)
    (b : Fin 4) (s : Fin 2048) (e : Fin 1024) :
    attnAt x Wq bq Wk bk Wv bv b s e
      = ∑ c : Fin 2048,
          Ideal.div
            (Ideal.exp (masked x Wq bq Wk bk b s c
              - Finset.univ.fold max ⊥ (fun c' : Fin 2048 => masked x Wq bq Wk bk b s c')))
            (∑ c' : Fin 2048, Ideal.exp (masked x Wq bq Wk bk b s c'
              - Finset.univ.fold max ⊥ (fun c'' : Fin 2048 => masked x Wq bq Wk bk b s c'')))
          * proj x Wv bv b c e := rfl

/-- On real arrays the factor 1/32 may be applied to the query projection before the dot product:
    (∑ d, q d · k d) · (1/32) = ∑ d, (q d · (1/32)) · k d. -/
theorem score_eq_sum_scaled (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s t : Fin 2048) :
    score x Wq bq Wk bk b s t
      = ∑ d : Fin 1024, (proj x Wq bq b s d * ((1 / 32 : ℝ) : EReal)) * proj x Wk bk b t d := by
  choose q hq using fun d => proj_real hx hWq hbq b s d
  choose k hk using fun d => proj_real hx hWk hbk b t d
  have hL : ∑ d : Fin 1024, proj x Wq bq b s d * proj x Wk bk b t d
      = ((∑ d : Fin 1024, q d * k d : ℝ) : EReal) := by
    rw [coe_finset_sum]
    exact Finset.sum_congr rfl fun d _ => by rw [hq d, hk d, EReal.coe_mul]
  have hR : ∑ d : Fin 1024, (proj x Wq bq b s d * ((1 / 32 : ℝ) : EReal)) * proj x Wk bk b t d
      = ((∑ d : Fin 1024, q d * (1 / 32) * k d : ℝ) : EReal) := by
    rw [coe_finset_sum]
    exact Finset.sum_congr rfl fun d _ => by rw [hq d, hk d, EReal.coe_mul, EReal.coe_mul]
  unfold score
  rw [hL, hR, ← EReal.coe_mul, Finset.sum_mul]
  congr 1
  exact Finset.sum_congr rfl fun d _ => by ring

/-- The f32 word 0x3D000000 denotes the real 1/32 = 2^(-5). -/
theorem ofBits_inv32 : Ideal.ofBits .f32 0x3D000000#32 = ((1 / 32 : ℝ) : EReal) := by
  simp [Ideal.ofBits, Ideal.ieee, -EReal.coe_mul]; norm_num

end Real

end Cert.Spec

end
-- ==== Proof.RowFinal.lean ====
/-
  One query row, consumed key tile by key tile, ends at the specification's attention entry.

  Query row 1024·qi + r sees the keys 0 … 1024·qi + r, all of which lie in the key tiles
  0 … 2·qi + 1 (of 512 keys each). Column k of tile j is key 512·j + k. On real arrays a tile's
  score is the masked score of that key (the factor 1/32 may sit on the query projection), a tile's
  value row is the value projection of that key, and every key outside those tiles is after the
  query, so its masked score is minus infinity. The online softmax over the tiles therefore ends at
  the one-shot softmax over all 2048 keys: numerator over denominator is the attention entry.
-/
import proofs.«150816_j58841051955817_2_alg».proof.Proof.Tiles
import proofs.«150816_j58841051955817_2_alg».proof.Proof.SpecReal

noncomputable section

namespace Cert.Spec

open Idealize.ShloMosaic Idealize.ShloMosaic.ValueIdx Cert.Lib
open scoped BigOperators

variable {x : Rows} {Wq : Weights} {bq : Bias} {Wk : Weights} {bk : Bias} {Wv : Weights} {bv : Bias}

/-- Column k of key tile j is key row 512·j + k; the tiles 0 … 2·qi + 1 hold the keys below 1024·(qi + 1). -/
def keyOf (qi : Fin 2) (p : Fin (2 * (qi.val + 1)) × Fin 512) : Fin 2048 :=
  ⟨512 * p.1.val + p.2.val, by have := p.1.isLt; have := p.2.isLt; have := qi.isLt; omega⟩

/-- Distinct (tile, column) pairs are distinct keys. -/
theorem keyOf_injective (qi : Fin 2) : Function.Injective (keyOf qi) := by
  rintro ⟨j, k⟩ ⟨j', k'⟩ h
  have hv : 512 * j.val + k.val = 512 * j'.val + k'.val := congrArg Fin.val h
  have := k.isLt
  have := k'.isLt
  exact Prod.ext (Fin.ext (by simp only; omega)) (Fin.ext (by simp only; omega))

/-- A key outside the tiles 0 … 2·qi + 1 is at or beyond 1024·(qi + 1). -/
theorem le_of_not_mem_range_keyOf (qi : Fin 2) {c : Fin 2048} (hc : c ∉ Set.range (keyOf qi)) :
    1024 * (qi.val + 1) ≤ c.val := by
  by_contra hlt
  refine hc ⟨(⟨c.val / 512, by omega⟩, ⟨c.val % 512, Nat.mod_lt _ (by norm_num)⟩), Fin.ext ?_⟩
  show 512 * (c.val / 512) + c.val % 512 = c.val
  exact Nat.div_add_mod _ _

/-- On real arrays a tile's score is the masked score of its key: the factor 1/32 on the query
    projection is the factor on the dot product. -/
theorem tileScore_eq_masked (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (b : Fin 4) (s : Fin 2048) {J : ℕ} (j : Fin J) (k : Fin 512)
    (hlt : 512 * j.val + k.val < 2048) :
    tileScore x Wq bq Wk bk b s j k = masked x Wq bq Wk bk b s ⟨512 * j.val + k.val, hlt⟩ := by
  unfold tileScore masked
  by_cases h : 512 * j.val + k.val ≤ s.val
  · rw [dif_pos h, if_pos h, score_eq_sum_scaled hx hWq hbq hWk hbk]
    rfl
  · rw [dif_neg h, if_neg h]

/-- A tile's value row is the value projection of its key. -/
theorem tileVal_eq_proj (b : Fin 4) {J : ℕ} (j : Fin J) (k : Fin 512) (e : Fin 1024)
    (hlt : 512 * j.val + k.val < 2048) :
    tileVal x Wv bv b j k e = proj x Wv bv b ⟨512 * j.val + k.val, hlt⟩ e := by
  unfold tileVal
  rw [dif_pos hlt]

section Row

variable (hx : ∀ i, ∃ r : ℝ, x i = (r : EReal)) (hWq : ∀ i, ∃ r : ℝ, Wq i = (r : EReal))
    (hbq : ∀ i, ∃ r : ℝ, bq i = (r : EReal)) (hWk : ∀ i, ∃ r : ℝ, Wk i = (r : EReal))
    (hbk : ∀ i, ∃ r : ℝ, bk i = (r : EReal)) (hWv : ∀ i, ∃ r : ℝ, Wv i = (r : EReal))
    (hbv : ∀ i, ∃ r : ℝ, bv i = (r : EReal))
include hx hWq hbq hWk hbk

/-- No tile score of real arrays is plus infinity. -/
theorem tileScore_ne_top (b : Fin 4) (qi : Fin 2) (r : Fin 1024) (j : Fin (2 * (qi.val + 1))) (k : Fin 512) :
    tileScore x Wq bq Wk bk b (qRow qi r) j k ≠ ⊤ := by
  rw [tileScore_eq_masked hx hWq hbq hWk hbk b (qRow qi r) j k (keyOf qi (j, k)).isLt]
  exact masked_ne_top hx hWq hbq hWk hbk b _ _

/-- Column 0 of tile 0 is key 0, which every query sees: its score is real. -/
theorem tileScore_zero_ne_bot (b : Fin 4) (qi : Fin 2) (r : Fin 1024) (hJ : 0 < 2 * (qi.val + 1)) :
    ∃ k : Fin 512, tileScore x Wq bq Wk bk b (qRow qi r) (⟨0, hJ⟩ : Fin (2 * (qi.val + 1))) k ≠ ⊥ := by
  refine ⟨⟨0, by norm_num⟩, ?_⟩
  rw [tileScore_eq_masked hx hWq hbq hWk hbk b (qRow qi r) _ _ (by norm_num)]
  obtain ⟨a, ha⟩ := masked_real_of_le hx hWq hbq hWk hbk b (s := qRow qi r)
    (t := ⟨512 * 0 + 0, by norm_num⟩) (Nat.zero_le _)
  rw [ha]
  exact EReal.coe_ne_bot a

include hWv hbv

/-- Every tile value of real arrays is real. -/
theorem tileVal_real (b : Fin 4) (qi : Fin 2) (j : Fin (2 * (qi.val + 1))) (k : Fin 512) (e : Fin 1024) :
    tileVal x Wv bv b j k e ≠ ⊥ ∧ tileVal x Wv bv b j k e ≠ ⊤ := by
  rw [tileVal_eq_proj b j k e (keyOf qi (j, k)).isLt]
  obtain ⟨a, ha⟩ := proj_real hx hWv hbv b (keyOf qi (j, k)) e
  exact ⟨by rw [show proj x Wv bv b ⟨512 * j.val + k.val, (keyOf qi (j, k)).isLt⟩ e = (a : EReal) from ha]
            exact EReal.coe_ne_bot a,
         by rw [show proj x Wv bv b ⟨512 * j.val + k.val, (keyOf qi (j, k)).isLt⟩ e = (a : EReal) from ha]
            exact EReal.coe_ne_top a⟩

/-- After all the key tiles of its causal triangle, a query row's numerator over its denominator is
    the specification's attention entry. -/
theorem rowState_final (b : Fin 4) (qi : Fin 2) (r : Fin 1024) (e : Fin 1024) :
    Ideal.div ((rowState x Wq bq Wk bk Wv bv b qi r (2 * (qi.val + 1))).acc e)
        ((rowState x Wq bq Wk bk Wv bv b qi r (2 * (qi.val + 1))).l)
      = attnAt x Wq bq Wk bk Wv bv b (qRow qi r) e := by
  have hJ : 0 < 2 * (qi.val + 1) := by omega
  rw [attnAt_eq_oneShot]
  exact onlineSoftmax_eq_softmax' (tileScore x Wq bq Wk bk b (qRow qi r)) (tileVal x Wv bv b)
    (fun c : Fin 2048 => masked x Wq bq Wk bk b (qRow qi r) c) (fun (c : Fin 2048) (h : Fin 1024) => proj x Wv bv b c h)
    (keyOf qi) hJ
    (fun j k => tileScore_ne_top hx hWq hbq hWk hbk b qi r j k)
    (fun j k h => tileVal_real hx hWq hbq hWk hbk hWv hbv b qi j k h)
    (tileScore_zero_ne_bot hx hWq hbq hWk hbk b qi r hJ)
    (keyOf_injective qi)
    (fun j k => (tileScore_eq_masked hx hWq hbq hWk hbk b (qRow qi r) j k (keyOf qi (j, k)).isLt).symm)
    (fun j k h => (tileVal_eq_proj b j k h (keyOf qi (j, k)).isLt).symm)
    (fun c hc => masked_of_lt b (by
      have := le_of_not_mem_range_keyOf qi hc
      have := r.isLt
      show 1024 * qi.val + r.val < c.val
      omega))
    e

/-- After at least one key tile a query row's state is real: a real maximum, a positive real
    denominator, a real numerator. -/
theorem rowState_real (b : Fin 4) (qi : Fin 2) (r : Fin 1024) {n : ℕ} (hpos : 0 < n) (hn : n ≤ 2 * (qi.val + 1)) :
    ∃ (μ L : ℝ) (A : Fin 1024 → ℝ),
      (rowState x Wq bq Wk bk Wv bv b qi r n).m = (μ : EReal)
      ∧ (rowState x Wq bq Wk bk Wv bv b qi r n).l = (L : EReal) ∧ 0 < L
      ∧ ∀ e, (rowState x Wq bq Wk bk Wv bv b qi r n).acc e = (A e : EReal) := by
  have hJ : 0 < 2 * (qi.val + 1) := by omega
  exact osRun_real (tileScore x Wq bq Wk bk b (qRow qi r)) (tileVal x Wv bv b) hJ
    (fun j k => tileScore_ne_top hx hWq hbq hWk hbk b qi r j k)
    (fun j k h => tileVal_real hx hWq hbq hWk hbk hWv hbv b qi j k h)
    (tileScore_zero_ne_bot hx hWq hbq hWk hbk b qi r hJ) hpos hn

end Row

end Cert.Spec

end
-- ==== Proof.KI.R1Value.lean ====
/-
  The attention region's value: the three carried buffers follow each query row's online-softmax state key tile by key
  tile, the stored output tile is numerator over denominator of the final state, and the write-backs tile the output
  array with the attention of q, k and v.
-/
import proofs.«150816_j58841051955817_2_alg».proof.Proof.KI.R1Blocks
import proofs.«150816_j58841051955817_2_alg».proof.Proof.KI.R1Pieces
import proofs.«150816_j58841051955817_2_alg».proof.Proof.KI.R1Step
import proofs.«150816_j58841051955817_2_alg».proof.Proof.KI.R1StepInit
import proofs.«150816_j58841051955817_2_alg».proof.Proof.KI.R1Cover
import proofs.«150816_j58841051955817_2_alg».proof.Proof.RowFinal

set_option maxRecDepth 16384

noncomputable section

namespace Cert.KernelIdeal.Value1

open Cert.KernelIdeal Cert.KernelIdeal.Gen Cert.KernelIdeal.Hand Cert.KernelIdeal.Step Cert.Spec Cert.Lib
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b)) (c : Dev nD)
variable (x : Rows) (Wq : Weights) (bq : Bias) (Wk : Weights) (bk : Bias) (Wv : Weights) (bv : Bias)
variable (hQ : ∀ (b : Fin 4) (s : Fin 2048) (d : Fin 1024), (V c main_v5 : S4x2048x1024.Idx → EReal) (ix3 b s d) = qScaled x Wq bq b s d)
  (hK : ∀ (b : Fin 4) (s : Fin 2048) (d : Fin 1024), (V c main_v6 : S4x2048x1024.Idx → EReal) (ix3 b s d) = proj x Wk bk b s d)
  (hV : ∀ (b : Fin 4) (s : Fin 2048) (e : Fin 1024), (V c main_v7 : S4x2048x1024.Idx → EReal) (ix3 b s e) = proj x Wv bv b s e)

/-! # The attention region's value

At position `t = 8·b + 4·qi + ki` with `ki` inside query tile `qi`'s causal triangle (`ki ≤ 2·qi + 1`) the point's
blocks are the query tile's rows of q and key tile `ki`'s rows of k and v, so the body's masked scores and values of
row `r` are the row's `tileScore` and `tileVal`, and one fold takes `rowState n` to `rowState (n + 1)`. -/

include hQ hK in
/-- The body's masked scores of row `r` at the point are key tile `ki`'s scores of query row `1024·qi + r`. -/
theorem sc_eq_tile (t : Fin cfg1.N) (b : Fin 4) (qi : Fin 2) (ki : ℕ) (ht : t.val = 8 * b.val + 4 * qi.val + ki)
    (hki : ki ≤ 2 * qi.val + 1) (r : Fin 1024) (k : Fin 512) :
    sc qi.val ki (iblk1 V c 0 t) (iblk1 V c 1 t) r k
      = tileScore x Wq bq Wk bk b (qRow qi r) (⟨ki, by omega⟩ : Fin (2 * (qi.val + 1))) k := by
  have hq := qi.isLt
  unfold sc tileScore
  by_cases h : 512 * ki + k.val ≤ 1024 * qi.val + r.val
  · rw [if_pos h, dif_pos (by show 512 * ki + k.val ≤ 1024 * qi.val + r.val; exact h)]
    refine Finset.sum_congr rfl fun d _ => ?_
    rw [iblk1_0_apply V c t (ix3 0 r d) (ix3 b (qRow qi r) d) (by show b.val = t.val / 8 + 0; omega)
        (by show 1024 * qi.val + r.val = 1024 * (t.val % 8 / 4) + r.val; omega) rfl,
      iblk1_1_apply V c t (ix3 0 k d) (ix3 b (⟨512 * ki + k.val, by omega⟩ : Fin 2048) d) (by show b.val = t.val / 8 + 0; omega)
        (by show 512 * ki + k.val = 512 * (min (t.val % 4) (2 * (t.val % 8 / 4) + 1)) + k.val; omega) rfl,
      hQ, hK]
  · rw [if_neg h, dif_neg (by show ¬(512 * ki + k.val ≤ 1024 * qi.val + r.val); exact h)]

include hV in
/-- The body's values at the point are key tile `ki`'s rows of v. -/
theorem vals_eq_tile (t : Fin cfg1.N) (b : Fin 4) (qi : Fin 2) (ki : ℕ) (ht : t.val = 8 * b.val + 4 * qi.val + ki)
    (hki : ki ≤ 2 * qi.val + 1) (k : Fin 512) (e : Fin 1024) :
    vals (iblk1 V c 2 t) k e = tileVal x Wv bv b (⟨ki, by omega⟩ : Fin (2 * (qi.val + 1))) k e := by
  have hq := qi.isLt
  unfold vals tileVal
  rw [dif_pos (by show 512 * ki + k.val < 2048; omega),
    iblk1_2_apply V c t (ix3 0 k e) (ix3 b (⟨512 * ki + k.val, by omega⟩ : Fin 2048) e) (by show b.val = t.val / 8 + 0; omega)
      (by show 512 * ki + k.val = 512 * (min (t.val % 4) (2 * (t.val % 8 / 4) + 1)) + k.val; omega) rfl,
    hV]

include hQ hK hV in
/-- ONE FOLD: from carried buffers holding row `r`'s state after `ki` key tiles, the body's three stores hold its
    state after `ki + 1`. -/
theorem step_fold (t : Fin cfg1.N) (b : Fin 4) (qi : Fin 2) (ki : ℕ) (ht : t.val = 8 * b.val + 4 * qi.val + ki)
    (hki : ki ≤ 2 * qi.val + 1) (mp lp : Vec Ideal S1024x1 .f32) (ap : Vec Ideal S1024x1024 .f32) (r : Fin 1024)
    (hst : st mp lp ap r = rowState x Wq bq Wk bk Wv bv b qi r ki) :
    k1_pay5 (k1_pay9 (F := Ideal) (BitVec.ofNat 32 (grid1.coords t 1).val) (BitVec.ofNat 32 (grid1.coords t 2).val) (iblk1 V c 0 t) (iblk1 V c 1 t) mp) (ix2 r 0)
        = (rowState x Wq bq Wk bk Wv bv b qi r (ki + 1)).m
    ∧ k1_pay12 (F := Ideal) (BitVec.ofNat 32 (grid1.coords t 1).val) (BitVec.ofNat 32 (grid1.coords t 2).val) (iblk1 V c 0 t) (iblk1 V c 1 t) mp lp (ix2 r 0)
        = (rowState x Wq bq Wk bk Wv bv b qi r (ki + 1)).l
    ∧ ∀ e : Fin 1024, k1_pay4 (F := Ideal) (k1_pay7 (iblk1 V c 2 t)) (k1_pay10 (BitVec.ofNat 32 (grid1.coords t 1).val) (BitVec.ofNat 32 (grid1.coords t 2).val) (iblk1 V c 0 t) (iblk1 V c 1 t) mp)
          (k1_pay11 (BitVec.ofNat 32 (grid1.coords t 1).val) (BitVec.ofNat 32 (grid1.coords t 2).val) (iblk1 V c 0 t) (iblk1 V c 1 t) mp) ap (ix2 r e)
        = (rowState x Wq bq Wk bk Wv bv b qi r (ki + 1)).acc e := by
  have hq := qi.isLt
  have hN : t.val < 32 := lt_of_lt_of_eq t.isLt (show cfg1.N = 32 from N_1)
  obtain ⟨-, hc1, hc2⟩ := coords1 t
  have e1 : (grid1.coords t 1).val = qi.val := by rw [hc1]; omega
  have e2 : (grid1.coords t 2).val = ki := by rw [hc2]; omega
  rw [e1, e2]
  have hnext : rowState x Wq bq Wk bk Wv bv b qi r (ki + 1)
      = osStep (st mp lp ap r) (sc qi.val ki (iblk1 V c 0 t) (iblk1 V c 1 t) r) (vals (iblk1 V c 2 t)) := by
    unfold rowState
    rw [osRun_succ _ _ (show ki < 2 * (qi.val + 1) by omega), hst]
    unfold rowState
    congr 1
    · funext k; exact (sc_eq_tile V c x Wq bq Wk bk hQ hK t b qi ki ht hki r k).symm
    · funext k e; exact (vals_eq_tile V c x Wv bv hV t b qi ki ht hki k e).symm
  rw [hnext]
  exact ⟨m_step qi.val ki hq (by omega) (iblk1 V c 0 t) (iblk1 V c 1 t) (iblk1 V c 2 t) mp lp ap r,
    l_step qi.val ki hq (by omega) (iblk1 V c 0 t) (iblk1 V c 1 t) (iblk1 V c 2 t) mp lp ap r,
    fun e => acc_step qi.val ki hq (by omega) (iblk1 V c 0 t) (iblk1 V c 1 t) (iblk1 V c 2 t) mp lp ap r e⟩

theorem outsAt1_congr (n n' : ℕ) (h : n < cfg1.N) (h' : n' < cfg1.N) (e : n = n') : outsAt1 V c n h = outsAt1 V c n' h' := by
  subst e; rfl

include hQ hK hV in
/-- THE INVARIANT: after key tile `ki` of query tile `qi` (inside the triangle), row `r` of the three carried buffers is
    the row's running state after `ki + 1` key tiles. By induction on `ki`: the first key tile resets and folds, each
    later one folds what the point before left. -/
theorem inv (b : Fin 4) (qi : Fin 2) : ∀ (ki : ℕ) (hki : ki ≤ 2 * qi.val + 1) (h : 8 * b.val + 4 * qi.val + ki < cfg1.N) (r : Fin 1024),
    st (outsAt1 V c _ h).2.1 (outsAt1 V c _ h).2.2.1 (outsAt1 V c _ h).2.2.2 r = rowState x Wq bq Wk bk Wv bv b qi r (ki + 1) := by
  have hq := qi.isLt
  intro ki
  induction ki with
  | zero =>
    intro hki h r
    have h0 : (⟨8 * b.val + 4 * qi.val + 0, h⟩ : Fin cfg1.N).val % 4 = 0 := by show (8 * b.val + 4 * qi.val + 0) % 4 = 0; omega
    rw [show outsAt1 V c (8 * b.val + 4 * qi.val + 0) h = stA V c (⟨8 * b.val + 4 * qi.val + 0, h⟩ : Fin cfg1.N) h0 from outsAt1_A V c (⟨8 * b.val + 4 * qi.val + 0, h⟩ : Fin cfg1.N) h0]
    unfold stA
    dsimp only
    rw [sout1_A_0_eq, sout1_A_1_eq, sout1_A_2_eq]
    obtain ⟨e1, e2, e3⟩ := step_fold V c x Wq bq Wk bk Wv bv hQ hK hV (⟨8 * b.val + 4 * qi.val + 0, h⟩ : Fin cfg1.N) b qi 0 rfl hki (k1_pay1 (F := Ideal)) (k1_pay2 (F := Ideal)) (k1_pay3 (F := Ideal)) r (by
      unfold rowState; rw [osRun_zero]; exact OSState.ext (init_m r) (init_l r) (funext fun e => init_acc r e))
    exact OSState.ext e1 e2 (funext e3)
  | succ ki ih =>
    intro hki h r
    have hN : 8 * b.val + 4 * qi.val + (ki + 1) < 32 := lt_of_lt_of_eq h N_1
    have hprev : 8 * b.val + 4 * qi.val + ki < cfg1.N := by rw [show cfg1.N = 32 from N_1]; omega
    have IH := ih (by omega) hprev r
    have hpe : outsAt1 V c ((⟨8 * b.val + 4 * qi.val + (ki + 1), h⟩ : Fin cfg1.N).val - 1) (Nat.lt_of_le_of_lt (Nat.sub_le _ _) (⟨8 * b.val + 4 * qi.val + (ki + 1), h⟩ : Fin cfg1.N).isLt)
        = outsAt1 V c (8 * b.val + 4 * qi.val + ki) hprev :=
      outsAt1_congr V c _ _ _ _ (by show 8 * b.val + 4 * qi.val + (ki + 1) - 1 = _; omega)
    by_cases hB : (8 * b.val + 4 * qi.val + (ki + 1)) % 8 = 1 ∨ (8 * b.val + 4 * qi.val + (ki + 1)) % 8 = 7
    · rw [show outsAt1 V c (8 * b.val + 4 * qi.val + (ki + 1)) h = _ from outsAt1_B V c (⟨8 * b.val + 4 * qi.val + (ki + 1), h⟩ : Fin cfg1.N) hB, hpe]
      unfold stB
      dsimp only
      rw [sout1_B_0_eq, sout1_B_1_eq, sout1_B_2_eq]
      obtain ⟨e1, e2, e3⟩ := step_fold V c x Wq bq Wk bk Wv bv hQ hK hV (⟨8 * b.val + 4 * qi.val + (ki + 1), h⟩ : Fin cfg1.N) b qi (ki + 1) rfl hki _ _ _ r IH
      exact OSState.ext e1 e2 (funext e3)
    · have hD : (8 * b.val + 4 * qi.val + (ki + 1)) % 8 = 5 ∨ (8 * b.val + 4 * qi.val + (ki + 1)) % 8 = 6 := by
        rcases (show qi.val = 0 ∨ qi.val = 1 by omega) with hq0 | hq1 <;> omega
      rw [show outsAt1 V c (8 * b.val + 4 * qi.val + (ki + 1)) h = _ from outsAt1_D V c (⟨8 * b.val + 4 * qi.val + (ki + 1), h⟩ : Fin cfg1.N) hD, hpe]
      unfold stD
      dsimp only
      rw [sout1_D_0_eq, sout1_D_1_eq, sout1_D_2_eq]
      obtain ⟨e1, e2, e3⟩ := step_fold V c x Wq bq Wk bk Wv bv hQ hK hV (⟨8 * b.val + 4 * qi.val + (ki + 1), h⟩ : Fin cfg1.N) b qi (ki + 1) rfl hki _ _ _ r IH
      exact OSState.ext e1 e2 (funext e3)

variable (hx : ∀ i, ∃ r : ℝ, x i = (r : EReal)) (hWq : ∀ i, ∃ r : ℝ, Wq i = (r : EReal)) (hbq : ∀ i, ∃ r : ℝ, bq i = (r : EReal))
  (hWk : ∀ i, ∃ r : ℝ, Wk i = (r : EReal)) (hbk : ∀ i, ∃ r : ℝ, bk i = (r : EReal))
  (hWv : ∀ i, ∃ r : ℝ, Wv i = (r : EReal)) (hbv : ∀ i, ∃ r : ℝ, bv i = (r : EReal))

include hQ hK hV hx hWq hbq hWk hbk hWv hbv in
/-- THE OUTPUT TILE: at the triangle's last key tile the stored tile is numerator over denominator of the row's final
    state, which is the softmax-weighted mean of the values. -/
theorem out_at_last (b : Fin 4) (qi : Fin 2) (h : 8 * b.val + 4 * qi.val + (2 * qi.val + 1) < cfg1.N) (r : Fin 1024) (e : Fin 1024) :
    ((outsAt1 V c _ h).1 : S1x1024x1024.Idx → EReal) (ix3 0 r e) = attnAt x Wq bq Wk bk Wv bv b (qRow qi r) e := by
  have hq := qi.isLt
  have hN : 8 * b.val + 4 * qi.val + (2 * qi.val + 1) < 32 := lt_of_lt_of_eq h N_1
  have hB : (8 * b.val + 4 * qi.val + (2 * qi.val + 1)) % 8 = 1 ∨ (8 * b.val + 4 * qi.val + (2 * qi.val + 1)) % 8 = 7 := by
    rcases (show qi.val = 0 ∨ qi.val = 1 by omega) with hq0 | hq1 <;> omega
  have hprev : 8 * b.val + 4 * qi.val + 2 * qi.val < cfg1.N := by rw [show cfg1.N = 32 from N_1]; omega
  have IH := inv V c x Wq bq Wk bk Wv bv hQ hK hV b qi (2 * qi.val) (by omega) hprev r
  have hpe : outsAt1 V c ((⟨8 * b.val + 4 * qi.val + (2 * qi.val + 1), h⟩ : Fin cfg1.N).val - 1) (Nat.lt_of_le_of_lt (Nat.sub_le _ _) (⟨8 * b.val + 4 * qi.val + (2 * qi.val + 1), h⟩ : Fin cfg1.N).isLt)
      = outsAt1 V c (8 * b.val + 4 * qi.val + 2 * qi.val) hprev :=
    outsAt1_congr V c _ _ _ _ (by show 8 * b.val + 4 * qi.val + (2 * qi.val + 1) - 1 = _; omega)
  rw [show outsAt1 V c (8 * b.val + 4 * qi.val + (2 * qi.val + 1)) h = _ from outsAt1_B V c (⟨8 * b.val + 4 * qi.val + (2 * qi.val + 1), h⟩ : Fin cfg1.N) hB, hpe]
  unfold stB
  dsimp only
  rw [out1_B_3_eq, out_apply]
  obtain ⟨-, e2, e3⟩ := step_fold V c x Wq bq Wk bk Wv bv hQ hK hV (⟨8 * b.val + 4 * qi.val + (2 * qi.val + 1), h⟩ : Fin cfg1.N) b qi (2 * qi.val + 1) rfl (le_refl _) _ _ _ r IH
  rw [e2, e3 e, show 2 * qi.val + 1 + 1 = 2 * (qi.val + 1) by omega]
  exact rowState_final hx hWq hbq hWk hbk hWv hbv b qi r e

include hQ hK hV hx hWq hbq hWk hbk hWv hbv in
/-- What the output window's buffer holds at each write-back: the attention of its query tile. For query tile 0 the
    tile stored at key tile 1 is still there at key tile 3. -/
theorem after3_at_flush (t : Fin cfg1.N) (hf : t.val % 8 = 3 ∨ t.val % 8 = 7) (r : Fin 1024) (e : Fin 1024) :
    ((dat1 V c).after 3 t : S1x1024x1024.Idx → EReal) (ix3 0 r e)
      = attn x Wq bq Wk bk Wv bv (ix3 (⟨t.val / 8, by have := lt_of_lt_of_eq t.isLt N_1; omega⟩ : Fin 4) (⟨1024 * (t.val % 8 / 4) + r.val, by omega⟩ : Fin 2048) e) := by
  have hN : t.val < 32 := lt_of_lt_of_eq t.isLt N_1
  rw [after1_3, attn_apply]
  rcases hf with h3 | h7
  · -- query tile 0: the tile stored two points earlier
    have hb : t.val / 8 < 4 := by omega
    rw [outsAt1_C V c t (.inr h3), outsAt1_C V c ⟨t.val - 1, by omega⟩ (.inl (by show (t.val - 1) % 8 = 2; omega)),
      outsAt1_congr V c (t.val - 1 - 1) (8 * (⟨t.val / 8, hb⟩ : Fin 4).val + 4 * (0 : Fin 2).val + (2 * (0 : Fin 2).val + 1)) _
        (lt_of_lt_of_eq (show 8 * (t.val / 8) + 4 * 0 + (2 * 0 + 1) < 32 by omega) N_1.symm)
        (by show t.val - 1 - 1 = 8 * (t.val / 8) + 4 * 0 + (2 * 0 + 1); omega),
      out_at_last V c x Wq bq Wk bk Wv bv hQ hK hV hx hWq hbq hWk hbk hWv hbv ⟨t.val / 8, hb⟩ 0 _ r e]
    congr 1
    exact Fin.ext (by show 1024 * 0 + r.val = 1024 * (t.val % 8 / 4) + r.val; omega)
  · have hb : t.val / 8 < 4 := by omega
    rw [outsAt1_congr V c t.val (8 * (⟨t.val / 8, hb⟩ : Fin 4).val + 4 * (1 : Fin 2).val + (2 * (1 : Fin 2).val + 1)) t.isLt
        (lt_of_lt_of_eq (show 8 * (t.val / 8) + 4 * 1 + (2 * 1 + 1) < 32 by omega) N_1.symm)
        (by show t.val = 8 * (t.val / 8) + 4 * 1 + (2 * 1 + 1); omega),
      out_at_last V c x Wq bq Wk bk Wv bv hQ hK hV hx hWq hbq hWk hbk hWv hbv ⟨t.val / 8, hb⟩ 1 _ r e]
    congr 1
    exact Fin.ext (by show 1024 * 1 + r.val = 1024 * (t.val % 8 / 4) + r.val; omega)

include hQ hK hV hx hWq hbq hWk hbk hWv hbv in
/-- The attention output array ends holding the attention of q, k and v: each write-back writes its query tile's block,
    and the blocks tile the array. -/
theorem final1' : ((dat1 (F := Ideal) V c).arrAt 3 cfg1.N : S4x2048x1024.Idx → EReal) = attn x Wq bq Wk bk Wv bv :=
  arrAt3_of_after V c (attn x Wq bq Wk bk Wv bv) fun t hf r e =>
    after3_at_flush V c x Wq bq Wk bk Wv bv hQ hK hV hx hWq hbq hWk hbk hWv hbv t hf r e

end Cert.KernelIdeal.Value1

namespace Cert.KernelIdeal.Value1

open Cert.KernelIdeal Cert.KernelIdeal.Gen Cert.KernelIdeal.Hand Cert.Spec
open Idealize.ShloMosaic Idealize.ShloMosaic.ValueIdx Idealize.ShloMosaic.TcCoe Idealize.SL.Sem

/-- The same with the hypotheses in the order the assembly takes them. -/
theorem final1 (V : (c : Dev nD) → (b : Ref sig .tc) → Buf (Elt Ideal) ((c : Thread nD τ).loc b)) (c : Dev nD)
    (x : Rows) (Wq : Weights) (bq : Bias) (Wk : Weights) (bk : Bias) (Wv : Weights) (bv : Bias)
    (hx : ∀ i, ∃ r : ℝ, x i = (r : EReal)) (hWq : ∀ i, ∃ r : ℝ, Wq i = (r : EReal)) (hbq : ∀ i, ∃ r : ℝ, bq i = (r : EReal))
    (hWk : ∀ i, ∃ r : ℝ, Wk i = (r : EReal)) (hbk : ∀ i, ∃ r : ℝ, bk i = (r : EReal))
    (hWv : ∀ i, ∃ r : ℝ, Wv i = (r : EReal)) (hbv : ∀ i, ∃ r : ℝ, bv i = (r : EReal))
    (hQ : ∀ (b : Fin 4) (s : Fin 2048) (d : Fin 1024), (V c main_v5 : S4x2048x1024.Idx → EReal) (ix3 b s d) = qScaled x Wq bq b s d)
    (hK : ∀ (b : Fin 4) (s : Fin 2048) (d : Fin 1024), (V c main_v6 : S4x2048x1024.Idx → EReal) (ix3 b s d) = proj x Wk bk b s d)
    (hV : ∀ (b : Fin 4) (s : Fin 2048) (e : Fin 1024), (V c main_v7 : S4x2048x1024.Idx → EReal) (ix3 b s e) = proj x Wv bv b s e) :
    ((dat1 (F := Ideal) V c).arrAt 3 cfg1.N : S4x2048x1024.Idx → EReal) = attn x Wq bq Wk bk Wv bv :=
  final1' V c x Wq bq Wk bk Wv bv hQ hK hV hx hWq hbq hWk hbk hWv hbv

end Cert.KernelIdeal.Value1

end
-- ==== Proof.lean ====
/-
  Causal attention with learned linear projections: a projection kernel (q, k, v = x·Wᵀ + b, the query
  scaled by 1/32) followed by a flash-attention kernel (online softmax over key tiles of 512, the tiles
  above the causal diagonal skipped) computes, on real inputs, the same array as the plain formula
  softmax(mask(q·kᵀ/√1024))·v. Both sides are shown equal to one specification, index by index.
-/
import proofs.«150816_j58841051955817_2_alg».proof.Defs
import proofs.«150816_j58841051955817_2_alg».proof.Proof.Gen.Kernel
import proofs.«150816_j58841051955817_2_alg».proof.Proof.Gen.KernelIdeal
import proofs.«150816_j58841051955817_2_alg».proof.Proof.Gen.ReferenceIdeal
import proofs.«150816_j58841051955817_2_alg».proof.Proof.Gen.Pre_finite_inputs
import proofs.«150816_j58841051955817_2_alg».proof.Proof.Claims
import proofs.«150816_j58841051955817_2_alg».proof.Proof.Algebraic
import proofs.«150816_j58841051955817_2_alg».proof.Proof.KI.R1Value

noncomputable section

namespace Cert.Proof

/-- The five claims, under the programs' and the precondition's stated side conditions. -/
theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves,
    Claims.algebraic_of Cert.KernelIdeal.Value1.final1⟩

end Cert.Proof

end
